-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x640x640 : Shape := ⟨4, ![32, 1, 640, 640]⟩
abbrev S32x3x640x640 : Shape := ⟨4, ![32, 3, 640, 640]⟩
abbrev S_ : Shape := ⟨0, ![]⟩

class Facts : Prop where
  bcast_S_S32x1x640x640 : S_.BroadcastsInDim S32x1x640x640 (![] : Fin 0 → Fin S32x1x640x640.rank)
  reducesTo_S32x1x640x640_S_d0_1_2_3 : S32x1x640x640.ReducesTo [0, 1, 2, 3] S_
  h_S_ : 0 < S_.numel
  bcast_S_S32x3x640x640 : S_.BroadcastsInDim S32x3x640x640 (![] : Fin 0 → Fin S32x3x640x640.rank)
  reducesTo_S32x3x640x640_S_d0_1_2_3 : S32x3x640x640.ReducesTo [0, 1, 2, 3] S_

variable [Facts]

def fn_part1 {F : FTy → Type} [FloatOps F] (main_v13 : IVec S_ 1) (main_v16 : IVec S32x3x640x640 1) : IVec S_ 1 :=
  let main_c_5 : IVec S_ 1 := constantI S_ 1 1#1
  let main_v17 : IVec S_ 1 := (fun x v => Host.reduce IntOp.andi x v reducesTo_S32x3x640x640_S_d0_1_2_3 h_S_) main_v16 main_c_5
  let main_v18 : IVec S_ 1 := andi main_v13 main_v17
  main_v18

def fn {F : FTy → Type} [FloatOps F] (main_arg0 : FVec F S32x1x640x640 .f32) (main_arg1 : FVec F S32x1x640x640 .f32) (main_arg2 : FVec F S32x1x640x640 .f32) (main_arg3 : FVec F S32x3x640x640 .f32) : IVec S_ 1 :=
  let main_v0 : FVec F S32x1x640x640 .f32 := Host.absf main_arg0
  let main_cst : FVec F S_ .f32 := constant S_ .f32 0x7F800000#32
  let main_v1 : FVec F S32x1x640x640 .f32 := broadcastInDim S32x1x640x640 ![] bcast_S_S32x1x640x640 main_cst
  let main_v2 : IVec S32x1x640x640 1 := cmpf .olt main_v0 main_v1
  let main_c : IVec S_ 1 := constantI S_ 1 1#1
  let main_v3 : IVec S_ 1 := (fun x v => Host.reduce IntOp.andi x v reducesTo_S32x1x640x640_S_d0_1_2_3 h_S_) main_v2 main_c
  let main_v4 : FVec F S32x1x640x640 .f32 := Host.absf main_arg1
  let main_cst_0 : FVec F S_ .f32 := constant S_ .f32 0x7F800000#32
  let main_v5 : FVec F S32x1x640x640 .f32 := broadcastInDim S32x1x640x640 ![] bcast_S_S32x1x640x640 main_cst_0
  let main_v6 : IVec S32x1x640x640 1 := cmpf .olt main_v4 main_v5
  let main_c_1 : IVec S_ 1 := constantI S_ 1 1#1
  let main_v7 : IVec S_ 1 := (fun x v => Host.reduce IntOp.andi x v reducesTo_S32x1x640x640_S_d0_1_2_3 h_S_) main_v6 main_c_1
  let main_v8 : IVec S_ 1 := andi main_v3 main_v7
  let main_v9 : FVec F S32x1x640x640 .f32 := Host.absf main_arg2
  let main_cst_2 : FVec F S_ .f32 := constant S_ .f32 0x7F800000#32
  let main_v10 : FVec F S32x1x640x640 .f32 := broadcastInDim S32x1x640x640 ![] bcast_S_S32x1x640x640 main_cst_2
  let main_v11 : IVec S32x1x640x640 1 := cmpf .olt main_v9 main_v10
  let main_c_3 : IVec S_ 1 := constantI S_ 1 1#1
  let main_v12 : IVec S_ 1 := (fun x v => Host.reduce IntOp.andi x v reducesTo_S32x1x640x640_S_d0_1_2_3 h_S_) main_v11 main_c_3
  let main_v13 : IVec S_ 1 := andi main_v8 main_v12
  let main_v14 : FVec F S32x3x640x640 .f32 := Host.absf main_arg3
  let main_cst_4 : FVec F S_ .f32 := constant S_ .f32 0x7F800000#32
  let main_v15 : FVec F S32x3x640x640 .f32 := broadcastInDim S32x3x640x640 ![] bcast_S_S32x3x640x640 main_cst_4
  let main_v16 : IVec S32x3x640x640 1 := cmpf .olt main_v14 main_v15
  fn_part1 (F := F) main_v13 main_v16
-- ==== Kernel.lean ====
abbrev S32x1x640x640 : Shape := ⟨4, ![32, 1, 640, 640]⟩
abbrev S32x3x640x640 : Shape := ⟨4, ![32, 3, 640, 640]⟩
abbrev S32x3x192x640 : Shape := ⟨4, ![32, 3, 192, 640]⟩
abbrev S_ : Shape := ⟨0, ![]⟩
abbrev S32x1x192x640 : Shape := ⟨4, ![32, 1, 192, 640]⟩
abbrev S32x192x640 : Shape := ⟨3, ![32, 192, 640]⟩
abbrev S32x1x640 : Shape := ⟨3, ![32, 1, 640]⟩
abbrev S32x193x640 : Shape := ⟨3, ![32, 193, 640]⟩
abbrev S32x194x640 : Shape := ⟨3, ![32, 194, 640]⟩
abbrev S32x194x1 : Shape := ⟨3, ![32, 194, 1]⟩
abbrev S32x194x641 : Shape := ⟨3, ![32, 194, 641]⟩
abbrev S32x194x642 : Shape := ⟨3, ![32, 194, 642]⟩
abbrev S32x640x640 : Shape := ⟨3, ![32, 640, 640]⟩
abbrev S2x1x1 : Shape := ⟨3, ![2, 1, 1]⟩
abbrev S2x640x640 : Shape := ⟨3, ![2, 640, 640]⟩
abbrev S2x192x640 : Shape := ⟨3, ![2, 192, 640]⟩
abbrev S1x1x1 : Shape := ⟨3, ![1, 1, 1]⟩
abbrev S2x640 : Shape := ⟨2, ![2, 640]⟩
abbrev S2x640x1 : Shape := ⟨3, ![2, 640, 1]⟩
abbrev S2x1 : Shape := ⟨2, ![2, 1]⟩
abbrev S1x1 : Shape := ⟨2, ![1, 1]⟩
abbrev S2x192 : Shape := ⟨2, ![2, 192]⟩
abbrev S2x192x1 : Shape := ⟨3, ![2, 192, 1]⟩

abbrev nBuf : Space → Nat
  | .hbm => 110
  | .vmem => 16
  | .smem => 0
  | _ => 0

abbrev bufTy : (tb : Table) → Fin (tcTables nBuf tb) → BufTy
  | .hbm, ⟨0, _⟩ => ⟨S32x1x640x640, .f32⟩
  | .hbm, ⟨1, _⟩ => ⟨S32x1x640x640, .f32⟩
  | .hbm, ⟨2, _⟩ => ⟨S32x1x640x640, .f32⟩
  | .hbm, ⟨3, _⟩ => ⟨S32x3x640x640, .f32⟩
  | .hbm, ⟨4, _⟩ => ⟨S32x3x192x640, .f32⟩
  | .hbm, ⟨5, _⟩ => ⟨S_, .f32⟩
  | .hbm, ⟨6, _⟩ => ⟨S32x3x192x640, .f32⟩
  | .hbm, ⟨7, _⟩ => ⟨S32x3x192x640, .f32⟩
  | .hbm, ⟨8, _⟩ => ⟨S32x3x192x640, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x3x192x640, .f32⟩
  | .hbm, ⟨13, _⟩ => ⟨S32x3x192x640, .f32⟩
  | .hbm, ⟨14, _⟩ => ⟨S_, .f32⟩
  | .hbm, ⟨15, _⟩ => ⟨S32x3x192x640, .f32⟩
  | .hbm, ⟨16, _⟩ => ⟨S32x3x192x640, .f32⟩
  | .hbm, ⟨17, _⟩ => ⟨S32x1x192x640, .f32⟩
  | .hbm, ⟨18, _⟩ => ⟨S32x192x640, .f32⟩
  | .hbm, ⟨19, _⟩ => ⟨S32x1x192x640, .f32⟩
  | .hbm, ⟨20, _⟩ => ⟨S32x192x640, .f32⟩
  | .hbm, ⟨21, _⟩ => ⟨S32x1x192x640, .f32⟩
  | .hbm, ⟨22, _⟩ => ⟨S32x192x640, .f32⟩
  | .hbm, ⟨23, _⟩ => ⟨S_, .f32⟩
  | .hbm, ⟨24, _⟩ => ⟨S32x192x640, .f32⟩
  | .hbm, ⟨25, _⟩ => ⟨S32x192x640, .f32⟩
  | .hbm, ⟨26, _⟩ => ⟨S_, .f32⟩
  | .hbm, ⟨27, _⟩ => ⟨S32x192x640, .f32⟩
  | .hbm, ⟨28, _⟩ => ⟨S32x192x640, .f32⟩
  | .hbm, ⟨29, _⟩ => ⟨S32x192x640, .f32⟩
  | .hbm, ⟨30, _⟩ => ⟨S_, .f32⟩
  | .hbm, ⟨31, _⟩ => ⟨S32x192x640, .f32⟩
  | .hbm, ⟨32, _⟩ => ⟨S32x192x640, .f32⟩
  | .hbm, ⟨33, _⟩ => ⟨S32x192x640, .f32⟩
  | .hbm, ⟨34, _⟩ => ⟨S32x192x640, .f32⟩
  | .hbm, ⟨35, _⟩ => ⟨S_, .f32⟩
  | .hbm, ⟨36, _⟩ => ⟨S32x192x640, .f32⟩
  | .hbm, ⟨37, _⟩ => ⟨S32x192x640, .i1⟩
  | .hbm, ⟨38, _⟩ => ⟨S_, .i32⟩
  | .hbm, ⟨39, _⟩ => ⟨S32x1x640, .f32⟩
  | .hbm, ⟨40, _⟩ => ⟨S32x1x640, .f32⟩
  | .hbm, ⟨41, _⟩ => ⟨S32x1x640, .f32⟩
  | .hbm, ⟨42, _⟩ => ⟨S32x193x640, .f32⟩
  | .hbm, ⟨43, _⟩ => ⟨S32x1x640, .f32⟩
  | .hbm, ⟨44, _⟩ => ⟨S32x1x640, .f32⟩
  | .hbm, ⟨45, _⟩ => ⟨S32x1x640, .f32⟩
  | .hbm, ⟨46, _⟩ => ⟨S32x194x640, .f32⟩
  | .hbm, ⟨47, _⟩ => ⟨S32x194x1, .f32⟩
  | .hbm, ⟨48, _⟩ => ⟨S32x194x1, .f32⟩
  | .hbm, ⟨49, _⟩ => ⟨S32x194x1, .f32⟩
  | .hbm, ⟨50, _⟩ => ⟨S32x194x641, .f32⟩
  | .hbm, ⟨51, _⟩ => ⟨S32x194x1, .f32⟩
  | .hbm, ⟨52, _⟩ => ⟨S32x194x1, .f32⟩
  | .hbm, ⟨53, _⟩ => ⟨S32x194x1, .f32⟩
  | .hbm, ⟨54, _⟩ => ⟨S32x194x642, .f32⟩
  | .hbm, ⟨55, _⟩ => ⟨S32x192x640, .f32⟩
  | .hbm, ⟨56, _⟩ => ⟨S32x192x640, .f32⟩
  | .hbm, ⟨57, _⟩ => ⟨S32x192x640, .f32⟩
  | .hbm, ⟨58, _⟩ => ⟨S32x192x640, .f32⟩
  | .hbm, ⟨59, _⟩ => ⟨S32x192x640, .f32⟩
  | .hbm, ⟨60, _⟩ => ⟨S32x192x640, .f32⟩
  | .hbm, ⟨61, _⟩ => ⟨S32x192x640, .f32⟩
  | .hbm, ⟨62, _⟩ => ⟨S_, .f32⟩
  | .hbm, ⟨63, _⟩ => ⟨S32x192x640, .f32⟩
  | .hbm, ⟨64, _⟩ => ⟨S32x192x640, .f32⟩
  | .hbm, ⟨65, _⟩ => ⟨S32x192x640, .f32⟩
  | .hbm, ⟨66, _⟩ => ⟨S32x192x640, .f32⟩
  | .hbm, ⟨67, _⟩ => ⟨S_, .f32⟩
  | .hbm, ⟨68, _⟩ => ⟨S32x192x640, .f32⟩
  | .hbm, ⟨69, _⟩ => ⟨S32x192x640, .i1⟩
  | .hbm, ⟨70, _⟩ => ⟨S32x192x640, .i1⟩
  | .hbm, ⟨71, _⟩ => ⟨S32x192x640, .f32⟩
  | .hbm, ⟨72, _⟩ => ⟨S_, .f32⟩
  | .hbm, ⟨73, _⟩ => ⟨S_, .f32⟩
  | .hbm, ⟨74, _⟩ => ⟨S32x192x640, .f32⟩
  | .hbm, ⟨75, _⟩ => ⟨S_, .f32⟩
  | .hbm, ⟨76, _⟩ => ⟨S_, .f32⟩
  | .hbm, ⟨77, _⟩ => ⟨S32x192x640, .f32⟩
  | .hbm, ⟨78, _⟩ => ⟨S_, .f32⟩
  | .hbm, ⟨79, _⟩ => ⟨S_, .f32⟩
  | .hbm, ⟨80, _⟩ => ⟨S32x192x640, .f32⟩
  | .hbm, ⟨81, _⟩ => ⟨S_, .f32⟩
  | .hbm, ⟨82, _⟩ => ⟨S_, .f32⟩
  | .hbm, ⟨83, _⟩ => ⟨S32x192x640, .f32⟩
  | .hbm, ⟨84, _⟩ => ⟨S32x640x640, .f32⟩
  | .hbm, ⟨85, _⟩ => ⟨S32x640x640, .f32⟩
  | .hbm, ⟨86, _⟩ => ⟨S32x640x640, .f32⟩
  | .hbm, ⟨87, _⟩ => ⟨S2x1x1, .f32⟩
  | .hbm, ⟨88, _⟩ => ⟨S2x1x1, .f32⟩
  | .hbm, ⟨89, _⟩ => ⟨S2x1x1, .f32⟩
  | .hbm, ⟨90, _⟩ => ⟨S2x1x1, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .i1⟩
  | .hbm, ⟨107, _⟩ => ⟨S_, .f32⟩
  | .hbm, ⟨108, _⟩ => ⟨S_, .f32⟩
  | .hbm, ⟨109, _⟩ => ⟨S_, .f32⟩
  | .local _ .vmem, ⟨0, _⟩ => ⟨S2x640x640, .f32⟩
  | .local _ .vmem, ⟨1, _⟩ => ⟨S2x640x640, .f32⟩
  | .local _ .vmem, ⟨2, _⟩ => ⟨S2x640x640, .f32⟩
  | .local _ .vmem, ⟨3, _⟩ => ⟨S2x640x640, .f32⟩
  | .local _ .vmem, ⟨4, _⟩ => ⟨S2x640x640, .f32⟩
  | .local _ .vmem, ⟨5, _⟩ => ⟨S2x640x640, .f32⟩
  | .local _ .vmem, ⟨6, _⟩ => ⟨S2x192x640, .f32⟩
  | .local _ .vmem, ⟨7, _⟩ => ⟨S2x192x640, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | _, _ => ⟨S32x1x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49_0 : Ref sig .tc := ⟨.hbm, 87, rfl⟩
abbrev main_v49_1 : Ref sig .tc := ⟨.hbm, 88, rfl⟩
abbrev main_v49_2 : Ref sig .tc := ⟨.hbm, 89, rfl⟩
abbrev main_v49_3 : Ref sig .tc := ⟨.hbm, 90, rfl⟩
abbrev main_cst_12 : Ref sig .tc := ⟨.hbm, 91, rfl⟩
abbrev main_v50 : Ref sig .tc := ⟨.hbm, 92, rfl⟩
abbrev main_cst_13 : Ref sig .tc := ⟨.hbm, 93, rfl⟩
abbrev main_v51 : Ref sig .tc := ⟨.hbm, 94, rfl⟩
abbrev main_cst_14 : Ref sig .tc := ⟨.hbm, 95, rfl⟩
abbrev main_v52 : Ref sig .tc := ⟨.hbm, 96, rfl⟩
abbrev main_cst_15 : Ref sig .tc := ⟨.hbm, 97, rfl⟩
abbrev main_v53 : Ref sig .tc := ⟨.hbm, 98, rfl⟩
abbrev main_cst_16 : Ref sig .tc := ⟨.hbm, 99, rfl⟩
abbrev main_v54 : Ref sig .tc := ⟨.hbm, 100, rfl⟩
abbrev main_v55 : Ref sig .tc := ⟨.hbm, 101, rfl⟩
abbrev main_cst_17 : Ref sig .tc := ⟨.hbm, 102, rfl⟩
abbrev main_v56 : Ref sig .tc := ⟨.hbm, 103, rfl⟩
abbrev main_v57 : Ref sig .tc := ⟨.hbm, 104, rfl⟩
abbrev main_cst_18 : Ref sig .tc := ⟨.hbm, 105, rfl⟩
abbrev main_v58 : Ref sig .tc := ⟨.hbm, 106, rfl⟩
abbrev main_cst_19 : Ref sig .tc := ⟨.hbm, 107, rfl⟩
abbrev main_v59 : Ref sig .tc := ⟨.hbm, 108, rfl⟩
abbrev main_v60 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x640x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x640x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x192x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S32x3x640x640_S32x3x192x640_0_0_448_0 : S32x3x640x640.Slices ![0, 0, 448, 0] S32x3x192x640
  bcast_S_S32x3x192x640 : S_.BroadcastsInDim S32x3x192x640 (![] : Fin 0 → Fin S32x3x192x640.rank)
  slices_S32x3x192x640_S32x1x192x640_0_0_0_0 : S32x3x192x640.Slices ![0, 0, 0, 0] S32x1x192x640
  shapeCasts_S32x1x192x640_S32x192x640 : S32x1x192x640.ShapeCasts S32x192x640
  slices_S32x3x192x640_S32x1x192x640_0_1_0_0 : S32x3x192x640.Slices ![0, 1, 0, 0] S32x1x192x640
  slices_S32x3x192x640_S32x1x192x640_0_2_0_0 : S32x3x192x640.Slices ![0, 2, 0, 0] S32x1x192x640
  bcast_S_S32x192x640 : S_.BroadcastsInDim S32x192x640 (![] : Fin 0 → Fin S32x192x640.rank)
  slices_S32x192x640_S32x1x640_0_0_0 : S32x192x640.Slices ![0, 0, 0] S32x1x640
  slices_S32x192x640_S32x1x640_0_1_0 : S32x192x640.Slices ![0, 1, 0] S32x1x640
  concatenates_S32x1x640_S32x192x640_S32x193x640_d1 : Shape.Concatenates [S32x1x640, S32x192x640] S32x193x640 1
  slices_S32x193x640_S32x1x640_0_192_0 : S32x193x640.Slices ![0, 192, 0] S32x1x640
  slices_S32x193x640_S32x1x640_0_191_0 : S32x193x640.Slices ![0, 191, 0] S32x1x640
  concatenates_S32x193x640_S32x1x640_S32x194x640_d1 : Shape.Concatenates [S32x193x640, S32x1x640] S32x194x640 1
  slices_S32x194x640_S32x194x1_0_0_0 : S32x194x640.Slices ![0, 0, 0] S32x194x1
  slices_S32x194x640_S32x194x1_0_0_1 : S32x194x640.Slices ![0, 0, 1] S32x194x1
  concatenates_S32x194x1_S32x194x640_S32x194x641_d2 : Shape.Concatenates [S32x194x1, S32x194x640] S32x194x641 2
  slices_S32x194x641_S32x194x1_0_0_640 : S32x194x641.Slices ![0, 0, 640] S32x194x1
  slices_S32x194x641_S32x194x1_0_0_639 : S32x194x641.Slices ![0, 0, 639] S32x194x1
  concatenates_S32x194x641_S32x194x1_S32x194x642_d2 : Shape.Concatenates [S32x194x641, S32x194x1] S32x194x642 2
  slices_S32x194x642_S32x192x640_0_0_1 : S32x194x642.Slices ![0, 0, 1] S32x192x640
  slices_S32x194x642_S32x192x640_0_2_1 : S32x194x642.Slices ![0, 2, 1] S32x192x640
  slices_S32x194x642_S32x192x640_0_1_0 : S32x194x642.Slices ![0, 1, 0] S32x192x640
  slices_S32x194x642_S32x192x640_0_1_2 : S32x194x642.Slices ![0, 1, 2] S32x192x640
  bcast_S_S_ : S_.BroadcastsInDim S_ (![] : Fin 0 → Fin S_.rank)
  reduceWindows_S32x192x640_S32x192x640_w1s1p0_0_w3s1p1_1_w3s1p1_1 : S32x192x640.ReduceWindows (![1, 3, 3] : Fin 3 → Nat) ![1, 1, 1] ![0, 1, 1] ![0, 1, 1] S32x192x640
  h_S_ : 0 < S_.numel
  shapeCasts_S32x1x640x640_S32x640x640 : S32x1x640x640.ShapeCasts S32x640x640
  inb_S1x1x1_S1x1x1_0_0_0 : ∀ a, (![0, 0, 0] : Fin 3 → Nat) a + S1x1x1.size a ≤ S1x1x1.size a
  h_S1x1x1 : 0 < S1x1x1.numel
  inb_S2x640x640_S2x640x640_0_0_0 : ∀ a, (![0, 0, 0] : Fin 3 → Nat) a + S2x640x640.size a ≤ S2x640x640.size a
  h_S2x640x640 : 0 < S2x640x640.numel
  shapeCasts_S2x640x640_S2x640x640 : S2x640x640.ShapeCasts S2x640x640
  inb_S2x192x640_S2x192x640_0_0_0 : ∀ a, (![0, 0, 0] : Fin 3 → Nat) a + S2x192x640.size a ≤ S2x192x640.size a
  h_S2x192x640 : 0 < S2x192x640.numel
  shapeCasts_S2x192x640_S2x192x640 : S2x192x640.ShapeCasts S2x192x640
  slices_S2x640x640_o0_448_0_S2x192x640 : S2x640x640.Slices ![0, 448, 0] S2x192x640
  shapeCasts_S1x1x1_S1x1x1 : S1x1x1.ShapeCasts S1x1x1
  reduces_S2x640x640_S2x640 : S2x640x640.Reduces [2] S2x640
  shapeCasts_S2x640_S2x640x1 : S2x640.ShapeCasts S2x640x1
  reduces_S2x640x1_S2x1 : S2x640x1.Reduces [1] S2x1
  shapeCasts_S2x1_S2x1x1 : S2x1.ShapeCasts S2x1x1
  reduces_S2x1x1_S1x1 : S2x1x1.Reduces [0] S1x1
  shapeCasts_S1x1_S1x1x1 : S1x1.ShapeCasts S1x1x1
  reduces_S2x192x640_S2x192 : S2x192x640.Reduces [2] S2x192
  shapeCasts_S2x192_S2x192x1 : S2x192.ShapeCasts S2x192x1
  reduces_S2x192x1_S2x1 : S2x192x1.Reduces [1] S2x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x640x640.size a ≤ S32x640x640.size a
  hwx0_0 : ∀ i : grid0.Coords, EltTy.bits .f32 = 32 ∨ (Rect.block (s := S32x640x640) S2x640x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x640x640.size a ≤ S32x640x640.size a
  hwx0_1 : ∀ i : grid0.Coords, EltTy.bits .f32 = 32 ∨ (Rect.block (s := S32x640x640) S2x640x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x640x640.size a ≤ S32x640x640.size a
  hwx0_2 : ∀ i : grid0.Coords, EltTy.bits .f32 = 32 ∨ (Rect.block (s := S32x640x640) S2x640x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x192x640.size a ≤ S32x192x640.size a
  hwx0_3 : ∀ i : grid0.Coords, EltTy.bits .f32 = 32 ∨ (Rect.block (s := S32x192x640) S2x192x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)

variable [Facts₀]

abbrev win0_0 : Pipeline.Window sig grid0 :=
  Pipeline.Window.ofSpec (Memref.whole main_v46) S2x640x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2x640x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S2x640x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2x192x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49_2) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49_3) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1x640x640 : Shape := ⟨4, ![32, 1, 640, 640]⟩
abbrev S32x3x640x640 : Shape := ⟨4, ![32, 3, 640, 640]⟩
abbrev S_ : Shape := ⟨0, ![]⟩
abbrev S32x640x640 : Shape := ⟨3, ![32, 640, 640]⟩
abbrev S32x192x640 : Shape := ⟨3, ![32, 192, 640]⟩
abbrev S32x1x640 : Shape := ⟨3, ![32, 1, 640]⟩
abbrev S32x193x640 : Shape := ⟨3, ![32, 193, 640]⟩
abbrev S32x194x640 : Shape := ⟨3, ![32, 194, 640]⟩
abbrev S32x194x1 : Shape := ⟨3, ![32, 194, 1]⟩
abbrev S32x194x641 : Shape := ⟨3, ![32, 194, 641]⟩
abbrev S32x194x642 : Shape := ⟨3, ![32, 194, 642]⟩
abbrev S1 : Shape := ⟨1, ![1]⟩

abbrev nBuf : Space → Nat
  | .hbm => 122
  | .vmem => 0
  | .smem => 0
  | _ => 0

abbrev bufTy : (tb : Table) → Fin (tcTables nBuf tb) → BufTy
  | .hbm, ⟨0, _⟩ => ⟨S32x1x640x640, .f32⟩
  | .hbm, ⟨1, _⟩ => ⟨S32x1x640x640, .f32⟩
  | .hbm, ⟨2, _⟩ => ⟨S32x1x640x640, .f32⟩
  | .hbm, ⟨3, _⟩ => ⟨S32x3x640x640, .f32⟩
  | .hbm, ⟨4, _⟩ => ⟨S_, .f32⟩
  | .hbm, ⟨5, _⟩ => ⟨S32x3x640x640, .f32⟩
  | .hbm, ⟨6, _⟩ => ⟨S32x3x640x640, .f32⟩
  | .hbm, ⟨7, _⟩ => ⟨S32x3x640x640, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x3x640x640, .f32⟩
  | .hbm, ⟨12, _⟩ => ⟨S32x3x640x640, .f32⟩
  | .hbm, ⟨13, _⟩ => ⟨S_, .f32⟩
  | .hbm, ⟨14, _⟩ => ⟨S32x3x640x640, .f32⟩
  | .hbm, ⟨15, _⟩ => ⟨S32x3x640x640, .f32⟩
  | .hbm, ⟨16, _⟩ => ⟨S32x1x640x640, .f32⟩
  | .hbm, ⟨17, _⟩ => ⟨S32x640x640, .f32⟩
  | .hbm, ⟨18, _⟩ => ⟨S32x1x640x640, .f32⟩
  | .hbm, ⟨19, _⟩ => ⟨S32x640x640, .f32⟩
  | .hbm, ⟨20, _⟩ => ⟨S32x1x640x640, .f32⟩
  | .hbm, ⟨21, _⟩ => ⟨S32x640x640, .f32⟩
  | .hbm, ⟨22, _⟩ => ⟨S_, .f32⟩
  | .hbm, ⟨23, _⟩ => ⟨S32x640x640, .f32⟩
  | .hbm, ⟨24, _⟩ => ⟨S32x640x640, .f32⟩
  | .hbm, ⟨25, _⟩ => ⟨S_, .f32⟩
  | .hbm, ⟨26, _⟩ => ⟨S32x640x640, .f32⟩
  | .hbm, ⟨27, _⟩ => ⟨S32x640x640, .f32⟩
  | .hbm, ⟨28, _⟩ => ⟨S32x640x640, .f32⟩
  | .hbm, ⟨29, _⟩ => ⟨S_, .f32⟩
  | .hbm, ⟨30, _⟩ => ⟨S32x640x640, .f32⟩
  | .hbm, ⟨31, _⟩ => ⟨S32x640x640, .f32⟩
  | .hbm, ⟨32, _⟩ => ⟨S32x640x640, .f32⟩
  | .hbm, ⟨33, _⟩ => ⟨S32x640x640, .f32⟩
  | .hbm, ⟨34, _⟩ => ⟨S32x192x640, .f32⟩
  | .hbm, ⟨35, _⟩ => ⟨S_, .f32⟩
  | .hbm, ⟨36, _⟩ => ⟨S32x192x640, .f32⟩
  | .hbm, ⟨37, _⟩ => ⟨S32x192x640, .i1⟩
  | .hbm, ⟨38, _⟩ => ⟨S_, .i32⟩
  | .hbm, ⟨39, _⟩ => ⟨S32x1x640, .f32⟩
  | .hbm, ⟨40, _⟩ => ⟨S32x1x640, .f32⟩
  | .hbm, ⟨41, _⟩ => ⟨S32x1x640, .f32⟩
  | .hbm, ⟨42, _⟩ => ⟨S32x193x640, .f32⟩
  | .hbm, ⟨43, _⟩ => ⟨S32x1x640, .f32⟩
  | .hbm, ⟨44, _⟩ => ⟨S32x1x640, .f32⟩
  | .hbm, ⟨45, _⟩ => ⟨S32x1x640, .f32⟩
  | .hbm, ⟨46, _⟩ => ⟨S32x194x640, .f32⟩
  | .hbm, ⟨47, _⟩ => ⟨S32x194x1, .f32⟩
  | .hbm, ⟨48, _⟩ => ⟨S32x194x1, .f32⟩
  | .hbm, ⟨49, _⟩ => ⟨S32x194x1, .f32⟩
  | .hbm, ⟨50, _⟩ => ⟨S32x194x641, .f32⟩
  | .hbm, ⟨51, _⟩ => ⟨S32x194x1, .f32⟩
  | .hbm, ⟨52, _⟩ => ⟨S32x194x1, .f32⟩
  | .hbm, ⟨53, _⟩ => ⟨S32x194x1, .f32⟩
  | .hbm, ⟨54, _⟩ => ⟨S32x194x642, .f32⟩
  | .hbm, ⟨55, _⟩ => ⟨S32x192x640, .f32⟩
  | .hbm, ⟨56, _⟩ => ⟨S32x192x640, .f32⟩
  | .hbm, ⟨57, _⟩ => ⟨S32x192x640, .f32⟩
  | .hbm, ⟨58, _⟩ => ⟨S32x192x640, .f32⟩
  | .hbm, ⟨59, _⟩ => ⟨S32x192x640, .f32⟩
  | .hbm, ⟨60, _⟩ => ⟨S32x192x640, .f32⟩
  | .hbm, ⟨61, _⟩ => ⟨S32x192x640, .f32⟩
  | .hbm, ⟨62, _⟩ => ⟨S_, .f32⟩
  | .hbm, ⟨63, _⟩ => ⟨S32x192x640, .f32⟩
  | .hbm, ⟨64, _⟩ => ⟨S32x192x640, .f32⟩
  | .hbm, ⟨65, _⟩ => ⟨S32x192x640, .f32⟩
  | .hbm, ⟨66, _⟩ => ⟨S32x192x640, .f32⟩
  | .hbm, ⟨67, _⟩ => ⟨S_, .f32⟩
  | .hbm, ⟨68, _⟩ => ⟨S32x192x640, .f32⟩
  | .hbm, ⟨69, _⟩ => ⟨S32x192x640, .i1⟩
  | .hbm, ⟨70, _⟩ => ⟨S32x192x640, .i1⟩
  | .hbm, ⟨71, _⟩ => ⟨S32x192x640, .f32⟩
  | .hbm, ⟨72, _⟩ => ⟨S_, .f32⟩
  | .hbm, ⟨73, _⟩ => ⟨S_, .f32⟩
  | .hbm, ⟨74, _⟩ => ⟨S32x192x640, .f32⟩
  | .hbm, ⟨75, _⟩ => ⟨S_, .f32⟩
  | .hbm, ⟨76, _⟩ => ⟨S_, .f32⟩
  | .hbm, ⟨77, _⟩ => ⟨S32x192x640, .f32⟩
  | .hbm, ⟨78, _⟩ => ⟨S_, .f32⟩
  | .hbm, ⟨79, _⟩ => ⟨S_, .f32⟩
  | .hbm, ⟨80, _⟩ => ⟨S32x192x640, .f32⟩
  | .hbm, ⟨81, _⟩ => ⟨S_, .f32⟩
  | .hbm, ⟨82, _⟩ => ⟨S_, .f32⟩
  | .hbm, ⟨83, _⟩ => ⟨S32x192x640, .f32⟩
  | .hbm, ⟨84, _⟩ => ⟨S_, .f32⟩
  | .hbm, ⟨85, _⟩ => ⟨S32x640x640, .f32⟩
  | .hbm, ⟨86, _⟩ => ⟨S_, .i32⟩
  | .hbm, ⟨87, _⟩ => ⟨S1, .i32⟩
  | .hbm, ⟨88, _⟩ => ⟨S32x640x640, .f32⟩
  | .hbm, ⟨89, _⟩ => ⟨S32x1x640x640, .f32⟩
  | .hbm, ⟨90, _⟩ => ⟨S_, .f32⟩
  | .hbm, ⟨91, _⟩ => ⟨S32x1x640x640, .f32⟩
  | .hbm, ⟨92, _⟩ => ⟨S32x1x640x640, .f32⟩
  | .hbm, ⟨93, _⟩ => ⟨S32x1x640x640, .f32⟩
  | .hbm, ⟨94, _⟩ => ⟨S32x1x640x640, .f32⟩
  | .hbm, ⟨95, _⟩ => ⟨S32x1x640x640, .f32⟩
  | .hbm, ⟨96, _⟩ => ⟨S32x1x640x640, .f32⟩
  | .hbm, ⟨97, _⟩ => ⟨S32x1x640x640, .f32⟩
  | .hbm, ⟨98, _⟩ => ⟨S32x1x640x640, .f32⟩
  | .hbm, ⟨99, _⟩ => ⟨S32x1x640x640, .f32⟩
  | .hbm, ⟨100, _⟩ => ⟨S32x1x640x640, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S32x1x640x640, .f32⟩
  | .hbm, ⟨109, _⟩ => ⟨S_, .f32⟩
  | .hbm, ⟨110, _⟩ => ⟨S_, .f32⟩
  | .hbm, ⟨111, _⟩ => ⟨S32x1x640x640, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .i1⟩
  | .hbm, ⟨119, _⟩ => ⟨S_, .f32⟩
  | .hbm, ⟨120, _⟩ => ⟨S_, .f32⟩
  | .hbm, ⟨121, _⟩ => ⟨S_, .f32⟩
  | _, _ => ⟨S32x1x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_c_13 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_14 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_15 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_cst_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_18 : Ref sig .tc := ⟨.hbm, 109, rfl⟩
abbrev main_v65 : Ref sig .tc := ⟨.hbm, 110, rfl⟩
abbrev main_v66 : Ref sig .tc := ⟨.hbm, 111, rfl⟩
abbrev main_cst_19 : Ref sig .tc := ⟨.hbm, 112, rfl⟩
abbrev main_v67 : Ref sig .tc := ⟨.hbm, 113, rfl⟩
abbrev main_cst_20 : Ref sig .tc := ⟨.hbm, 114, rfl⟩
abbrev main_v68 : Ref sig .tc := ⟨.hbm, 115, rfl⟩
abbrev main_v69 : Ref sig .tc := ⟨.hbm, 116, rfl⟩
abbrev main_cst_21 : Ref sig .tc := ⟨.hbm, 117, rfl⟩
abbrev main_v70 : Ref sig .tc := ⟨.hbm, 118, rfl⟩
abbrev main_cst_22 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]

class Facts₀ : Prop where
  bcast_S_S32x3x640x640 : S_.BroadcastsInDim S32x3x640x640 (![] : Fin 0 → Fin S32x3x640x640.rank)
  slices_S32x3x640x640_S32x1x640x640_0_0_0_0 : S32x3x640x640.Slices ![0, 0, 0, 0] S32x1x640x640
  shapeCasts_S32x1x640x640_S32x640x640 : S32x1x640x640.ShapeCasts S32x640x640
  slices_S32x3x640x640_S32x1x640x640_0_1_0_0 : S32x3x640x640.Slices ![0, 1, 0, 0] S32x1x640x640
  slices_S32x3x640x640_S32x1x640x640_0_2_0_0 : S32x3x640x640.Slices ![0, 2, 0, 0] S32x1x640x640
  bcast_S_S32x640x640 : S_.BroadcastsInDim S32x640x640 (![] : Fin 0 → Fin S32x640x640.rank)
  slices_S32x640x640_S32x192x640_0_448_0 : S32x640x640.Slices ![0, 448, 0] S32x192x640
  bcast_S_S32x192x640 : S_.BroadcastsInDim S32x192x640 (![] : Fin 0 → Fin S32x192x640.rank)
  slices_S32x192x640_S32x1x640_0_0_0 : S32x192x640.Slices ![0, 0, 0] S32x1x640
  slices_S32x192x640_S32x1x640_0_1_0 : S32x192x640.Slices ![0, 1, 0] S32x1x640
  concatenates_S32x1x640_S32x192x640_S32x193x640_d1 : Shape.Concatenates [S32x1x640, S32x192x640] S32x193x640 1
  slices_S32x193x640_S32x1x640_0_192_0 : S32x193x640.Slices ![0, 192, 0] S32x1x640
  slices_S32x193x640_S32x1x640_0_191_0 : S32x193x640.Slices ![0, 191, 0] S32x1x640
  concatenates_S32x193x640_S32x1x640_S32x194x640_d1 : Shape.Concatenates [S32x193x640, S32x1x640] S32x194x640 1
  slices_S32x194x640_S32x194x1_0_0_0 : S32x194x640.Slices ![0, 0, 0] S32x194x1
  slices_S32x194x640_S32x194x1_0_0_1 : S32x194x640.Slices ![0, 0, 1] S32x194x1
  concatenates_S32x194x1_S32x194x640_S32x194x641_d2 : Shape.Concatenates [S32x194x1, S32x194x640] S32x194x641 2
  slices_S32x194x641_S32x194x1_0_0_640 : S32x194x641.Slices ![0, 0, 640] S32x194x1
  slices_S32x194x641_S32x194x1_0_0_639 : S32x194x641.Slices ![0, 0, 639] S32x194x1
  concatenates_S32x194x641_S32x194x1_S32x194x642_d2 : Shape.Concatenates [S32x194x641, S32x194x1] S32x194x642 2
  slices_S32x194x642_S32x192x640_0_0_1 : S32x194x642.Slices ![0, 0, 1] S32x192x640
  slices_S32x194x642_S32x192x640_0_2_1 : S32x194x642.Slices ![0, 2, 1] S32x192x640
  slices_S32x194x642_S32x192x640_0_1_0 : S32x194x642.Slices ![0, 1, 0] S32x192x640
  slices_S32x194x642_S32x192x640_0_1_2 : S32x194x642.Slices ![0, 1, 2] S32x192x640
  bcast_S_S_ : S_.BroadcastsInDim S_ (![] : Fin 0 → Fin S_.rank)
  reduceWindows_S32x192x640_S32x192x640_w1s1p0_0_w3s1p1_1_w3s1p1_1 : S32x192x640.ReduceWindows (![1, 3, 3] : Fin 3 → Nat) ![1, 1, 1] ![0, 1, 1] ![0, 1, 1] S32x192x640
  h_S_ : 0 < S_.numel
  bcast_S_S1 : S_.BroadcastsInDim S1 (![] : Fin 0 → Fin S1.rank)
  bcast_S32x640x640_S32x1x640x640_0_2_3 : S32x640x640.BroadcastsInDim S32x1x640x640 (![0, 2, 3] : Fin 3 → Fin S32x1x640x640.rank)
  bcast_S_S32x1x640x640 : S_.BroadcastsInDim S32x1x640x640 (![] : Fin 0 → Fin S32x1x640x640.rank)
  reducesTo_S32x1x640x640_S_d0_1_2_3 : S32x1x640x640.ReducesTo [0, 1, 2, 3] S_
  scatter_S32x640x640_S1_S32x192x640_012_n_1_0_wf : ScatterDims.WF S32x640x640 S1 S32x192x640 [0, 1, 2] [] [1] 0

variable [Facts₀]

def scatter_S32x640x640_S1_S32x192x640_012_n_1_0 : ScatterDims S32x640x640 S1 S32x192x640 where
  updateWindowDims := [0, 1, 2]
  insertedWindowDims := []
  scatterDimsToOperandDims := [1]
  indexVectorDim := 0
  wf := scatter_S32x640x640_S1_S32x192x640_012_n_1_0_wf

class Facts : Prop extends Facts₀ where

variable [Facts]
-- ==== Proof.KPieces.lean ====
/-
  What one run of the kernel body leaves in each of the four one-entry output blocks, as a value.

  The body loads a block of two images of pred, gt and mask and the matching block of the bottom-strip subtitle mask,
  forms the per-pixel loss, and adds four block sums into four accumulators. At the first step of a group of eight
  steps the accumulators are first set to zero. Each lemma here says that the contents the generated run found for an
  output are the corresponding pure term of the loaded blocks and of the accumulator's previous contents.
-/
import proofs.«148992_j53300544143793_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F]

theorem hz3 : (![0, 0, 0] : Fin 3 → Nat) = fun _ => 0 := funext fun a => by fin_cases a <;> rfl

variable (c : Dev nD) (i : grid0.Coords)
  (a2 : Memref sig .tc .vmem S2x640x640 .f32) (h2 : a2.IsWhole) (a3 : Memref sig .tc .vmem S2x640x640 .f32) (h3 : a3.IsWhole)
  (a4 : Memref sig .tc .vmem S2x640x640 .f32) (h4 : a4.IsWhole) (a5 : Memref sig .tc .vmem S2x192x640 .f32) (h5 : a5.IsWhole)
  (a6 : Memref sig .tc .vmem S1x1x1 .f32) (h6 : a6.IsWhole) (a7 : Memref sig .tc .vmem S1x1x1 .f32) (h7 : a7.IsWhole)
  (a8 : Memref sig .tc .vmem S1x1x1 .f32) (h8 : a8.IsWhole) (a9 : Memref sig .tc .vmem S1x1x1 .f32) (h9 : a9.IsWhole)
  (x0 x1 x2 : Vec F S2x640x640 .f32) (x3 : Vec F S2x192x640 .f32) (xo4 xo5 xo6 xo7 : Vec F S1x1x1 .f32)

/-- Away from a group's first step the body leaves in output 4 its previous contents plus this block's sum
    (the running sum of bce·mask): the one store that covers the block, its loads reading the whole staging buffers. -/
theorem out_B4 (hc : ¬cond0_0 i) :
    out0_B_4 c i a2 h2 a3 h3 a4 h4 a5 h5 a6 h6 a7 h7 a8 h8 a9 h9 hc x0 x1 x2 x3 xo4 xo5 xo6 xo7 = k0_pay9 x0 x1 x2 xo4 := by
  unfold out0_B_4
  rw [View.read_writes_eq_canon _ _ _ (cover0_B_4 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- Away from a group's first step the body leaves in output 5 its previous contents plus this block's sum
    (the running sum of mask): the one store that covers the block, its loads reading the whole staging buffers. -/
theorem out_B5 (hc : ¬cond0_0 i) :
    out0_B_5 c i a2 h2 a3 h3 a4 h4 a5 h5 a6 h6 a7 h7 a8 h8 a9 h9 hc x0 x1 x2 x3 xo4 xo5 xo6 xo7 = k0_pay10 (k0_pay5 x2) xo5 := by
  unfold out0_B_5
  rw [View.read_writes_eq_canon _ _ _ (cover0_B_5 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- Away from a group's first step the body leaves in output 6 its previous contents plus this block's sum
    (the running sum of bce·(mask·sub) over the bottom strip): the one store that covers the block, its loads reading the whole staging buffers. -/
theorem out_B6 (hc : ¬cond0_0 i) :
    out0_B_6 c i a2 h2 a3 h3 a4 h4 a5 h5 a6 h6 a7 h7 a8 h8 a9 h9 hc x0 x1 x2 x3 xo4 xo5 xo6 xo7 = k0_pay11 (k0_pay8 x0 x1 x2 x3) xo6 := by
  unfold out0_B_6
  rw [View.read_writes_eq_canon _ _ _ (cover0_B_6 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- Away from a group's first step the body leaves in output 7 its previous contents plus this block's sum
    (the running sum of mask·sub over the bottom strip): the one store that covers the block, its loads reading the whole staging buffers. -/
theorem out_B7 (hc : ¬cond0_0 i) :
    out0_B_7 c i a2 h2 a3 h3 a4 h4 a5 h5 a6 h6 a7 h7 a8 h8 a9 h9 hc x0 x1 x2 x3 xo4 xo5 xo6 xo7 = k0_pay12 (k0_pay7 x2 x3) xo7 := by
  unfold out0_B_7
  rw [View.read_writes_eq_canon _ _ _ (cover0_B_7 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- At a group's first step the body first stores the zero block, reads it back, and leaves zero plus this block's
    sum (the running sum of bce·mask). -/
theorem out_A4 (hc : cond0_0 i) :
    out0_A_4 c i a2 h2 a3 h3 a4 h4 a5 h5 a6 h6 a7 h7 a8 h8 a9 h9 hc x0 x1 x2 x3 = k0_pay9 x0 x1 x2 k0_pay1 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- At a group's first step the body first stores the zero block, reads it back, and leaves zero plus this block's
    sum (the running sum of mask). -/
theorem out_A5 (hc : cond0_0 i) :
    out0_A_5 c i a2 h2 a3 h3 a4 h4 a5 h5 a6 h6 a7 h7 a8 h8 a9 h9 hc x0 x1 x2 x3 = k0_pay10 (k0_pay5 x2) k0_pay2 := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- At a group's first step the body first stores the zero block, reads it back, and leaves zero plus this block's
    sum (the running sum of bce·(mask·sub) over the bottom strip). -/
theorem out_A6 (hc : cond0_0 i) :
    out0_A_6 c i a2 h2 a3 h3 a4 h4 a5 h5 a6 h6 a7 h7 a8 h8 a9 h9 hc x0 x1 x2 x3 = k0_pay11 (k0_pay8 x0 x1 x2 x3) k0_pay3 := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

/-- At a group's first step the body first stores the zero block, reads it back, and leaves zero plus this block's
    sum (the running sum of mask·sub over the bottom strip). -/
theorem out_A7 (hc : cond0_0 i) :
    out0_A_7 c i a2 h2 a3 h3 a4 h4 a5 h5 a6 h6 a7 h7 a8 h8 a9 h9 hc x0 x1 x2 x3 = k0_pay12 (k0_pay7 x2 x3) k0_pay4 := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, View.ld_unit_zero (S := S2x640x640) hz3, View.ld_unit_zero (S := S2x192x640) hz3, View.ld_unit_zero (S := S1x1x1) hz3]

end Cert.KernelIdeal.KPieces
end
-- ==== Proof.LibSumAxis.lean ====
/-
  A kernel-side `vector.multi_reduction <add>` of an `[a, b, c]` array of f32 read at an index, at the
  ideal instance: along the last axis, entry `(p, q)` of the result is the sum over `k` of the entries
  `(p, q, k)`; along the middle axis, entry `(p, r)` is the sum over `k` of the entries `(p, k, r)`.
  The accumulator is the zero pattern, the sum's neutral element, so no initial term appears.
-/
import Idealize.ShloMosaic.Lib.ValueIdx
import Idealize.ShloMosaic.PureOps.Ideal.Laws

noncomputable section

open scoped BigOperators

namespace Cert.SumAxis

open Idealize.ShloMosaic Idealize.ShloMosaic.ValueIdx

/-- The sum along the last axis, at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec (FTy.bits .f32)) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src _ h hφ hacc (ix2 p q)).trans ?_
  show ∑ k : Fin c, src (h.lift (ix2 p q) k) = _
  exact Finset.sum_congr rfl fun k _ => congrArg src
    (funext fun ax => Fin.ext (by match ax with | ⟨0, _⟩ => rfl | ⟨1, _⟩ => rfl | ⟨2, _⟩ => rfl))

/-- The sum along the middle axis, at `(p, r)`. -/
theorem sumMid_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec (FTy.bits .f32)) = FKind.add.neutral .f32 hφ) (p : Fin a) (r : Fin c) :
    multiReduction .add [1] ⟨2, ![a, c]⟩ src 0x00000000#32 h hφ hacc (ix2 p r) = ∑ k : Fin b, src (ix3 p k r) := by
  refine (Ideal.multiReduction_add_single src _ h hφ hacc (ix2 p r)).trans ?_
  show ∑ k : Fin b, src (h.lift (ix2 p r) k) = _
  exact Finset.sum_congr rfl fun k _ => congrArg src
    (funext fun ax => Fin.ext (by match ax with | ⟨0, _⟩ => rfl | ⟨1, _⟩ => rfl | ⟨2, _⟩ => rfl))

end Cert.SumAxis

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.BlockSum.lean ====
/-
  The total of a rank-three block, taken one axis at a time.

  The kernel sums a block `x` of shape [a, b, c] in three steps, each keeping its axis as a unit axis: along the last
  axis ([a, b], viewed as [a, b, 1]), then along the middle axis ([a, 1], viewed as [a, 1, 1]), then along the first axis
  ([1, 1], viewed as [1, 1, 1]). Read at its one index, at the ideal instance, the result is the triple sum of the
  entries of `x`. The accumulator of each step is the zero pattern, the neutral element, so no initial term appears.
-/
import Idealize.ShloMosaic.Lib.ValueIdx
import Idealize.ShloMosaic.Lib.Pipeline.Value
import Idealize.ShloMosaic.PureOps.Ideal.Laws
import proofs.«148992_j53300544143793_2_alg».proof.Proof.LibSumAxis
import proofs.«148992_j53300544143793_2_alg».proof.Proof.LibRank3

noncomputable section

open scoped BigOperators

namespace Cert.BlockSum

open Idealize.ShloMosaic Idealize.ShloMosaic.ValueIdx

/-- The sum along the first axis, at `(q, r)`: the sum over `k` of the entries `(k, q, r)`. -/
theorem sumFirst_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec (FTy.bits .f32)) = FKind.add.neutral .f32 hφ) (q : Fin b) (r : Fin c) :
    multiReduction .add [0] ⟨2, ![b, c]⟩ src 0x00000000#32 h hφ hacc (ix2 q r) = ∑ k : Fin a, src (ix3 k q r) := by
  refine (Ideal.multiReduction_add_single src _ h hφ hacc (ix2 q r)).trans ?_
  show ∑ k : Fin a, src (h.lift (ix2 q r) k) = _
  exact Finset.sum_congr rfl fun k _ => congrArg src
    (funext fun ax => Fin.ext (by match ax with | ⟨0, _⟩ => rfl | ⟨1, _⟩ => rfl | ⟨2, _⟩ => rfl))

/-- The three-step total of a block, read at its one index, is the triple sum of the block's entries. -/
theorem total_apply {a b c : ℕ} (x : FVec Ideal ⟨3, ![a, b, c]⟩ .f32)
    (h1 : Shape.Reduces ⟨3, ![a, b, c]⟩ [2] ⟨2, ![a, b]⟩) (c1 : (⟨2, ![a, b]⟩ : Shape).ShapeCasts ⟨3, ![a, b, 1]⟩)
    (h2 : Shape.Reduces ⟨3, ![a, b, 1]⟩ [1] ⟨2, ![a, 1]⟩) (c2 : (⟨2, ![a, 1]⟩ : Shape).ShapeCasts ⟨3, ![a, 1, 1]⟩)
    (h3 : Shape.Reduces ⟨3, ![a, 1, 1]⟩ [0] ⟨2, ![1, 1]⟩) (c3 : (⟨2, ![1, 1]⟩ : Shape).ShapeCasts ⟨3, ![1, 1, 1]⟩)
    (hφ : FKind.Formats .f32) (hacc : (0x00000000#32 : BitVec (FTy.bits .f32)) = FKind.add.neutral .f32 hφ)
    (j : (⟨3, ![1, 1, 1]⟩ : Shape).Idx) :
    shapeCast ⟨3, ![1, 1, 1]⟩
        (multiReduction .add [0] ⟨2, ![1, 1]⟩
          (shapeCast ⟨3, ![a, 1, 1]⟩
            (multiReduction .add [1] ⟨2, ![a, 1]⟩
              (shapeCast ⟨3, ![a, b, 1]⟩ (multiReduction .add [2] ⟨2, ![a, b]⟩ x 0x00000000#32 h1 hφ hacc) c1)
              0x00000000#32 h2 hφ hacc) c2)
          0x00000000#32 h3 hφ hacc) c3 j
      = ∑ p : Fin a, ∑ q : Fin b, ∑ k : Fin c, x (ix3 p q k) := by
  obtain ⟨u, v, w, rfl⟩ : ∃ (u v w : Fin 1), j = ix3 u v w := ⟨j 0, j 1, j 2, eq_ix3 j⟩
  rw [Cert.Rank3.shapeCast_ab_ab1_apply, sumFirst_apply]
  refine Finset.sum_congr rfl fun p _ => ?_
  rw [Cert.Rank3.shapeCast_ab_ab1_apply, Cert.SumAxis.sumMid_apply]
  refine Finset.sum_congr rfl fun q _ => ?_
  rw [Cert.Rank3.shapeCast_ab_ab1_apply, Cert.SumAxis.sumLast_apply]

end Cert.BlockSum

end
-- ==== Proof.KPay.lean ====
/-
  The body's four accumulator updates read at their one index, at the ideal instance.

  Each update adds to the accumulator's previous value the total of a block: of loss·mask and of mask over the
  whole [2, 640, 640] block, and of loss·(mask·sub) and of mask·sub over its bottom strip (rows 448 … 639, 192 of them),
  `sub` being the [2, 192, 640] block of the bottom-strip subtitle mask. The per-pixel loss of a prediction `p`
  against a target `g` is max(p, 0) − p·g + log(1 + e^(0 − |p|)).
-/
import proofs.«148992_j53300544143793_2_alg».proof.Proof.Gen.KernelIdeal.Skeleton
import proofs.«148992_j53300544143793_2_alg».proof.Proof.BlockSum

noncomputable section

open scoped BigOperators

namespace Cert.KernelIdeal.KPay

open Cert.KernelIdeal Cert.KernelIdeal.Gen Idealize.ShloMosaic Idealize.ShloMosaic.ValueIdx

/-- The per-pixel loss: max(p, 0) − p·g + log(1 + e^(0 − |p|)), on the extended reals. -/
def bce1 (p g : EReal) : EReal :=
  max p (Ideal.ofBits .f32 0x00000000#32) - p * g + Ideal.log1p (Ideal.exp (Ideal.ofBits .f32 0x00000000#32 - max p (-p)))

/-- Row `448 + q` of a block of 640 rows, for a row `q` of the bottom strip. -/
abbrev low (q : Fin 192) : Fin 640 := ⟨448 + q.val, by have := q.isLt; omega⟩

/-- The loss block at a pixel is the per-pixel loss of the prediction and the target there. -/
theorem pay6_apply (x0 x1 : Vec Ideal S2x640x640 .f32) (j : S2x640x640.Idx) : k0_pay6 x0 x1 j = bce1 (x0 j) (x1 j) := by
  unfold k0_pay6
  simp only [shapeCast_self]
  rfl

/-- The bottom strip of a [2, 640, 640] block at (p, q, k) is the block at row 448 + q. -/
theorem strip_apply (x : FVec Ideal S2x640x640 .f32) (p : Fin 2) (q : Fin 192) (k : Fin 640) :
    extractStridedSlice S2x192x640 ![0, 448, 0] x slices_S2x640x640_o0_448_0_S2x192x640 (ix3 p q k) = x (ix3 p (low q) k) :=
  extractStridedSlice_apply _ x _ (ix3 p q k) (ix3 p (low q) k) fun a => by
    match a with
    | ⟨0, _⟩ => show p.val = 0 + p.val; omega
    | ⟨1, _⟩ => rfl
    | ⟨2, _⟩ => show k.val = 0 + k.val; omega

/-- mask·sub on the bottom strip, at a pixel. -/
theorem pay7_apply (x2 : Vec Ideal S2x640x640 .f32) (x3 : Vec Ideal S2x192x640 .f32) (p : Fin 2) (q : Fin 192) (k : Fin 640) :
    k0_pay7 x2 x3 (ix3 p q k) = x2 (ix3 p (low q) k) * x3 (ix3 p q k) := by
  unfold k0_pay7 k0_pay5
  simp only [shapeCast_self]
  rw [mulf_apply, strip_apply]

/-- loss·(mask·sub) on the bottom strip, at a pixel. -/
theorem pay8_apply (x0 x1 x2 : Vec Ideal S2x640x640 .f32) (x3 : Vec Ideal S2x192x640 .f32) (p : Fin 2) (q : Fin 192) (k : Fin 640) :
    k0_pay8 x0 x1 x2 x3 (ix3 p q k)
      = bce1 (x0 (ix3 p (low q) k)) (x1 (ix3 p (low q) k)) * (x2 (ix3 p (low q) k) * x3 (ix3 p q k)) := by
  unfold k0_pay8
  show mulf (extractStridedSlice S2x192x640 ![0, 448, 0] (k0_pay6 x0 x1) slices_S2x640x640_o0_448_0_S2x192x640) (k0_pay7 x2 x3) (ix3 p q k) = _
  rw [mulf_apply, strip_apply, pay6_apply, pay7_apply]

set_option backward.isDefEq.respectTransparency.types false in
/-- The first accumulator grows by the block's total of loss·mask. -/
theorem pay9_apply (x0 x1 x2 : Vec Ideal S2x640x640 .f32) (acc : Vec Ideal S1x1x1 .f32) (j : S1x1x1.Idx) :
    k0_pay9 x0 x1 x2 acc j
      = acc j + ∑ p : Fin 2, ∑ q : Fin 640, ∑ k : Fin 640, bce1 (x0 (ix3 p q k)) (x1 (ix3 p q k)) * x2 (ix3 p q k) := by
  unfold k0_pay9 k0_pay5
  simp only [shapeCast_self]
  rw [addf_apply, Cert.BlockSum.total_apply]
  simp only [mulf_apply, pay6_apply]

set_option backward.isDefEq.respectTransparency.types false in
/-- The second accumulator grows by the block's total of mask. -/
theorem pay10_apply (x2 : Vec Ideal S2x640x640 .f32) (acc : Vec Ideal S1x1x1 .f32) (j : S1x1x1.Idx) :
    k0_pay10 (k0_pay5 x2) acc j = acc j + ∑ p : Fin 2, ∑ q : Fin 640, ∑ k : Fin 640, x2 (ix3 p q k) := by
  unfold k0_pay10 k0_pay5
  simp only [shapeCast_self]
  rw [addf_apply, Cert.BlockSum.total_apply]

set_option backward.isDefEq.respectTransparency.types false in
/-- The third accumulator grows by the bottom strip's total of loss·(mask·sub). -/
theorem pay11_apply (x0 x1 x2 : Vec Ideal S2x640x640 .f32) (x3 : Vec Ideal S2x192x640 .f32) (acc : Vec Ideal S1x1x1 .f32)
    (j : S1x1x1.Idx) :
    k0_pay11 (k0_pay8 x0 x1 x2 x3) acc j
      = acc j + ∑ p : Fin 2, ∑ q : Fin 192, ∑ k : Fin 640,
          bce1 (x0 (ix3 p (low q) k)) (x1 (ix3 p (low q) k)) * (x2 (ix3 p (low q) k) * x3 (ix3 p q k)) := by
  unfold k0_pay11
  simp only [shapeCast_self]
  rw [addf_apply, Cert.BlockSum.total_apply]
  simp only [pay8_apply]

set_option backward.isDefEq.respectTransparency.types false in
/-- The fourth accumulator grows by the bottom strip's total of mask·sub. -/
theorem pay12_apply (x2 : Vec Ideal S2x640x640 .f32) (x3 : Vec Ideal S2x192x640 .f32) (acc : Vec Ideal S1x1x1 .f32)
    (j : S1x1x1.Idx) :
    k0_pay12 (k0_pay7 x2 x3) acc j
      = acc j + ∑ p : Fin 2, ∑ q : Fin 192, ∑ k : Fin 640, x2 (ix3 p (low q) k) * x3 (ix3 p q k) := by
  unfold k0_pay12
  simp only [shapeCast_self]
  rw [addf_apply, Cert.BlockSum.total_apply]
  simp only [pay7_apply]

/-- The zero block a group's first step stores reads zero. -/
theorem pay1_apply (j : S1x1x1.Idx) : (k0_pay1 (F := Ideal)) j = 0 := by
  unfold k0_pay1; exact Ideal.ofBits_zero_f32
theorem pay2_apply (j : S1x1x1.Idx) : (k0_pay2 (F := Ideal)) j = 0 := by
  unfold k0_pay2; exact Ideal.ofBits_zero_f32
theorem pay3_apply (j : S1x1x1.Idx) : (k0_pay3 (F := Ideal)) j = 0 := by
  unfold k0_pay3; exact Ideal.ofBits_zero_f32
theorem pay4_apply (j : S1x1x1.Idx) : (k0_pay4 (F := Ideal)) j = 0 := by
  unfold k0_pay4; exact Ideal.ofBits_zero_f32

end Cert.KernelIdeal.KPay

end
-- ==== Proof.KAcc.lean ====
/-
  What the kernel's four output arrays hold after the run.

  The grid has sixteen points: two groups of eight steps. At point `t` the body reads images `2t` and `2t + 1` of
  pred, gt, mask and of the bottom-strip subtitle mask, and adds four totals of that block into four one-entry output
  blocks; output block `g` belongs to group `g`, is set to zero at the group's first step and written back after its
  last. So entry `g` of each output array ends as zero plus the sum, over the eight steps of group `g`, of that step's
  block total.
-/
import proofs.«148992_j53300544143793_2_alg».proof.Proof.Gen.KernelIdeal.Frame
import proofs.«148992_j53300544143793_2_alg».proof.Proof.KPieces
import proofs.«148992_j53300544143793_2_alg».proof.Proof.KPay
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.KPay Cert.KernelIdeal.KPieces

variable (m : (ℓ : Loc nD τ sig) → Buf (Elt Ideal) ℓ) (ρ : Dev nD → PrngReg)

/-- Point `t`'s block of pred, of gt, of mask (two images each) and of the bottom-strip subtitle mask. -/
abbrev bP (c : Dev nD) (t : Fin cfg0.N) : Vec Ideal S2x640x640 .f32 := iblk m c 0 t
abbrev bG (c : Dev nD) (t : Fin cfg0.N) : Vec Ideal S2x640x640 .f32 := iblk m c 1 t
abbrev bM (c : Dev nD) (t : Fin cfg0.N) : Vec Ideal S2x640x640 .f32 := iblk m c 2 t
abbrev bS (c : Dev nD) (t : Fin cfg0.N) : Vec Ideal S2x192x640 .f32 := iblk m c 3 t

/-- Point `n`'s addend to output 4: the total of loss·mask over the block (zero past the grid: never used). -/
def add4 (c : Dev nD) (n : ℕ) : EReal :=
  if h : n < cfg0.N then ∑ p : Fin 2, ∑ q : Fin 640, ∑ k : Fin 640, bce1 (bP m c ⟨n, h⟩ (ix3 p q k)) (bG m c ⟨n, h⟩ (ix3 p q k)) * bM m c ⟨n, h⟩ (ix3 p q k) else 0

/-- What the body at point `n` makes of output 4's previous contents. -/
def step4 (c : Dev nD) (n : ℕ) (h : n < cfg0.N) (acc : Vec Ideal S1x1x1 .f32) : Vec Ideal S1x1x1 .f32 :=
  k0_pay9 (bP m c ⟨n, h⟩) (bG m c ⟨n, h⟩) (bM m c ⟨n, h⟩) acc

/-- It adds the point's addend. -/
theorem step4_apply (c : Dev nD) (n : ℕ) (h : n < cfg0.N) (acc : Vec Ideal S1x1x1 .f32) (j : S1x1x1.Idx) :
    step4 m c n h acc j = acc j + add4 m c n := by
  unfold step4 add4
  rw [pay9_apply, dif_pos h]

/-- At a group's first step output 4 is the step applied to the zero block. -/
theorem first4 (c : Dev nD) (n : ℕ) (h : n < cfg0.N) (hm : n % 8 = 0) :
    (outsAt0 m c n h).1 = step4 m c n h (k0_pay1 (F := Ideal)) :=
  (congrArg Prod.fst (outsAt0_A m c ⟨n, h⟩ hm)).trans
    (out_A4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (iblk m c 0 ⟨n, h⟩) (iblk m c 1 ⟨n, h⟩) (iblk m c 2 ⟨n, h⟩) (iblk m c 3 ⟨n, h⟩) ((hcond0_0 ⟨n, h⟩).mpr hm))

/-- At any other step it is the step applied to what the point before left. -/
theorem next4 (c : Dev nD) (n : ℕ) (h : n + 1 < cfg0.N) (hm : ¬(n + 1) % 8 = 0) :
    (outsAt0 m c (n + 1) h).1 = step4 m c (n + 1) h (outsAt0 m c n (Nat.lt_of_succ_lt h)).1 :=
  (congrArg Prod.fst (outsAt0_B m c ⟨n + 1, h⟩ hm)).trans
    (out_B4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (iblk m c 0 ⟨n + 1, h⟩) (iblk m c 1 ⟨n + 1, h⟩) (iblk m c 2 ⟨n + 1, h⟩) (iblk m c 3 ⟨n + 1, h⟩)
      (outsAt0 m c n (Nat.lt_of_succ_lt h)).1 (outsAt0 m c n (Nat.lt_of_succ_lt h)).2.1
      (outsAt0 m c n (Nat.lt_of_succ_lt h)).2.2.1 (outsAt0 m c n (Nat.lt_of_succ_lt h)).2.2.2
      (fun hh => hm ((hcond0_0 ⟨n + 1, h⟩).mp hh)))

/-- After point `t` output 4's block holds zero plus the addends of its group's steps up to `t`. -/
theorem acc4 (c : Dev nD) (t : ℕ) (ht : t < cfg0.N) (j : S1x1x1.Idx) :
    (outsAt0 m c t ht).1 j = 0 + ∑ s ∈ Finset.range (t % 8 + 1), add4 m c (8 * (t / 8) + s) := by
  have h' : 8 * (t / 8) + t % 8 < cfg0.N := by rw [Nat.div_add_mod]; exact ht
  have e := Pipeline.eq_accAt_of_mod (fun n h => (outsAt0 m c n h).1) 8
    (fun n h => step4 m c n h (k0_pay1 (F := Ideal))) (fun n h acc => step4 m c n h acc)
    (first4 m c) (next4 m c) (by decide) t ht h'
  have e2 := Pipeline.accAt_add_apply
    (fun n h => step4 m c n h (k0_pay1 (F := Ideal))) (fun n h acc => step4 m c n h acc)
    (fun _ => (0 : EReal)) (fun n _ => add4 m c n) (8 * (t / 8)) 7
    (fun h i => by rw [step4_apply, pay1_apply])
    (fun n h acc i _ _ => step4_apply m c n h acc i)
    (t % 8) (by omega) h' j
  exact (congrFun e j).trans e2

/-- Point `n`'s addend to output 5: the total of mask over the block (zero past the grid: never used). -/
def add5 (c : Dev nD) (n : ℕ) : EReal :=
  if h : n < cfg0.N then ∑ p : Fin 2, ∑ q : Fin 640, ∑ k : Fin 640, bM m c ⟨n, h⟩ (ix3 p q k) else 0

/-- What the body at point `n` makes of output 5's previous contents. -/
def step5 (c : Dev nD) (n : ℕ) (h : n < cfg0.N) (acc : Vec Ideal S1x1x1 .f32) : Vec Ideal S1x1x1 .f32 :=
  k0_pay10 (k0_pay5 (bM m c ⟨n, h⟩)) acc

/-- It adds the point's addend. -/
theorem step5_apply (c : Dev nD) (n : ℕ) (h : n < cfg0.N) (acc : Vec Ideal S1x1x1 .f32) (j : S1x1x1.Idx) :
    step5 m c n h acc j = acc j + add5 m c n := by
  unfold step5 add5
  rw [pay10_apply, dif_pos h]

/-- At a group's first step output 5 is the step applied to the zero block. -/
theorem first5 (c : Dev nD) (n : ℕ) (h : n < cfg0.N) (hm : n % 8 = 0) :
    (outsAt0 m c n h).2.1 = step5 m c n h (k0_pay2 (F := Ideal)) :=
  (congrArg (fun x => x.2.1) (outsAt0_A m c ⟨n, h⟩ hm)).trans
    (out_A5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (iblk m c 0 ⟨n, h⟩) (iblk m c 1 ⟨n, h⟩) (iblk m c 2 ⟨n, h⟩) (iblk m c 3 ⟨n, h⟩) ((hcond0_0 ⟨n, h⟩).mpr hm))

/-- At any other step it is the step applied to what the point before left. -/
theorem next5 (c : Dev nD) (n : ℕ) (h : n + 1 < cfg0.N) (hm : ¬(n + 1) % 8 = 0) :
    (outsAt0 m c (n + 1) h).2.1 = step5 m c (n + 1) h (outsAt0 m c n (Nat.lt_of_succ_lt h)).2.1 :=
  (congrArg (fun x => x.2.1) (outsAt0_B m c ⟨n + 1, h⟩ hm)).trans
    (out_B5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (iblk m c 0 ⟨n + 1, h⟩) (iblk m c 1 ⟨n + 1, h⟩) (iblk m c 2 ⟨n + 1, h⟩) (iblk m c 3 ⟨n + 1, h⟩)
      (outsAt0 m c n (Nat.lt_of_succ_lt h)).1 (outsAt0 m c n (Nat.lt_of_succ_lt h)).2.1
      (outsAt0 m c n (Nat.lt_of_succ_lt h)).2.2.1 (outsAt0 m c n (Nat.lt_of_succ_lt h)).2.2.2
      (fun hh => hm ((hcond0_0 ⟨n + 1, h⟩).mp hh)))

/-- After point `t` output 5's block holds zero plus the addends of its group's steps up to `t`. -/
theorem acc5 (c : Dev nD) (t : ℕ) (ht : t < cfg0.N) (j : S1x1x1.Idx) :
    (outsAt0 m c t ht).2.1 j = 0 + ∑ s ∈ Finset.range (t % 8 + 1), add5 m c (8 * (t / 8) + s) := by
  have h' : 8 * (t / 8) + t % 8 < cfg0.N := by rw [Nat.div_add_mod]; exact ht
  have e := Pipeline.eq_accAt_of_mod (fun n h => (outsAt0 m c n h).2.1) 8
    (fun n h => step5 m c n h (k0_pay2 (F := Ideal))) (fun n h acc => step5 m c n h acc)
    (first5 m c) (next5 m c) (by decide) t ht h'
  have e2 := Pipeline.accAt_add_apply
    (fun n h => step5 m c n h (k0_pay2 (F := Ideal))) (fun n h acc => step5 m c n h acc)
    (fun _ => (0 : EReal)) (fun n _ => add5 m c n) (8 * (t / 8)) 7
    (fun h i => by rw [step5_apply, pay2_apply])
    (fun n h acc i _ _ => step5_apply m c n h acc i)
    (t % 8) (by omega) h' j
  exact (congrFun e j).trans e2

/-- Point `n`'s addend to output 6: the total of loss·(mask·sub) over the block's bottom strip (zero past the grid: never used). -/
def add6 (c : Dev nD) (n : ℕ) : EReal :=
  if h : n < cfg0.N then ∑ p : Fin 2, ∑ q : Fin 192, ∑ k : Fin 640, bce1 (bP m c ⟨n, h⟩ (ix3 p (low q) k)) (bG m c ⟨n, h⟩ (ix3 p (low q) k)) * (bM m c ⟨n, h⟩ (ix3 p (low q) k) * bS m c ⟨n, h⟩ (ix3 p q k)) else 0

/-- What the body at point `n` makes of output 6's previous contents. -/
def step6 (c : Dev nD) (n : ℕ) (h : n < cfg0.N) (acc : Vec Ideal S1x1x1 .f32) : Vec Ideal S1x1x1 .f32 :=
  k0_pay11 (k0_pay8 (bP m c ⟨n, h⟩) (bG m c ⟨n, h⟩) (bM m c ⟨n, h⟩) (bS m c ⟨n, h⟩)) acc

/-- It adds the point's addend. -/
theorem step6_apply (c : Dev nD) (n : ℕ) (h : n < cfg0.N) (acc : Vec Ideal S1x1x1 .f32) (j : S1x1x1.Idx) :
    step6 m c n h acc j = acc j + add6 m c n := by
  unfold step6 add6
  rw [pay11_apply, dif_pos h]

/-- At a group's first step output 6 is the step applied to the zero block. -/
theorem first6 (c : Dev nD) (n : ℕ) (h : n < cfg0.N) (hm : n % 8 = 0) :
    (outsAt0 m c n h).2.2.1 = step6 m c n h (k0_pay3 (F := Ideal)) :=
  (congrArg (fun x => x.2.2.1) (outsAt0_A m c ⟨n, h⟩ hm)).trans
    (out_A6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (iblk m c 0 ⟨n, h⟩) (iblk m c 1 ⟨n, h⟩) (iblk m c 2 ⟨n, h⟩) (iblk m c 3 ⟨n, h⟩) ((hcond0_0 ⟨n, h⟩).mpr hm))

/-- At any other step it is the step applied to what the point before left. -/
theorem next6 (c : Dev nD) (n : ℕ) (h : n + 1 < cfg0.N) (hm : ¬(n + 1) % 8 = 0) :
    (outsAt0 m c (n + 1) h).2.2.1 = step6 m c (n + 1) h (outsAt0 m c n (Nat.lt_of_succ_lt h)).2.2.1 :=
  (congrArg (fun x => x.2.2.1) (outsAt0_B m c ⟨n + 1, h⟩ hm)).trans
    (out_B6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (iblk m c 0 ⟨n + 1, h⟩) (iblk m c 1 ⟨n + 1, h⟩) (iblk m c 2 ⟨n + 1, h⟩) (iblk m c 3 ⟨n + 1, h⟩)
      (outsAt0 m c n (Nat.lt_of_succ_lt h)).1 (outsAt0 m c n (Nat.lt_of_succ_lt h)).2.1
      (outsAt0 m c n (Nat.lt_of_succ_lt h)).2.2.1 (outsAt0 m c n (Nat.lt_of_succ_lt h)).2.2.2
      (fun hh => hm ((hcond0_0 ⟨n + 1, h⟩).mp hh)))

/-- After point `t` output 6's block holds zero plus the addends of its group's steps up to `t`. -/
theorem acc6 (c : Dev nD) (t : ℕ) (ht : t < cfg0.N) (j : S1x1x1.Idx) :
    (outsAt0 m c t ht).2.2.1 j = 0 + ∑ s ∈ Finset.range (t % 8 + 1), add6 m c (8 * (t / 8) + s) := by
  have h' : 8 * (t / 8) + t % 8 < cfg0.N := by rw [Nat.div_add_mod]; exact ht
  have e := Pipeline.eq_accAt_of_mod (fun n h => (outsAt0 m c n h).2.2.1) 8
    (fun n h => step6 m c n h (k0_pay3 (F := Ideal))) (fun n h acc => step6 m c n h acc)
    (first6 m c) (next6 m c) (by decide) t ht h'
  have e2 := Pipeline.accAt_add_apply
    (fun n h => step6 m c n h (k0_pay3 (F := Ideal))) (fun n h acc => step6 m c n h acc)
    (fun _ => (0 : EReal)) (fun n _ => add6 m c n) (8 * (t / 8)) 7
    (fun h i => by rw [step6_apply, pay3_apply])
    (fun n h acc i _ _ => step6_apply m c n h acc i)
    (t % 8) (by omega) h' j
  exact (congrFun e j).trans e2

/-- Point `n`'s addend to output 7: the total of mask·sub over the block's bottom strip (zero past the grid: never used). -/
def add7 (c : Dev nD) (n : ℕ) : EReal :=
  if h : n < cfg0.N then ∑ p : Fin 2, ∑ q : Fin 192, ∑ k : Fin 640, bM m c ⟨n, h⟩ (ix3 p (low q) k) * bS m c ⟨n, h⟩ (ix3 p q k) else 0

/-- What the body at point `n` makes of output 7's previous contents. -/
def step7 (c : Dev nD) (n : ℕ) (h : n < cfg0.N) (acc : Vec Ideal S1x1x1 .f32) : Vec Ideal S1x1x1 .f32 :=
  k0_pay12 (k0_pay7 (bM m c ⟨n, h⟩) (bS m c ⟨n, h⟩)) acc

/-- It adds the point's addend. -/
theorem step7_apply (c : Dev nD) (n : ℕ) (h : n < cfg0.N) (acc : Vec Ideal S1x1x1 .f32) (j : S1x1x1.Idx) :
    step7 m c n h acc j = acc j + add7 m c n := by
  unfold step7 add7
  rw [pay12_apply, dif_pos h]

/-- At a group's first step output 7 is the step applied to the zero block. -/
theorem first7 (c : Dev nD) (n : ℕ) (h : n < cfg0.N) (hm : n % 8 = 0) :
    (outsAt0 m c n h).2.2.2 = step7 m c n h (k0_pay4 (F := Ideal)) :=
  (congrArg (fun x => x.2.2.2) (outsAt0_A m c ⟨n, h⟩ hm)).trans
    (out_A7 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (iblk m c 0 ⟨n, h⟩) (iblk m c 1 ⟨n, h⟩) (iblk m c 2 ⟨n, h⟩) (iblk m c 3 ⟨n, h⟩) ((hcond0_0 ⟨n, h⟩).mpr hm))

/-- At any other step it is the step applied to what the point before left. -/
theorem next7 (c : Dev nD) (n : ℕ) (h : n + 1 < cfg0.N) (hm : ¬(n + 1) % 8 = 0) :
    (outsAt0 m c (n + 1) h).2.2.2 = step7 m c (n + 1) h (outsAt0 m c n (Nat.lt_of_succ_lt h)).2.2.2 :=
  (congrArg (fun x => x.2.2.2) (outsAt0_B m c ⟨n + 1, h⟩ hm)).trans
    (out_B7 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (iblk m c 0 ⟨n + 1, h⟩) (iblk m c 1 ⟨n + 1, h⟩) (iblk m c 2 ⟨n + 1, h⟩) (iblk m c 3 ⟨n + 1, h⟩)
      (outsAt0 m c n (Nat.lt_of_succ_lt h)).1 (outsAt0 m c n (Nat.lt_of_succ_lt h)).2.1
      (outsAt0 m c n (Nat.lt_of_succ_lt h)).2.2.1 (outsAt0 m c n (Nat.lt_of_succ_lt h)).2.2.2
      (fun hh => hm ((hcond0_0 ⟨n + 1, h⟩).mp hh)))

/-- After point `t` output 7's block holds zero plus the addends of its group's steps up to `t`. -/
theorem acc7 (c : Dev nD) (t : ℕ) (ht : t < cfg0.N) (j : S1x1x1.Idx) :
    (outsAt0 m c t ht).2.2.2 j = 0 + ∑ s ∈ Finset.range (t % 8 + 1), add7 m c (8 * (t / 8) + s) := by
  have h' : 8 * (t / 8) + t % 8 < cfg0.N := by rw [Nat.div_add_mod]; exact ht
  have e := Pipeline.eq_accAt_of_mod (fun n h => (outsAt0 m c n h).2.2.2) 8
    (fun n h => step7 m c n h (k0_pay4 (F := Ideal))) (fun n h acc => step7 m c n h acc)
    (first7 m c) (next7 m c) (by decide) t ht h'
  have e2 := Pipeline.accAt_add_apply
    (fun n h => step7 m c n h (k0_pay4 (F := Ideal))) (fun n h acc => step7 m c n h acc)
    (fun _ => (0 : EReal)) (fun n _ => add7 m c n) (8 * (t / 8)) 7
    (fun h i => by rw [step7_apply, pay4_apply])
    (fun n h acc i _ _ => step7_apply m c n h acc i)
    (t % 8) (by omega) h' j
  exact (congrFun e j).trans e2

end Cert.KernelIdeal.KValue

end
-- ==== Proof.KFinal.lean ====
/-
  The kernel's four output arrays after the run, as functions of the arrays the region finds, and the program's result.

  Input block `t` of pred, gt, mask and of the bottom-strip subtitle mask is the slab of images `2t, 2t + 1` of its whole
  array. Output block `t / 8` of each output array is written back after point `t` when `t % 8 = 7`, so the two entries of
  each output array are the two groups' accumulated totals. The host operations after the region add the two entries of
  each array, divide, compare and select.
-/
import proofs.«148992_j53300544143793_2_alg».proof.Proof.KAcc
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.KPay

variable (m : (ℓ : Loc nD τ sig) → Buf (Elt Ideal) ℓ) (ρ : Dev nD → PrngReg)

/-- The printed index maps, decided over the sixteen grid points: an input window's block index is the point itself
    on the image axis, an output window's the point's group. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = 0 ∧ win0_7.index t (2 : Fin 3) = 0) :=
  (by decide +kernel : ∀ t : Fin grid0.N, _)

/-- Image `2t + p` of the batch, for a grid point `t` and an image `p` of its block. -/
abbrev img (t : Fin cfg0.N) (p : Fin 2) : Fin 32 :=
  ⟨2 * t.val + p.val, by have hN : cfg0.N = 16 := N_0; have := t.isLt; have := p.isLt; omega⟩

/-- Point `t`'s block of window 0 at (p, q, k) is the region-entry array `main_v46` at image `2t + p`, row q, column k. -/
theorem bP_apply (c : Dev nD) (t : Fin cfg0.N) (p : Fin 2) (q : Fin 640) (k : Fin 640) :
    bP m c t (ix3 p q k) = V m c main_v46 (ix3 (img t p) q k) := by
  show iblk m c 0 t (ix3 p q k) = _
  unfold iblk
  rw [View.read_apply]
  show V m c main_v46 _ = V m c main_v46 _
  congr 1
  funext a
  apply Fin.ext
  have e := (idx_facts t).1
  match a with
  | ⟨0, _⟩ => show win0_0.index t (0 : Fin 3) * 2 + 1 * p.val = 2 * t.val + p.val; rw [e.1]; omega
  | ⟨1, _⟩ => show win0_0.index t (1 : Fin 3) * 640 + 1 * q.val = q.val; rw [e.2.1]; omega
  | ⟨2, _⟩ => show win0_0.index t (2 : Fin 3) * 640 + 1 * k.val = k.val; rw [e.2.2]; omega

/-- Point `t`'s block of window 1 at (p, q, k) is the region-entry array `main_v47` at image `2t + p`, row q, column k. -/
theorem bG_apply (c : Dev nD) (t : Fin cfg0.N) (p : Fin 2) (q : Fin 640) (k : Fin 640) :
    bG m c t (ix3 p q k) = V m c main_v47 (ix3 (img t p) q k) := by
  show iblk m c 1 t (ix3 p q k) = _
  unfold iblk
  rw [View.read_apply]
  show V m c main_v47 _ = V m c main_v47 _
  congr 1
  funext a
  apply Fin.ext
  have e := (idx_facts t).2.1
  match a with
  | ⟨0, _⟩ => show win0_1.index t (0 : Fin 3) * 2 + 1 * p.val = 2 * t.val + p.val; rw [e.1]; omega
  | ⟨1, _⟩ => show win0_1.index t (1 : Fin 3) * 640 + 1 * q.val = q.val; rw [e.2.1]; omega
  | ⟨2, _⟩ => show win0_1.index t (2 : Fin 3) * 640 + 1 * k.val = k.val; rw [e.2.2]; omega

/-- Point `t`'s block of window 2 at (p, q, k) is the region-entry array `main_v48` at image `2t + p`, row q, column k. -/
theorem bM_apply (c : Dev nD) (t : Fin cfg0.N) (p : Fin 2) (q : Fin 640) (k : Fin 640) :
    bM m c t (ix3 p q k) = V m c main_v48 (ix3 (img t p) q k) := by
  show iblk m c 2 t (ix3 p q k) = _
  unfold iblk
  rw [View.read_apply]
  show V m c main_v48 _ = V m c main_v48 _
  congr 1
  funext a
  apply Fin.ext
  have e := (idx_facts t).2.2.1
  match a with
  | ⟨0, _⟩ => show win0_2.index t (0 : Fin 3) * 2 + 1 * p.val = 2 * t.val + p.val; rw [e.1]; omega
  | ⟨1, _⟩ => show win0_2.index t (1 : Fin 3) * 640 + 1 * q.val = q.val; rw [e.2.1]; omega
  | ⟨2, _⟩ => show win0_2.index t (2 : Fin 3) * 640 + 1 * k.val = k.val; rw [e.2.2]; omega

/-- Point `t`'s block of window 3 at (p, q, k) is the region-entry array `main_v45` at image `2t + p`, row q, column k. -/
theorem bS_apply (c : Dev nD) (t : Fin cfg0.N) (p : Fin 2) (q : Fin 192) (k : Fin 640) :
    bS m c t (ix3 p q k) = V m c main_v45 (ix3 (img t p) q k) := by
  show iblk m c 3 t (ix3 p q k) = _
  unfold iblk
  rw [View.read_apply]
  show V m c main_v45 _ = V m c main_v45 _
  congr 1
  funext a
  apply Fin.ext
  have e := (idx_facts t).2.2.2.1
  match a with
  | ⟨0, _⟩ => show win0_3.index t (0 : Fin 3) * 2 + 1 * p.val = 2 * t.val + p.val; rw [e.1]; omega
  | ⟨1, _⟩ => show win0_3.index t (1 : Fin 3) * 192 + 1 * q.val = q.val; rw [e.2.1]; omega
  | ⟨2, _⟩ => show win0_3.index t (2 : Fin 3) * 640 + 1 * k.val = k.val; rw [e.2.2]; omega

/-- Output array 0 after the run: entry `g` is zero plus the eight addends of group `g`. -/
def G4 (c : Dev nD) : FVec Ideal S2x1x1 .f32 := fun i => 0 + ∑ s ∈ Finset.range 8, add4 m c (8 * (i 0).val + s)

/-- What a group's last point writes back is that group's entry. -/
theorem flushed_eq4 (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  show (cfg0.win 4).cut (grid0.coords t) ((dats m 0 c).after 4 t) = _
  rw [after0_4]
  funext y
  rw [View.read_apply]
  show (outsAt0 m c t.val t.isLt).1 y = G4 m c (((cfg0.win 4).blk t).view.emb y)
  rw [acc4 m c t.val t.isLt y, h7]
  unfold G4
  have e0 : ((((cfg0.win 4).blk t).view.emb y) 0).val = t.val / 8 := by
    show win0_4.index t (0 : Fin 3) * 1 + 1 * (y 0).val = _
    have hy : (y 0).val < 1 := (y 0).isLt
    rw [((idx_facts t).2.2.2.2.1).1]; omega
  rw [e0]

/-- Both entries are written back: entry 0 after point 7, entry 1 after point 15. -/
theorem cover4 (c : Dev nD) (i : S2x1x1.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have key : ∀ t : Fin cfg0.N, t.val = 8 * (i 0).val + 7 → i ∈ ((cfg0.win 4).blk t).view.set := by
    intro t ht
    show i ∈ ((View.whole main_v49_0).slice (win0_4.rect t)).set
    rw [View.set_slice_whole, Rect.mem_set_unit]
    intro a
    have e := (idx_facts t).2.2.2.2.1
    match a with
    | ⟨0, _⟩ => show win0_4.index t (0 : Fin 3) * 1 ≤ (i 0).val ∧ (i 0).val < win0_4.index t (0 : Fin 3) * 1 + 1; rw [e.1]; omega
    | ⟨1, _⟩ => show win0_4.index t (1 : Fin 3) * 1 ≤ (i 1).val ∧ (i 1).val < win0_4.index t (1 : Fin 3) * 1 + 1; rw [e.2.1]; omega
    | ⟨2, _⟩ => show win0_4.index t (2 : Fin 3) * 1 ≤ (i 2).val ∧ (i 2).val < win0_4.index t (2 : Fin 3) * 1 + 1; rw [e.2.2]; omega
  have hN : cfg0.N = 16 := N_0
  refine ⟨⟨8 * (i 0).val + 7, by omega⟩, (flush0_4 _).mpr (by show (8 * (i 0).val + 7) % 8 = 7; omega), key _ rfl⟩

/-- So output array 0 ends holding the two groups' totals. -/
theorem final4 (c : Dev nD) : (dats m 0 c).arrAt 4 cfg0.N = G4 m c :=
  (dats m 0 c).arrAt_eq_of_cover 4 (G4 m c) (flushed_eq4 m c) (cover4 c)

/-- Output array 1 after the run: entry `g` is zero plus the eight addends of group `g`. -/
def G5 (c : Dev nD) : FVec Ideal S2x1x1 .f32 := fun i => 0 + ∑ s ∈ Finset.range 8, add5 m c (8 * (i 0).val + s)

/-- What a group's last point writes back is that group's entry. -/
theorem flushed_eq5 (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  show (cfg0.win 5).cut (grid0.coords t) ((dats m 0 c).after 5 t) = _
  rw [after0_5]
  funext y
  rw [View.read_apply]
  show (outsAt0 m c t.val t.isLt).2.1 y = G5 m c (((cfg0.win 5).blk t).view.emb y)
  rw [acc5 m c t.val t.isLt y, h7]
  unfold G5
  have e0 : ((((cfg0.win 5).blk t).view.emb y) 0).val = t.val / 8 := by
    show win0_5.index t (0 : Fin 3) * 1 + 1 * (y 0).val = _
    have hy : (y 0).val < 1 := (y 0).isLt
    rw [((idx_facts t).2.2.2.2.2.1).1]; omega
  rw [e0]

/-- Both entries are written back: entry 0 after point 7, entry 1 after point 15. -/
theorem cover5 (c : Dev nD) (i : S2x1x1.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have key : ∀ t : Fin cfg0.N, t.val = 8 * (i 0).val + 7 → i ∈ ((cfg0.win 5).blk t).view.set := by
    intro t ht
    show i ∈ ((View.whole main_v49_1).slice (win0_5.rect t)).set
    rw [View.set_slice_whole, Rect.mem_set_unit]
    intro a
    have e := (idx_facts t).2.2.2.2.2.1
    match a with
    | ⟨0, _⟩ => show win0_5.index t (0 : Fin 3) * 1 ≤ (i 0).val ∧ (i 0).val < win0_5.index t (0 : Fin 3) * 1 + 1; rw [e.1]; omega
    | ⟨1, _⟩ => show win0_5.index t (1 : Fin 3) * 1 ≤ (i 1).val ∧ (i 1).val < win0_5.index t (1 : Fin 3) * 1 + 1; rw [e.2.1]; omega
    | ⟨2, _⟩ => show win0_5.index t (2 : Fin 3) * 1 ≤ (i 2).val ∧ (i 2).val < win0_5.index t (2 : Fin 3) * 1 + 1; rw [e.2.2]; omega
  have hN : cfg0.N = 16 := N_0
  refine ⟨⟨8 * (i 0).val + 7, by omega⟩, (flush0_5 _).mpr (by show (8 * (i 0).val + 7) % 8 = 7; omega), key _ rfl⟩

/-- So output array 1 ends holding the two groups' totals. -/
theorem final5 (c : Dev nD) : (dats m 0 c).arrAt 5 cfg0.N = G5 m c :=
  (dats m 0 c).arrAt_eq_of_cover 5 (G5 m c) (flushed_eq5 m c) (cover5 c)

/-- Output array 2 after the run: entry `g` is zero plus the eight addends of group `g`. -/
def G6 (c : Dev nD) : FVec Ideal S2x1x1 .f32 := fun i => 0 + ∑ s ∈ Finset.range 8, add6 m c (8 * (i 0).val + s)

/-- What a group's last point writes back is that group's entry. -/
theorem flushed_eq6 (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  show (cfg0.win 6).cut (grid0.coords t) ((dats m 0 c).after 6 t) = _
  rw [after0_6]
  funext y
  rw [View.read_apply]
  show (outsAt0 m c t.val t.isLt).2.2.1 y = G6 m c (((cfg0.win 6).blk t).view.emb y)
  rw [acc6 m c t.val t.isLt y, h7]
  unfold G6
  have e0 : ((((cfg0.win 6).blk t).view.emb y) 0).val = t.val / 8 := by
    show win0_6.index t (0 : Fin 3) * 1 + 1 * (y 0).val = _
    have hy : (y 0).val < 1 := (y 0).isLt
    rw [((idx_facts t).2.2.2.2.2.2.1).1]; omega
  rw [e0]

/-- Both entries are written back: entry 0 after point 7, entry 1 after point 15. -/
theorem cover6 (c : Dev nD) (i : S2x1x1.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have key : ∀ t : Fin cfg0.N, t.val = 8 * (i 0).val + 7 → i ∈ ((cfg0.win 6).blk t).view.set := by
    intro t ht
    show i ∈ ((View.whole main_v49_2).slice (win0_6.rect t)).set
    rw [View.set_slice_whole, Rect.mem_set_unit]
    intro a
    have e := (idx_facts t).2.2.2.2.2.2.1
    match a with
    | ⟨0, _⟩ => show win0_6.index t (0 : Fin 3) * 1 ≤ (i 0).val ∧ (i 0).val < win0_6.index t (0 : Fin 3) * 1 + 1; rw [e.1]; omega
    | ⟨1, _⟩ => show win0_6.index t (1 : Fin 3) * 1 ≤ (i 1).val ∧ (i 1).val < win0_6.index t (1 : Fin 3) * 1 + 1; rw [e.2.1]; omega
    | ⟨2, _⟩ => show win0_6.index t (2 : Fin 3) * 1 ≤ (i 2).val ∧ (i 2).val < win0_6.index t (2 : Fin 3) * 1 + 1; rw [e.2.2]; omega
  have hN : cfg0.N = 16 := N_0
  refine ⟨⟨8 * (i 0).val + 7, by omega⟩, (flush0_6 _).mpr (by show (8 * (i 0).val + 7) % 8 = 7; omega), key _ rfl⟩

/-- So output array 2 ends holding the two groups' totals. -/
theorem final6 (c : Dev nD) : (dats m 0 c).arrAt 6 cfg0.N = G6 m c :=
  (dats m 0 c).arrAt_eq_of_cover 6 (G6 m c) (flushed_eq6 m c) (cover6 c)

/-- Output array 3 after the run: entry `g` is zero plus the eight addends of group `g`. -/
def G7 (c : Dev nD) : FVec Ideal S2x1x1 .f32 := fun i => 0 + ∑ s ∈ Finset.range 8, add7 m c (8 * (i 0).val + s)

/-- What a group's last point writes back is that group's entry. -/
theorem flushed_eq7 (c : Dev nD) (t : Fin cfg0.N) (hf : (cfg0.win 7).flush t = true) :
    (dats m 0 c).flushed 7 t = ((cfg0.win 7).blk t).view.read (Elt Ideal) (G7 m c) := by
  have h7 : t.val % 8 = 7 := (flush0_7 t).mp hf
  show (cfg0.win 7).cut (grid0.coords t) ((dats m 0 c).after 7 t) = _
  rw [after0_7]
  funext y
  rw [View.read_apply]
  show (outsAt0 m c t.val t.isLt).2.2.2 y = G7 m c (((cfg0.win 7).blk t).view.emb y)
  rw [acc7 m c t.val t.isLt y, h7]
  unfold G7
  have e0 : ((((cfg0.win 7).blk t).view.emb y) 0).val = t.val / 8 := by
    show win0_7.index t (0 : Fin 3) * 1 + 1 * (y 0).val = _
    have hy : (y 0).val < 1 := (y 0).isLt
    rw [((idx_facts t).2.2.2.2.2.2.2).1]; omega
  rw [e0]

/-- Both entries are written back: entry 0 after point 7, entry 1 after point 15. -/
theorem cover7 (c : Dev nD) (i : S2x1x1.Idx) :
    ∃ t : Fin cfg0.N, (cfg0.win 7).flush t = true ∧ i ∈ ((cfg0.win 7).blk t).view.set := by
  have h0 : (i 0).val < 2 := (i 0).isLt
  have h1 : (i 1).val < 1 := (i 1).isLt
  have h2 : (i 2).val < 1 := (i 2).isLt
  have key : ∀ t : Fin cfg0.N, t.val = 8 * (i 0).val + 7 → i ∈ ((cfg0.win 7).blk t).view.set := by
    intro t ht
    show i ∈ ((View.whole main_v49_3).slice (win0_7.rect t)).set
    rw [View.set_slice_whole, Rect.mem_set_unit]
    intro a
    have e := (idx_facts t).2.2.2.2.2.2.2
    match a with
    | ⟨0, _⟩ => show win0_7.index t (0 : Fin 3) * 1 ≤ (i 0).val ∧ (i 0).val < win0_7.index t (0 : Fin 3) * 1 + 1; rw [e.1]; omega
    | ⟨1, _⟩ => show win0_7.index t (1 : Fin 3) * 1 ≤ (i 1).val ∧ (i 1).val < win0_7.index t (1 : Fin 3) * 1 + 1; rw [e.2.1]; omega
    | ⟨2, _⟩ => show win0_7.index t (2 : Fin 3) * 1 ≤ (i 2).val ∧ (i 2).val < win0_7.index t (2 : Fin 3) * 1 + 1; rw [e.2.2]; omega
  have hN : cfg0.N = 16 := N_0
  refine ⟨⟨8 * (i 0).val + 7, by omega⟩, (flush0_7 _).mpr (by show (8 * (i 0).val + 7) % 8 = 7; omega), key _ rfl⟩

/-- So output array 3 ends holding the two groups' totals. -/
theorem final7 (c : Dev nD) : (dats m 0 c).arrAt 7 cfg0.N = G7 m c :=
  (dats m 0 c).arrAt_eq_of_cover 7 (G7 m c) (flushed_eq7 m c) (cover7 c)

end Cert.KernelIdeal.KValue

end
-- ==== Proof.KRun.lean ====
/-
  The kernel program's result, and its run.

  After the region the host adds the two entries of each of the four output arrays (sum of loss·mask, of mask, of
  loss·(mask·sub), of mask·sub), and returns: if the last sum is positive, 1.0 times the third over max(last, 1e-6);
  else the first over max(second, 1e-6).
-/
import proofs.«148992_j53300544143793_2_alg».proof.Proof.KFinal

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.KernelIdeal.KPay

variable (m : (ℓ : Loc nD τ sig) → Buf (Elt Ideal) ℓ) (ρ : Dev nD → PrngReg)

/-- The host operations after the region, as one function of the four output arrays. -/
def tailK (o0 o1 o2 o3 : FVec Ideal S2x1x1 .f32) : FVec Ideal S_ .f32 :=
  select (cmpf .ogt (Host.reduceAdd (F := Ideal) o3 (constant (F := Ideal) S_ .f32 0x00000000#32) reducesTo_S2x1x1_S_d0_1_2 h_S_) (constant (F := Ideal) S_ .f32 0x00000000#32))
    (mulf (constant (F := Ideal) S_ .f32 0x3F800000#32) (Host.divf (Host.reduceAdd (F := Ideal) o2 (constant (F := Ideal) S_ .f32 0x00000000#32) reducesTo_S2x1x1_S_d0_1_2 h_S_) (maximumf (Host.reduceAdd (F := Ideal) o3 (constant (F := Ideal) S_ .f32 0x00000000#32) reducesTo_S2x1x1_S_d0_1_2 h_S_) (constant (F := Ideal) S_ .f32 0x358637BD#32))))
    (Host.divf (Host.reduceAdd (F := Ideal) o0 (constant (F := Ideal) S_ .f32 0x00000000#32) reducesTo_S2x1x1_S_d0_1_2 h_S_) (maximumf (Host.reduceAdd (F := Ideal) o1 (constant (F := Ideal) S_ .f32 0x00000000#32) reducesTo_S2x1x1_S_d0_1_2 h_S_) (constant (F := Ideal) S_ .f32 0x358637BD#32)))

/-- The region leaves each output array at its two groups' totals. -/
theorem arr4 (c : Dev nD) : Pipeline.withArrays spec0 c (V0 m c) (fun w => (dats m 0 c).arrAt w cfg0.N) (Proc.devRef .tc main_v49_0) = G4 m c :=
  (Pipeline.withArrays_arr spec0 launch0.win.arr_inj c _ _ 4).trans (final4 m c)
theorem arr5 (c : Dev nD) : Pipeline.withArrays spec0 c (V0 m c) (fun w => (dats m 0 c).arrAt w cfg0.N) (Proc.devRef .tc main_v49_1) = G5 m c :=
  (Pipeline.withArrays_arr spec0 launch0.win.arr_inj c _ _ 5).trans (final5 m c)
theorem arr6 (c : Dev nD) : Pipeline.withArrays spec0 c (V0 m c) (fun w => (dats m 0 c).arrAt w cfg0.N) (Proc.devRef .tc main_v49_2) = G6 m c :=
  (Pipeline.withArrays_arr spec0 launch0.win.arr_inj c _ _ 6).trans (final6 m c)
theorem arr7 (c : Dev nD) : Pipeline.withArrays spec0 c (V0 m c) (fun w => (dats m 0 c).arrAt w cfg0.N) (Proc.devRef .tc main_v49_3) = G7 m c :=
  (Pipeline.withArrays_arr spec0 launch0.win.arr_inj c _ _ 7).trans (final7 m c)

/-- The lines after the region, read over any buffer contents: the result buffer is the tail's function of the four
    output arrays' contents. -/
theorem tail_read (W : Valuation τ sig (Elt Ideal)) :
    StableHlo.after (List.flatten [hostOps1, hostOps1_1]) W (Proc.devRef .tc main_v60)
      = tailK (W (Proc.devRef .tc main_v49_0)) (W (Proc.devRef .tc main_v49_1)) (W (Proc.devRef .tc main_v49_2))
          (W (Proc.devRef .tc main_v49_3)) := by
  simp only [hostOps1, hostOps1_1, List.flatten_cons, List.flatten_nil, List.append_nil, List.cons_append, List.nil_append]
  after_results_simp
  rfl

/-- The program's result buffer after the lines that follow the region. -/
theorem result_eq (c : Dev nD) :
    Pipeline.afterTail₀ cfgs (dats m) 0 (V0 m) [hostOps1, hostOps1_1] c main_v60 = tailK (G4 m c) (G5 m c) (G6 m c) (G7 m c) := by
  unfold Pipeline.afterTail₀
  refine (tail_read _).trans ?_
  exact congr (congr (congr (congrArg tailK (arr4 m c)) (arr5 m c)) (arr6 m c)) (arr7 m c)

/-- The run, read: the result at the tail's function of the four totals, the arguments unchanged. -/
theorem run : θ_run defs (onTc (τ := τ) (main (F := Ideal))) ⟨m, fun _ => 0, ρ⟩ (fun r => ∀ c : Dev nD,
      r.2.mem ((c.tc : Thread nD τ).loc main_v60) = tailK (G4 m c) (G5 m c) (G6 m c) (G7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v60 (Pipeline.mem_restRefs_of main_v60 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.LibTileSum.lean ====
/-
  A finite sum cut into tiles of equal length: a sum over `K * n` consecutive terms is the sum, over the `n` tiles,
  of each tile's `K` terms; for a sum indexed by `Fin N` with `N = K * n`, term `d` of tile `s` is the term at
  position `K * s + d`.
-/
import Mathlib.Algebra.BigOperators.Fin

namespace Cert.TileSum

open Finset

/-- A sum over the first `K * n` naturals is the sum over `n` tiles of `K` consecutive terms each. -/
theorem sum_range_tiles {M : Type*} [AddCommMonoid M] (g : ℕ → M) (K : ℕ) : ∀ n : ℕ,
    ∑ k ∈ range (K * n), g k = ∑ s ∈ range n, ∑ d ∈ range K, g (K * s + d)
  | 0 => by simp
  | n + 1 => by rw [Nat.mul_succ, sum_range_add, sum_range_tiles g K n, sum_range_succ]

/-- A sum over `Fin N`, `N = K * n`, is the sum over `n` tiles of the `K` terms at positions `K * s + d` (each
    position is below `N`; the other branch is never taken). -/
theorem sum_fin_tiles {M : Type*} [AddCommMonoid M] (K n N : ℕ) (hN : N = K * n) (f : Fin N → M) :
    ∑ i : Fin N, f i
      = ∑ s ∈ range n, ∑ d : Fin K, (if h : K * s + d.val < N then f ⟨K * s + d.val, h⟩ else 0) := by
  have e : ∑ i : Fin N, f i = ∑ k ∈ range N, (if h : k < N then f ⟨k, h⟩ else 0) := by
    rw [sum_range]
    exact Fintype.sum_congr _ _ fun i => by rw [dif_pos i.isLt]
  rw [e]
  subst hN
  rw [sum_range_tiles]
  refine sum_congr rfl fun s _ => ?_
  rw [sum_range]

end Cert.TileSum
-- ==== Proof.SumLaws.lean ====
/-
  Finite sums in a commutative monoid, as the accumulation over a grid needs them.

  * An accumulator that is reset to `0 + b` at every eighth step and otherwise grows by `+ b` holds, after step `n`,
    the sum of the terms of the current run of eight: `∑ k ∈ [8·(n/8), n]`.
  * Two consecutive runs of eight make the first sixteen terms.
  * Sixteen tiles of two make the first thirty-two terms.
-/
import Mathlib.Algebra.BigOperators.Intervals
import Mathlib.Algebra.BigOperators.Fin
import proofs.«148992_j53300544143793_2_alg».proof.Proof.LibTileSum

open scoped BigOperators

namespace Cert.SumLaws

open Finset

/-- The accumulator after step `n` is the sum over the current run of eight steps, up to `n`. -/
theorem reset_acc {M : Type*} [AddCommMonoid M] (N : ℕ) (A B : ℕ → M)
    (h0 : 0 < N → A 0 = 0 + B 0)
    (hr : ∀ n, n + 1 < N → (n + 1) % 8 = 0 → A (n + 1) = 0 + B (n + 1))
    (hs : ∀ n, n + 1 < N → ¬(n + 1) % 8 = 0 → A (n + 1) = A n + B (n + 1)) :
    ∀ n, n < N → A n = ∑ k ∈ Ico (8 * (n / 8)) (n + 1), B k
  | 0, h => by
    rw [h0 h, zero_add]
    simp
  | n + 1, h => by
    by_cases hm : (n + 1) % 8 = 0
    · rw [hr n h hm, zero_add]
      have e : 8 * ((n + 1) / 8) = n + 1 := by omega
      rw [e]
      simp
    · have e : 8 * ((n + 1) / 8) = 8 * (n / 8) := by omega
      rw [hs n h hm, reset_acc N A B h0 hr hs n (by omega), e]
      exact (Finset.sum_Ico_succ_top (by omega) B).symm

/-- The two runs of eight, `[0, 8)` and `[8, 16)`, together are the first sixteen terms. -/
theorem two_runs {M : Type*} [AddCommMonoid M] (B : ℕ → M) :
    (∑ k ∈ Ico (8 * (7 / 8)) (7 + 1), B k) + (∑ k ∈ Ico (8 * (15 / 8)) (15 + 1), B k) = ∑ k ∈ range 16, B k := by
  rw [show 8 * (7 / 8) = 0 from rfl, show 8 * (15 / 8) = 8 from rfl, show 7 + 1 = 8 from rfl, show 15 + 1 = 16 from rfl,
    Finset.sum_Ico_consecutive B (by omega) (by omega), Finset.range_eq_Ico]

/-- Sixteen tiles of two consecutive terms are the first thirty-two terms. -/
theorem tiles_of_two {M : Type*} [AddCommMonoid M] (g : ℕ → M) :
    ∑ t ∈ range 16, ∑ d ∈ range 2, g (2 * t + d) = ∑ n ∈ range 32, g n :=
  (Cert.TileSum.sum_range_tiles g 2 16).symm

end Cert.SumLaws
-- ==== Proof.Totals.lean ====
/-
  Sums over whole arrays, as both programs take them.

  * The host's sum over ALL axes of an array, from an initial value, is the initial value plus the plain sum of the
    entries; over a rank-four index set that sum is the fourfold sum over the coordinates.
  * The kernel adds the images up two at a time, eight pairs per group, two groups: thirty-two images in all.
  * A sum over 640 rows whose terms vanish on the first 448 rows is the sum over the last 192 rows.
-/
import Idealize.ShloMosaic.Lib.ValueIdx
import Idealize.ShloMosaic.PureOps.Ideal.Laws
import proofs.«148992_j53300544143793_2_alg».proof.Proof.SumLaws

noncomputable section

open scoped BigOperators

namespace Cert.Totals

open Idealize.ShloMosaic Idealize.ShloMosaic.ValueIdx

/-- The scalar shape has one index. -/
instance : Subsingleton (⟨0, ![]⟩ : Shape).Idx := ⟨fun _ _ => funext fun d => d.elim0⟩

/-- The host's sum over all axes is the initial value plus the sum of all entries. -/
theorem reduceAll_apply {s : Shape} {axes : List (Fin s.rank)} (h : s.ReducesTo axes ⟨0, ![]⟩) (x : s.Idx → EReal) (init : EReal)
    (j : (⟨0, ![]⟩ : Shape).Idx) : Ideal.hostReduceAdd h x init j = init + ∑ i, x i := by
  unfold Ideal.hostReduceAdd
  congr 1
  exact Finset.sum_congr (Finset.filter_true_of_mem fun i _ => Subsingleton.elim _ _) fun _ _ => rfl

/-- The host's f32 sum over all axes, from a splat initial value: that value plus the sum of all entries. -/
theorem hostSumAll_apply {s : Shape} {axes : List (Fin s.rank)} (x : FVec Ideal s .f32) (b : BitVec 32)
    (h : s.ReducesTo axes ⟨0, ![]⟩) (hu : 0 < (⟨0, ![]⟩ : Shape).numel) (j : (⟨0, ![]⟩ : Shape).Idx) :
    Host.reduceAdd (F := Ideal) x (constant (F := Ideal) ⟨0, ![]⟩ .f32 b) h hu j = Ideal.ofBits .f32 b + ∑ i, x i :=
  reduceAll_apply h x _ j

/-- A rank-four index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates, outermost axis first. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Two groups of eight steps, each step adding the terms of two consecutive images, add up all thirty-two images. -/
theorem grid_total {M : Type*} [AddCommMonoid M] (F : Fin 32 → M) (A : ℕ → M)
    (hA : ∀ (t : ℕ) (_ : t < 16), A t = ∑ p : Fin 2, if h : 2 * t + p.val < 32 then F ⟨2 * t + p.val, h⟩ else 0) :
    (∑ g : Fin 2, (0 + ∑ s ∈ Finset.range 8, A (8 * g.val + s))) = ∑ n : Fin 32, F n := by
  let Fn : ℕ → M := fun k => if h : k < 32 then F ⟨k, h⟩ else 0
  have hA' : ∀ t ∈ Finset.range 16, A t = ∑ d ∈ Finset.range 2, Fn (2 * t + d) := by
    intro t ht
    rw [hA t (Finset.mem_range.1 ht), Finset.sum_range]
  have e16 : ∑ t ∈ Finset.range 16, A t = (∑ s ∈ Finset.range 8, A s) + ∑ s ∈ Finset.range 8, A (8 + s) :=
    Finset.sum_range_add A 8 8
  have eF : ∑ n ∈ Finset.range 32, Fn n = ∑ n : Fin 32, F n := by
    rw [Finset.sum_range]
    exact Finset.sum_congr rfl fun n _ => dif_pos n.isLt
  rw [Fin.sum_univ_two]
  show (0 + ∑ s ∈ Finset.range 8, A (8 * 0 + s)) + (0 + ∑ s ∈ Finset.range 8, A (8 * 1 + s)) = _
  simp only [zero_add, Nat.mul_zero, Nat.mul_one]
  rw [← e16, Finset.sum_congr rfl hA', Cert.SumLaws.tiles_of_two Fn, eF]

/-- A sum over 640 rows whose terms vanish on the first 448 rows is the sum over the last 192 rows. -/
theorem strip_total {M : Type*} [AddCommMonoid M] (φ : Fin 640 → M) (h0 : ∀ q : Fin 640, q.val < 448 → φ q = 0) :
    ∑ q, φ q = ∑ q : Fin 192, φ ⟨448 + q.val, by have := q.isLt; omega⟩ := by
  let φn : ℕ → M := fun k => if h : k < 640 then φ ⟨k, h⟩ else 0
  have e : ∑ q, φ q = ∑ k ∈ Finset.range 640, φn k := by
    rw [Finset.sum_range]
    refine Finset.sum_congr rfl fun q _ => ?_
    show φ q = (if h : q.val < 640 then φ ⟨q.val, h⟩ else 0)
    rw [dif_pos q.isLt]
  have r : Finset.range 640 = Finset.range (448 + 192) := rfl
  have z : ∑ k ∈ Finset.range 448, φn k = 0 := Finset.sum_eq_zero fun k hk => by
    have hk' : k < 448 := Finset.mem_range.1 hk
    have h640 : k < 640 := by omega
    show (if h : k < 640 then φ ⟨k, h⟩ else 0) = 0
    rw [dif_pos h640]
    exact h0 ⟨k, h640⟩ hk'
  rw [e, r, Finset.sum_range_add, z, zero_add, Finset.sum_range]
  refine Finset.sum_congr rfl fun q _ => ?_
  have h640 : 448 + q.val < 640 := by have := q.isLt; omega
  show (if h : 448 + q.val < 640 then φ ⟨448 + q.val, h⟩ else 0) = _
  rw [dif_pos h640]

end Cert.Totals

end
-- ==== Proof.LibSumIdx3.lean ====
/-
  A sum over the index set of a rank-one array is the sum over its one coordinate, and a sum over the index set
  of a rank-three array is the triple sum over its coordinates.
-/
import Idealize.ShloMosaic.Lib.ValueIdx

noncomputable section

open scoped BigOperators

namespace Cert.SumIdx3

open Idealize.ShloMosaic Idealize.ShloMosaic.ValueIdx

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-three index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx3

end
-- ==== Proof.KTotals.lean ====
/-
  The kernel's four host sums as sums over the thirty-two images.

  Each output array's two entries add up, over the two groups of eight steps of two images each, to the sum over all
  thirty-two images of that image's total: of loss·mask and of mask over all 640 rows, of loss·(mask·sub) and of mask·sub
  over the bottom 192 rows. The arrays are the ones the region finds: pred, gt, mask as [32, 640, 640] and the
  bottom-strip subtitle mask as [32, 192, 640].
-/
import proofs.«148992_j53300544143793_2_alg».proof.Proof.KFinal
import proofs.«148992_j53300544143793_2_alg».proof.Proof.Totals
import proofs.«148992_j53300544143793_2_alg».proof.Proof.LibSumIdx3

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.KPay

variable (m : (ℓ : Loc nD τ sig) → Buf (Elt Ideal) ℓ)

/-- Image `n`'s total of loss·mask. -/
def F4 (A0 A1 A2 : FVec Ideal S32x640x640 .f32) (n : Fin 32) : EReal :=
  ∑ q : Fin 640, ∑ k : Fin 640, bce1 (A0 (ix3 n q k)) (A1 (ix3 n q k)) * A2 (ix3 n q k)

/-- Point `t`'s addend to output 4 is the totals of images `2t` and `2t + 1`. -/
theorem add4_eq (c : Dev nD) (t : ℕ) (ht : t < 16) :
    add4 m c t = ∑ p : Fin 2, if h : 2 * t + p.val < 32 then F4 (V m c main_v46 : S32x640x640.Idx → EReal) (V m c main_v47 : S32x640x640.Idx → EReal) (V m c main_v48 : S32x640x640.Idx → EReal) ⟨2 * t + p.val, h⟩ else 0 := by
  have hN : cfg0.N = 16 := N_0
  have ht' : t < cfg0.N := by omega
  unfold add4
  rw [dif_pos ht']
  refine Finset.sum_congr rfl fun p _ => ?_
  have hp : 2 * t + p.val < 32 := by have := p.isLt; omega
  rw [dif_pos hp]
  unfold F4
  refine Finset.sum_congr rfl fun q _ => Finset.sum_congr rfl fun k _ => ?_
  rw [bP_apply, bG_apply, bM_apply]

/-- The host's sum of output array 0 is the initial zero plus the sum over the thirty-two images. -/
theorem total4 (c : Dev nD) (j : S_.Idx) :
    Host.reduceAdd (F := Ideal) (G4 m c) (constant (F := Ideal) S_ .f32 0x00000000#32) reducesTo_S2x1x1_S_d0_1_2 h_S_ j
      = Ideal.ofBits .f32 0x00000000#32 + ∑ n : Fin 32, F4 (V m c main_v46 : S32x640x640.Idx → EReal) (V m c main_v47 : S32x640x640.Idx → EReal) (V m c main_v48 : S32x640x640.Idx → EReal) n := by
  refine (Cert.Totals.hostSumAll_apply (G4 m c) 0x00000000#32 reducesTo_S2x1x1_S_d0_1_2 h_S_ j).trans ?_
  refine congrArg (fun z => Ideal.ofBits .f32 0x00000000#32 + z) ?_
  refine (Cert.SumIdx3.sum_idx3 (G4 m c)).trans ?_
  have e1 : ∀ g : Fin 2, (∑ b : Fin 1, ∑ c1 : Fin 1, G4 m c (ix3 g b c1)) = G4 m c (ix3 g 0 0) := fun g =>
    (Fin.sum_univ_one (fun b : Fin 1 => ∑ c1 : Fin 1, G4 m c (ix3 g b c1))).trans
      (Fin.sum_univ_one (fun c1 : Fin 1 => G4 m c (ix3 g 0 c1)))
  refine (Finset.sum_congr rfl fun g _ => e1 g).trans ?_
  exact Cert.Totals.grid_total _ (add4 m c) (add4_eq m c)

/-- Image `n`'s total of mask. -/
def F5 (A2 : FVec Ideal S32x640x640 .f32) (n : Fin 32) : EReal :=
  ∑ q : Fin 640, ∑ k : Fin 640, A2 (ix3 n q k)

/-- Point `t`'s addend to output 5 is the totals of images `2t` and `2t + 1`. -/
theorem add5_eq (c : Dev nD) (t : ℕ) (ht : t < 16) :
    add5 m c t = ∑ p : Fin 2, if h : 2 * t + p.val < 32 then F5 (V m c main_v48 : S32x640x640.Idx → EReal) ⟨2 * t + p.val, h⟩ else 0 := by
  have hN : cfg0.N = 16 := N_0
  have ht' : t < cfg0.N := by omega
  unfold add5
  rw [dif_pos ht']
  refine Finset.sum_congr rfl fun p _ => ?_
  have hp : 2 * t + p.val < 32 := by have := p.isLt; omega
  rw [dif_pos hp]
  unfold F5
  refine Finset.sum_congr rfl fun q _ => Finset.sum_congr rfl fun k _ => ?_
  rw [bM_apply]

/-- The host's sum of output array 1 is the initial zero plus the sum over the thirty-two images. -/
theorem total5 (c : Dev nD) (j : S_.Idx) :
    Host.reduceAdd (F := Ideal) (G5 m c) (constant (F := Ideal) S_ .f32 0x00000000#32) reducesTo_S2x1x1_S_d0_1_2 h_S_ j
      = Ideal.ofBits .f32 0x00000000#32 + ∑ n : Fin 32, F5 (V m c main_v48 : S32x640x640.Idx → EReal) n := by
  refine (Cert.Totals.hostSumAll_apply (G5 m c) 0x00000000#32 reducesTo_S2x1x1_S_d0_1_2 h_S_ j).trans ?_
  refine congrArg (fun z => Ideal.ofBits .f32 0x00000000#32 + z) ?_
  refine (Cert.SumIdx3.sum_idx3 (G5 m c)).trans ?_
  have e1 : ∀ g : Fin 2, (∑ b : Fin 1, ∑ c1 : Fin 1, G5 m c (ix3 g b c1)) = G5 m c (ix3 g 0 0) := fun g =>
    (Fin.sum_univ_one (fun b : Fin 1 => ∑ c1 : Fin 1, G5 m c (ix3 g b c1))).trans
      (Fin.sum_univ_one (fun c1 : Fin 1 => G5 m c (ix3 g 0 c1)))
  refine (Finset.sum_congr rfl fun g _ => e1 g).trans ?_
  exact Cert.Totals.grid_total _ (add5 m c) (add5_eq m c)

/-- Image `n`'s total of loss·(mask·sub) over the bottom strip. -/
def F6 (A0 A1 A2 : FVec Ideal S32x640x640 .f32) (A3 : FVec Ideal S32x192x640 .f32) (n : Fin 32) : EReal :=
  ∑ q : Fin 192, ∑ k : Fin 640, bce1 (A0 (ix3 n (low q) k)) (A1 (ix3 n (low q) k)) * (A2 (ix3 n (low q) k) * A3 (ix3 n q k))

/-- Point `t`'s addend to output 6 is the totals of images `2t` and `2t + 1`. -/
theorem add6_eq (c : Dev nD) (t : ℕ) (ht : t < 16) :
    add6 m c t = ∑ p : Fin 2, if h : 2 * t + p.val < 32 then F6 (V m c main_v46 : S32x640x640.Idx → EReal) (V m c main_v47 : S32x640x640.Idx → EReal) (V m c main_v48 : S32x640x640.Idx → EReal) (V m c main_v45 : S32x192x640.Idx → EReal) ⟨2 * t + p.val, h⟩ else 0 := by
  have hN : cfg0.N = 16 := N_0
  have ht' : t < cfg0.N := by omega
  unfold add6
  rw [dif_pos ht']
  refine Finset.sum_congr rfl fun p _ => ?_
  have hp : 2 * t + p.val < 32 := by have := p.isLt; omega
  rw [dif_pos hp]
  unfold F6
  refine Finset.sum_congr rfl fun q _ => Finset.sum_congr rfl fun k _ => ?_
  rw [bP_apply, bG_apply, bM_apply, bS_apply]

/-- The host's sum of output array 2 is the initial zero plus the sum over the thirty-two images. -/
theorem total6 (c : Dev nD) (j : S_.Idx) :
    Host.reduceAdd (F := Ideal) (G6 m c) (constant (F := Ideal) S_ .f32 0x00000000#32) reducesTo_S2x1x1_S_d0_1_2 h_S_ j
      = Ideal.ofBits .f32 0x00000000#32 + ∑ n : Fin 32, F6 (V m c main_v46 : S32x640x640.Idx → EReal) (V m c main_v47 : S32x640x640.Idx → EReal) (V m c main_v48 : S32x640x640.Idx → EReal) (V m c main_v45 : S32x192x640.Idx → EReal) n := by
  refine (Cert.Totals.hostSumAll_apply (G6 m c) 0x00000000#32 reducesTo_S2x1x1_S_d0_1_2 h_S_ j).trans ?_
  refine congrArg (fun z => Ideal.ofBits .f32 0x00000000#32 + z) ?_
  refine (Cert.SumIdx3.sum_idx3 (G6 m c)).trans ?_
  have e1 : ∀ g : Fin 2, (∑ b : Fin 1, ∑ c1 : Fin 1, G6 m c (ix3 g b c1)) = G6 m c (ix3 g 0 0) := fun g =>
    (Fin.sum_univ_one (fun b : Fin 1 => ∑ c1 : Fin 1, G6 m c (ix3 g b c1))).trans
      (Fin.sum_univ_one (fun c1 : Fin 1 => G6 m c (ix3 g 0 c1)))
  refine (Finset.sum_congr rfl fun g _ => e1 g).trans ?_
  exact Cert.Totals.grid_total _ (add6 m c) (add6_eq m c)

/-- Image `n`'s total of mask·sub over the bottom strip. -/
def F7 (A2 : FVec Ideal S32x640x640 .f32) (A3 : FVec Ideal S32x192x640 .f32) (n : Fin 32) : EReal :=
  ∑ q : Fin 192, ∑ k : Fin 640, A2 (ix3 n (low q) k) * A3 (ix3 n q k)

/-- Point `t`'s addend to output 7 is the totals of images `2t` and `2t + 1`. -/
theorem add7_eq (c : Dev nD) (t : ℕ) (ht : t < 16) :
    add7 m c t = ∑ p : Fin 2, if h : 2 * t + p.val < 32 then F7 (V m c main_v48 : S32x640x640.Idx → EReal) (V m c main_v45 : S32x192x640.Idx → EReal) ⟨2 * t + p.val, h⟩ else 0 := by
  have hN : cfg0.N = 16 := N_0
  have ht' : t < cfg0.N := by omega
  unfold add7
  rw [dif_pos ht']
  refine Finset.sum_congr rfl fun p _ => ?_
  have hp : 2 * t + p.val < 32 := by have := p.isLt; omega
  rw [dif_pos hp]
  unfold F7
  refine Finset.sum_congr rfl fun q _ => Finset.sum_congr rfl fun k _ => ?_
  rw [bM_apply, bS_apply]

/-- The host's sum of output array 3 is the initial zero plus the sum over the thirty-two images. -/
theorem total7 (c : Dev nD) (j : S_.Idx) :
    Host.reduceAdd (F := Ideal) (G7 m c) (constant (F := Ideal) S_ .f32 0x00000000#32) reducesTo_S2x1x1_S_d0_1_2 h_S_ j
      = Ideal.ofBits .f32 0x00000000#32 + ∑ n : Fin 32, F7 (V m c main_v48 : S32x640x640.Idx → EReal) (V m c main_v45 : S32x192x640.Idx → EReal) n := by
  refine (Cert.Totals.hostSumAll_apply (G7 m c) 0x00000000#32 reducesTo_S2x1x1_S_d0_1_2 h_S_ j).trans ?_
  refine congrArg (fun z => Ideal.ofBits .f32 0x00000000#32 + z) ?_
  refine (Cert.SumIdx3.sum_idx3 (G7 m c)).trans ?_
  have e1 : ∀ g : Fin 2, (∑ b : Fin 1, ∑ c1 : Fin 1, G7 m c (ix3 g b c1)) = G7 m c (ix3 g 0 0) := fun g =>
    (Fin.sum_univ_one (fun b : Fin 1 => ∑ c1 : Fin 1, G7 m c (ix3 g b c1))).trans
      (Fin.sum_univ_one (fun c1 : Fin 1 => G7 m c (ix3 g 0 c1)))
  refine (Finset.sum_congr rfl fun g _ => e1 g).trans ?_
  exact Cert.Totals.grid_total _ (add7 m c) (add7_eq m c)

end Cert.KernelIdeal.KValue

end
-- ==== Proof.LibAfterAppend.lean ====
/-
  The buffer contents after a list of host operations, split at any point of the list: running
  `l₁ ++ l₂` from contents `V` is running `l₂` from what `l₁` leaves.
-/
import Idealize.ShloMosaic.Lib.StableHlo.Run

noncomputable section

namespace Cert.AfterAppend

open Idealize.ShloMosaic Idealize.ShloMosaic.StableHlo

/-- The contents after `l₁ ++ l₂` are the contents after `l₂` run from the contents after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterAppend

end
-- ==== Proof.DetectorDefs.lean ====
import proofs.«148992_j53300544143793_2_alg».proof.KernelIdeal
import proofs.«148992_j53300544143793_2_alg».proof.ReferenceIdeal
import Idealize.ShloMosaic.PureOps.Ideal

/-!
# The subtitle-region detector as a function of the image

Both programs compute, from the image `f32[32,3,640,640]`, a 0/1 mask on the bottom 192 rows
(rows 448..639).  This file writes that computation twice, as a pure function on arrays at the
ideal instance (floats are extended reals, every operation exact):

* `subK`: the bottom strip of the image is cut out first, and the whole chain runs on `[32,3,192,640]`;
* `subR`: the first half of the chain (scale by 255, floor, clip to [0,255], the three channels,
  the weighted gray sum, round to even) runs on the full image, and the gray image is cut to the
  strip afterwards.

Each is split in two stages: `gray·` (image ↦ rounded gray strip `[32,192,640]`) and `morph·`
(gray strip ↦ mask: threshold, reflect-pad by one, 4-neighbour Laplacian, threshold, and, convert to
float, then max, min, min, max over 3×3 windows).  `sub· img = morph· (gray· img)`.

The shape relations the operations ask for are decided here once (namespaces `KF`, `RF`); being
propositions, any other proof of the same relation gives the same array.
-/

noncomputable section

namespace Cert.Detector

open Idealize.ShloMosaic

/-! ## Shape relations, over the first program's shape names -/

namespace KF
open Cert.KernelIdeal

theorem slices_S32x3x640x640_S32x3x192x640_0_0_448_0 : S32x3x640x640.Slices ![0, 0, 448, 0] S32x3x192x640 := by decide
theorem bcast_S_S32x3x192x640 : S_.BroadcastsInDim S32x3x192x640 (![] : Fin 0 → Fin S32x3x192x640.rank) := by decide
theorem slices_S32x3x192x640_S32x1x192x640_0_0_0_0 : S32x3x192x640.Slices ![0, 0, 0, 0] S32x1x192x640 := by decide
theorem shapeCasts_S32x1x192x640_S32x192x640 : S32x1x192x640.ShapeCasts S32x192x640 := by decide
theorem slices_S32x3x192x640_S32x1x192x640_0_1_0_0 : S32x3x192x640.Slices ![0, 1, 0, 0] S32x1x192x640 := by decide
theorem slices_S32x3x192x640_S32x1x192x640_0_2_0_0 : S32x3x192x640.Slices ![0, 2, 0, 0] S32x1x192x640 := by decide
theorem bcast_S_S32x192x640 : S_.BroadcastsInDim S32x192x640 (![] : Fin 0 → Fin S32x192x640.rank) := by decide
theorem slices_S32x192x640_S32x1x640_0_1_0 : S32x192x640.Slices ![0, 1, 0] S32x1x640 := by decide
theorem concatenates_S32x1x640_S32x192x640_S32x193x640_d1 : Shape.Concatenates [S32x1x640, S32x192x640] S32x193x640 1 := by decide
theorem slices_S32x193x640_S32x1x640_0_191_0 : S32x193x640.Slices ![0, 191, 0] S32x1x640 := by decide
theorem concatenates_S32x193x640_S32x1x640_S32x194x640_d1 : Shape.Concatenates [S32x193x640, S32x1x640] S32x194x640 1 := by decide
theorem slices_S32x194x640_S32x194x1_0_0_1 : S32x194x640.Slices ![0, 0, 1] S32x194x1 := by decide
theorem concatenates_S32x194x1_S32x194x640_S32x194x641_d2 : Shape.Concatenates [S32x194x1, S32x194x640] S32x194x641 2 := by decide
theorem slices_S32x194x641_S32x194x1_0_0_639 : S32x194x641.Slices ![0, 0, 639] S32x194x1 := by decide
theorem concatenates_S32x194x641_S32x194x1_S32x194x642_d2 : Shape.Concatenates [S32x194x641, S32x194x1] S32x194x642 2 := by decide
theorem slices_S32x194x642_S32x192x640_0_0_1 : S32x194x642.Slices ![0, 0, 1] S32x192x640 := by decide
theorem slices_S32x194x642_S32x192x640_0_2_1 : S32x194x642.Slices ![0, 2, 1] S32x192x640 := by decide
theorem slices_S32x194x642_S32x192x640_0_1_0 : S32x194x642.Slices ![0, 1, 0] S32x192x640 := by decide
theorem slices_S32x194x642_S32x192x640_0_1_2 : S32x194x642.Slices ![0, 1, 2] S32x192x640 := by decide
theorem bcast_S_S_ : S_.BroadcastsInDim S_ (![] : Fin 0 → Fin S_.rank) := by decide
theorem reduceWindows_S32x192x640_S32x192x640_w1s1p0_0_w3s1p1_1_w3s1p1_1 : S32x192x640.ReduceWindows (![1, 3, 3] : Fin 3 → Nat) ![1, 1, 1] ![0, 1, 1] ![0, 1, 1] S32x192x640 := by decide
theorem h_S_ : 0 < S_.numel := by decide

end KF

/-! ## Shape relations, over the second program's shape names -/

namespace RF
open Cert.ReferenceIdeal

theorem bcast_S_S32x3x640x640 : S_.BroadcastsInDim S32x3x640x640 (![] : Fin 0 → Fin S32x3x640x640.rank) := by decide
theorem slices_S32x3x640x640_S32x1x640x640_0_0_0_0 : S32x3x640x640.Slices ![0, 0, 0, 0] S32x1x640x640 := by decide
theorem shapeCasts_S32x1x640x640_S32x640x640 : S32x1x640x640.ShapeCasts S32x640x640 := by decide
theorem slices_S32x3x640x640_S32x1x640x640_0_1_0_0 : S32x3x640x640.Slices ![0, 1, 0, 0] S32x1x640x640 := by decide
theorem slices_S32x3x640x640_S32x1x640x640_0_2_0_0 : S32x3x640x640.Slices ![0, 2, 0, 0] S32x1x640x640 := by decide
theorem bcast_S_S32x640x640 : S_.BroadcastsInDim S32x640x640 (![] : Fin 0 → Fin S32x640x640.rank) := by decide
theorem slices_S32x640x640_S32x192x640_0_448_0 : S32x640x640.Slices ![0, 448, 0] S32x192x640 := by decide
theorem bcast_S_S32x192x640 : S_.BroadcastsInDim S32x192x640 (![] : Fin 0 → Fin S32x192x640.rank) := by decide
theorem slices_S32x192x640_S32x1x640_0_1_0 : S32x192x640.Slices ![0, 1, 0] S32x1x640 := by decide
theorem concatenates_S32x1x640_S32x192x640_S32x193x640_d1 : Shape.Concatenates [S32x1x640, S32x192x640] S32x193x640 1 := by decide
theorem slices_S32x193x640_S32x1x640_0_191_0 : S32x193x640.Slices ![0, 191, 0] S32x1x640 := by decide
theorem concatenates_S32x193x640_S32x1x640_S32x194x640_d1 : Shape.Concatenates [S32x193x640, S32x1x640] S32x194x640 1 := by decide
theorem slices_S32x194x640_S32x194x1_0_0_1 : S32x194x640.Slices ![0, 0, 1] S32x194x1 := by decide
theorem concatenates_S32x194x1_S32x194x640_S32x194x641_d2 : Shape.Concatenates [S32x194x1, S32x194x640] S32x194x641 2 := by decide
theorem slices_S32x194x641_S32x194x1_0_0_639 : S32x194x641.Slices ![0, 0, 639] S32x194x1 := by decide
theorem concatenates_S32x194x641_S32x194x1_S32x194x642_d2 : Shape.Concatenates [S32x194x641, S32x194x1] S32x194x642 2 := by decide
theorem slices_S32x194x642_S32x192x640_0_0_1 : S32x194x642.Slices ![0, 0, 1] S32x192x640 := by decide
theorem slices_S32x194x642_S32x192x640_0_2_1 : S32x194x642.Slices ![0, 2, 1] S32x192x640 := by decide
theorem slices_S32x194x642_S32x192x640_0_1_0 : S32x194x642.Slices ![0, 1, 0] S32x192x640 := by decide
theorem slices_S32x194x642_S32x192x640_0_1_2 : S32x194x642.Slices ![0, 1, 2] S32x192x640 := by decide
theorem bcast_S_S_ : S_.BroadcastsInDim S_ (![] : Fin 0 → Fin S_.rank) := by decide
theorem reduceWindows_S32x192x640_S32x192x640_w1s1p0_0_w3s1p1_1_w3s1p1_1 : S32x192x640.ReduceWindows (![1, 3, 3] : Fin 3 → Nat) ![1, 1, 1] ![0, 1, 1] ![0, 1, 1] S32x192x640 := by decide
theorem h_S_ : 0 < S_.numel := by decide

end RF

/-! ## The first program's detector: strip first -/

section K
open Cert.KernelIdeal KF

/-- Scale by 255, floor, clip to [0, 255], on the strip `[32,3,192,640]`. -/
def u8K (x : FVec Ideal S32x3x192x640 .f32) : FVec Ideal S32x3x192x640 .f32 :=
  minimumf (broadcastInDim S32x3x192x640 ![] bcast_S_S32x3x192x640 (constant (F := Ideal) S_ .f32 0x437F0000#32))
    (maximumf (broadcastInDim S32x3x192x640 ![] bcast_S_S32x3x192x640 (constant (F := Ideal) S_ .f32 0x00000000#32))
      (Host.floor (mulf x (broadcastInDim S32x3x192x640 ![] bcast_S_S32x3x192x640 (constant (F := Ideal) S_ .f32 0x437F0000#32)))))

/-- The weighted sum of the three channels of a clipped strip, rounded to even. -/
def mixK (u : FVec Ideal S32x3x192x640 .f32) : FVec Ideal S32x192x640 .f32 :=
  Host.roundeven
    (addf
      (addf
        (mulf (broadcastInDim S32x192x640 ![] bcast_S_S32x192x640 (constant (F := Ideal) S_ .f32 0x3DE978D5#32))
          (shapeCast S32x192x640 (extractStridedSlice S32x1x192x640 ![0, 0, 0, 0] u slices_S32x3x192x640_S32x1x192x640_0_0_0_0) shapeCasts_S32x1x192x640_S32x192x640))
        (mulf (broadcastInDim S32x192x640 ![] bcast_S_S32x192x640 (constant (F := Ideal) S_ .f32 0x3F1645A2#32))
          (shapeCast S32x192x640 (extractStridedSlice S32x1x192x640 ![0, 1, 0, 0] u slices_S32x3x192x640_S32x1x192x640_0_1_0_0) shapeCasts_S32x1x192x640_S32x192x640)))
      (mulf (broadcastInDim S32x192x640 ![] bcast_S_S32x192x640 (constant (F := Ideal) S_ .f32 0x3E991687#32))
        (shapeCast S32x192x640 (extractStridedSlice S32x1x192x640 ![0, 2, 0, 0] u slices_S32x3x192x640_S32x1x192x640_0_2_0_0) shapeCasts_S32x1x192x640_S32x192x640)))

/-- Image ↦ rounded gray strip: rows 448..639 are cut out of the image first. -/
def grayK (img : FVec Ideal S32x3x640x640 .f32) : FVec Ideal S32x192x640 .f32 :=
  mixK (u8K (extractStridedSlice S32x3x192x640 ![0, 0, 448, 0] img slices_S32x3x640x640_S32x3x192x640_0_0_448_0))

/-- Reflect-pad, rows: one row above (row 1 mirrored). -/
def padTopK (g : FVec Ideal S32x192x640 .f32) : FVec Ideal S32x193x640 .f32 :=
  concatenate S32x193x640 1
    [⟨S32x1x640, Host.reverse [1] (extractStridedSlice S32x1x640 ![0, 1, 0] g slices_S32x192x640_S32x1x640_0_1_0)⟩, ⟨S32x192x640, g⟩]
    concatenates_S32x1x640_S32x192x640_S32x193x640_d1

/-- Reflect-pad, rows: then one row below (the last row but one mirrored). -/
def padRowsK (g : FVec Ideal S32x192x640 .f32) : FVec Ideal S32x194x640 .f32 :=
  concatenate S32x194x640 1
    [⟨S32x193x640, padTopK g⟩, ⟨S32x1x640, Host.reverse [1] (extractStridedSlice S32x1x640 ![0, 191, 0] (padTopK g) slices_S32x193x640_S32x1x640_0_191_0)⟩]
    concatenates_S32x193x640_S32x1x640_S32x194x640_d1

/-- Reflect-pad, columns: one column on the left (column 1 mirrored). -/
def padLeftK (g : FVec Ideal S32x192x640 .f32) : FVec Ideal S32x194x641 .f32 :=
  concatenate S32x194x641 2
    [⟨S32x194x1, Host.reverse [2] (extractStridedSlice S32x194x1 ![0, 0, 1] (padRowsK g) slices_S32x194x640_S32x194x1_0_0_1)⟩, ⟨S32x194x640, padRowsK g⟩]
    concatenates_S32x194x1_S32x194x640_S32x194x641_d2

/-- The gray strip reflect-padded by one on the two image axes. -/
def padK (g : FVec Ideal S32x192x640 .f32) : FVec Ideal S32x194x642 .f32 :=
  concatenate S32x194x642 2
    [⟨S32x194x641, padLeftK g⟩, ⟨S32x194x1, Host.reverse [2] (extractStridedSlice S32x194x1 ![0, 0, 639] (padLeftK g) slices_S32x194x641_S32x194x1_0_0_639)⟩]
    concatenates_S32x194x641_S32x194x1_S32x194x642_d2

/-- |up + down + left + right − 4·centre| of the padded strip. -/
def lapK (g : FVec Ideal S32x192x640 .f32) : FVec Ideal S32x192x640 .f32 :=
  Host.absf
    (subf
      (addf
        (addf
          (addf (extractStridedSlice S32x192x640 ![0, 0, 1] (padK g) slices_S32x194x642_S32x192x640_0_0_1)
            (extractStridedSlice S32x192x640 ![0, 2, 1] (padK g) slices_S32x194x642_S32x192x640_0_2_1))
          (extractStridedSlice S32x192x640 ![0, 1, 0] (padK g) slices_S32x194x642_S32x192x640_0_1_0))
        (extractStridedSlice S32x192x640 ![0, 1, 2] (padK g) slices_S32x194x642_S32x192x640_0_1_2))
      (mulf (broadcastInDim S32x192x640 ![] bcast_S_S32x192x640 (constant (F := Ideal) S_ .f32 0x40800000#32)) g))

/-- The raw 0/1 mask: bright (gray > 204) and sharp (Laplacian > 76.5), as a float. -/
def rawK (g : FVec Ideal S32x192x640 .f32) : FVec Ideal S32x192x640 .f32 :=
  uitofp .f32
    (andi
      (cmpf .ogt g (broadcastInDim S32x192x640 ![] bcast_S_S32x192x640 (constant (F := Ideal) S_ .f32 0x434C0000#32)))
      (cmpf .ogt (lapK g) (broadcastInDim S32x192x640 ![] bcast_S_S32x192x640 (constant (F := Ideal) S_ .f32 0x42990000#32))))

/-- 3×3 window maximum (padding −∞). -/
def dilK (x : FVec Ideal S32x192x640 .f32) : FVec Ideal S32x192x640 .f32 :=
  Host.reduceWindow FloatOps.maximumf ![1, 3, 3] ![1, 1, 1] ![0, 1, 1] ![0, 1, 1] x
    (broadcastInDim S_ ![] bcast_S_S_ (constant (F := Ideal) S_ .f32 0xFF800000#32))
    reduceWindows_S32x192x640_S32x192x640_w1s1p0_0_w3s1p1_1_w3s1p1_1 h_S_

/-- 3×3 window minimum (padding +∞). -/
def eroK (x : FVec Ideal S32x192x640 .f32) : FVec Ideal S32x192x640 .f32 :=
  Host.reduceWindow FloatOps.minimumf ![1, 3, 3] ![1, 1, 1] ![0, 1, 1] ![0, 1, 1] x
    (broadcastInDim S_ ![] bcast_S_S_ (constant (F := Ideal) S_ .f32 0x7F800000#32))
    reduceWindows_S32x192x640_S32x192x640_w1s1p0_0_w3s1p1_1_w3s1p1_1 h_S_

/-- Gray strip ↦ mask: the raw mask, then max, min, min, max over 3×3 windows. -/
def morphK (g : FVec Ideal S32x192x640 .f32) : FVec Ideal S32x192x640 .f32 :=
  dilK (eroK (eroK (dilK (rawK g))))

/-- The first program's detector. -/
def subK (img : FVec Ideal S32x3x640x640 .f32) : FVec Ideal S32x192x640 .f32 :=
  morphK (grayK img)

end K

/-! ## The second program's detector: gray image first, strip afterwards -/

section R
open Cert.ReferenceIdeal RF

/-- Scale by 255, floor, clip to [0, 255], on the full image. -/
def u8R (x : FVec Ideal S32x3x640x640 .f32) : FVec Ideal S32x3x640x640 .f32 :=
  minimumf (broadcastInDim S32x3x640x640 ![] bcast_S_S32x3x640x640 (constant (F := Ideal) S_ .f32 0x437F0000#32))
    (maximumf (broadcastInDim S32x3x640x640 ![] bcast_S_S32x3x640x640 (constant (F := Ideal) S_ .f32 0x00000000#32))
      (Host.floor (mulf x (broadcastInDim S32x3x640x640 ![] bcast_S_S32x3x640x640 (constant (F := Ideal) S_ .f32 0x437F0000#32)))))

/-- The weighted sum of the three channels of the clipped image, rounded to even. -/
def mixR (u : FVec Ideal S32x3x640x640 .f32) : FVec Ideal S32x640x640 .f32 :=
  Host.roundeven
    (addf
      (addf
        (mulf (broadcastInDim S32x640x640 ![] bcast_S_S32x640x640 (constant (F := Ideal) S_ .f32 0x3DE978D5#32))
          (shapeCast S32x640x640 (extractStridedSlice S32x1x640x640 ![0, 0, 0, 0] u slices_S32x3x640x640_S32x1x640x640_0_0_0_0) shapeCasts_S32x1x640x640_S32x640x640))
        (mulf (broadcastInDim S32x640x640 ![] bcast_S_S32x640x640 (constant (F := Ideal) S_ .f32 0x3F1645A2#32))
          (shapeCast S32x640x640 (extractStridedSlice S32x1x640x640 ![0, 1, 0, 0] u slices_S32x3x640x640_S32x1x640x640_0_1_0_0) shapeCasts_S32x1x640x640_S32x640x640)))
      (mulf (broadcastInDim S32x640x640 ![] bcast_S_S32x640x640 (constant (F := Ideal) S_ .f32 0x3E991687#32))
        (shapeCast S32x640x640 (extractStridedSlice S32x1x640x640 ![0, 2, 0, 0] u slices_S32x3x640x640_S32x1x640x640_0_2_0_0) shapeCasts_S32x1x640x640_S32x640x640)))

/-- Image ↦ rounded gray strip: rows 448..639 are cut out of the gray image. -/
def grayR (img : FVec Ideal S32x3x640x640 .f32) : FVec Ideal S32x192x640 .f32 :=
  extractStridedSlice S32x192x640 ![0, 448, 0] (mixR (u8R img)) slices_S32x640x640_S32x192x640_0_448_0

/-- Reflect-pad, rows: one row above (row 1 mirrored). -/
def padTopR (g : FVec Ideal S32x192x640 .f32) : FVec Ideal S32x193x640 .f32 :=
  concatenate S32x193x640 1
    [⟨S32x1x640, Host.reverse [1] (extractStridedSlice S32x1x640 ![0, 1, 0] g slices_S32x192x640_S32x1x640_0_1_0)⟩, ⟨S32x192x640, g⟩]
    concatenates_S32x1x640_S32x192x640_S32x193x640_d1

/-- Reflect-pad, rows: then one row below (the last row but one mirrored). -/
def padRowsR (g : FVec Ideal S32x192x640 .f32) : FVec Ideal S32x194x640 .f32 :=
  concatenate S32x194x640 1
    [⟨S32x193x640, padTopR g⟩, ⟨S32x1x640, Host.reverse [1] (extractStridedSlice S32x1x640 ![0, 191, 0] (padTopR g) slices_S32x193x640_S32x1x640_0_191_0)⟩]
    concatenates_S32x193x640_S32x1x640_S32x194x640_d1

/-- Reflect-pad, columns: one column on the left (column 1 mirrored). -/
def padLeftR (g : FVec Ideal S32x192x640 .f32) : FVec Ideal S32x194x641 .f32 :=
  concatenate S32x194x641 2
    [⟨S32x194x1, Host.reverse [2] (extractStridedSlice S32x194x1 ![0, 0, 1] (padRowsR g) slices_S32x194x640_S32x194x1_0_0_1)⟩, ⟨S32x194x640, padRowsR g⟩]
    concatenates_S32x194x1_S32x194x640_S32x194x641_d2

/-- The gray strip reflect-padded by one on the two image axes. -/
def padR (g : FVec Ideal S32x192x640 .f32) : FVec Ideal S32x194x642 .f32 :=
  concatenate S32x194x642 2
    [⟨S32x194x641, padLeftR g⟩, ⟨S32x194x1, Host.reverse [2] (extractStridedSlice S32x194x1 ![0, 0, 639] (padLeftR g) slices_S32x194x641_S32x194x1_0_0_639)⟩]
    concatenates_S32x194x641_S32x194x1_S32x194x642_d2

/-- |up + down + left + right − 4·centre| of the padded strip. -/
def lapR (g : FVec Ideal S32x192x640 .f32) : FVec Ideal S32x192x640 .f32 :=
  Host.absf
    (subf
      (addf
        (addf
          (addf (extractStridedSlice S32x192x640 ![0, 0, 1] (padR g) slices_S32x194x642_S32x192x640_0_0_1)
            (extractStridedSlice S32x192x640 ![0, 2, 1] (padR g) slices_S32x194x642_S32x192x640_0_2_1))
          (extractStridedSlice S32x192x640 ![0, 1, 0] (padR g) slices_S32x194x642_S32x192x640_0_1_0))
        (extractStridedSlice S32x192x640 ![0, 1, 2] (padR g) slices_S32x194x642_S32x192x640_0_1_2))
      (mulf (broadcastInDim S32x192x640 ![] bcast_S_S32x192x640 (constant (F := Ideal) S_ .f32 0x40800000#32)) g))

/-- The raw 0/1 mask: bright (gray > 204) and sharp (Laplacian > 76.5), as a float. -/
def rawR (g : FVec Ideal S32x192x640 .f32) : FVec Ideal S32x192x640 .f32 :=
  uitofp .f32
    (andi
      (cmpf .ogt g (broadcastInDim S32x192x640 ![] bcast_S_S32x192x640 (constant (F := Ideal) S_ .f32 0x434C0000#32)))
      (cmpf .ogt (lapR g) (broadcastInDim S32x192x640 ![] bcast_S_S32x192x640 (constant (F := Ideal) S_ .f32 0x42990000#32))))

/-- 3×3 window maximum (padding −∞). -/
def dilR (x : FVec Ideal S32x192x640 .f32) : FVec Ideal S32x192x640 .f32 :=
  Host.reduceWindow FloatOps.maximumf ![1, 3, 3] ![1, 1, 1] ![0, 1, 1] ![0, 1, 1] x
    (broadcastInDim S_ ![] bcast_S_S_ (constant (F := Ideal) S_ .f32 0xFF800000#32))
    reduceWindows_S32x192x640_S32x192x640_w1s1p0_0_w3s1p1_1_w3s1p1_1 h_S_

/-- 3×3 window minimum (padding +∞). -/
def eroR (x : FVec Ideal S32x192x640 .f32) : FVec Ideal S32x192x640 .f32 :=
  Host.reduceWindow FloatOps.minimumf ![1, 3, 3] ![1, 1, 1] ![0, 1, 1] ![0, 1, 1] x
    (broadcastInDim S_ ![] bcast_S_S_ (constant (F := Ideal) S_ .f32 0x7F800000#32))
    reduceWindows_S32x192x640_S32x192x640_w1s1p0_0_w3s1p1_1_w3s1p1_1 h_S_

/-- Gray strip ↦ mask: the raw mask, then max, min, min, max over 3×3 windows. -/
def morphR (g : FVec Ideal S32x192x640 .f32) : FVec Ideal S32x192x640 .f32 :=
  dilR (eroR (eroR (dilR (rawR g))))

/-- The second program's detector. -/
def subR (img : FVec Ideal S32x3x640x640 .f32) : FVec Ideal S32x192x640 .f32 :=
  morphR (grayR img)

end R

end Cert.Detector

end
-- ==== Proof.KHostRead.lean ====
import proofs.«148992_j53300544143793_2_alg».proof.Proof.Gen.KernelIdeal.Frame
import Idealize.ShloMosaic.Lib.StableHlo.Run
import Idealize.ShloMosaic.Lib.ValueIdx
import proofs.«148992_j53300544143793_2_alg».proof.Proof.LibAfterAppend
import proofs.«148992_j53300544143793_2_alg».proof.Proof.DetectorDefs

/-!
# The first program's host operations before its kernel, read back

Before its kernel runs, the first program's entry function performs 84 array operations: it cuts the
bottom 192 rows out of the image, turns them into the 0/1 subtitle mask (scale by 255, floor, clip,
weighted gray sum, round to even, threshold, reflect-pad, 4-neighbour Laplacian, threshold, and,
convert, four 3×3 window reductions), and drops the unit axis of the three other arguments.  The
buffer contents the kernel then finds are the fold of those operations over the launch contents.

This file evaluates that fold at the four buffers the kernel reads: the mask is the detector
`Cert.Detector.subK` of the image argument, and the three others are the arguments reshaped from
`[32,1,640,640]` to `[32,640,640]`.

The fold is cut into the seven stretches the operations come in.  For each stretch, and for ANY
contents `W` before it, two kinds of facts are stated: what the stretch leaves in a buffer it
computes, as the stretch's operations composed over `W` at the buffers it reads; and that a buffer
it does not write keeps what `W` had.  The four results compose these, stretch by stretch.
-/

noncomputable section

namespace Cert.KernelIdeal.KHostRead

open Idealize.ShloMosaic Idealize.ShloMosaic.TcCoe
open Cert.KernelIdeal Cert.KernelIdeal.Gen

attribute [local irreducible] Host.reduceWindow Host.reverse concatenate

/-! ## What each stretch writes, and that it keeps every other buffer -/

/-- The buffers the first stretch (strip, scale, floor) writes. -/
abbrev wr0 : List (Ref sig .tc) := [main_v0, main_cst, main_v1, main_v2, main_v3, main_cst_0, main_cst_1]
/-- The buffers the second stretch (clip to [0, 255]) writes. -/
abbrev wr1 : List (Ref sig .tc) := [main_call0_v0, main_call0_v1, main_call0_v2, main_call0_v3, main_call0_v4, main_v4]
/-- The buffers the third stretch (channels, weighted gray sum) writes. -/
abbrev wr2 : List (Ref sig .tc) :=
  [main_v5, main_v6, main_v7, main_v8, main_v9, main_v10, main_cst_2, main_v11, main_v12, main_cst_3, main_v13, main_v14,
   main_v15, main_cst_4, main_v16, main_v17, main_v18]
/-- The buffer the fourth stretch (round to even) writes. -/
abbrev wr3 : List (Ref sig .tc) := [main_v19]
/-- The buffers the fifth stretch (brightness threshold) writes. -/
abbrev wr4 : List (Ref sig .tc) := [main_cst_5, main_v20, main_v21, main_c]
/-- The buffers the sixth stretch (reflect-pad) writes. -/
abbrev wr5 : List (Ref sig .tc) :=
  [main_call2_v0, main_call2_v1, main_call2_v2, main_call2_v3, main_call2_v4, main_call2_v5, main_call2_v6, main_call2_v7,
   main_call2_v8, main_call2_v9, main_call2_v10, main_call2_v11, main_call2_v12, main_call2_v13, main_call2_v14, main_v22]

theorem writes0 : (hostOps0 (F := Ideal)).Forall fun op => op.writes ⊆ (wr0.map (Proc.devRef (τ := τ) .tc)).toFinset := by
  simp only [hostOps0, wr0, List.Forall, StableHlo.nullary_writes, StableHlo.unary_writes, StableHlo.binary_writes,
    StableHlo.reshape_writes, Finset.singleton_subset_iff, List.mem_toFinset, List.map_cons, List.map_nil, List.mem_cons,
    true_or, or_true, and_self]
theorem writes1 : (hostOps0_1 (F := Ideal)).Forall fun op => op.writes ⊆ (wr1.map (Proc.devRef (τ := τ) .tc)).toFinset := by
  simp only [hostOps0_1, wr1, List.Forall, StableHlo.nullary_writes, StableHlo.unary_writes, StableHlo.binary_writes,
    StableHlo.reshape_writes, Finset.singleton_subset_iff, List.mem_toFinset, List.map_cons, List.map_nil, List.mem_cons,
    true_or, or_true, and_self]
theorem writes2 : (hostOps0_2 (F := Ideal)).Forall fun op => op.writes ⊆ (wr2.map (Proc.devRef (τ := τ) .tc)).toFinset := by
  simp only [hostOps0_2, wr2, List.Forall, StableHlo.nullary_writes, StableHlo.unary_writes, StableHlo.binary_writes,
    StableHlo.reshape_writes, Finset.singleton_subset_iff, List.mem_toFinset, List.map_cons, List.map_nil, List.mem_cons,
    true_or, or_true, and_self]
theorem writes3 : (hostOps0_3 (F := Ideal)).Forall fun op => op.writes ⊆ (wr3.map (Proc.devRef (τ := τ) .tc)).toFinset := by
  simp only [hostOps0_3, wr3, List.Forall, StableHlo.nullary_writes, StableHlo.unary_writes, StableHlo.binary_writes,
    StableHlo.reshape_writes, Finset.singleton_subset_iff, List.mem_toFinset, List.map_cons, List.map_nil, List.mem_cons,
    true_or, or_true, and_self]
theorem writes4 : (hostOps0_4 (F := Ideal)).Forall fun op => op.writes ⊆ (wr4.map (Proc.devRef (τ := τ) .tc)).toFinset := by
  simp only [hostOps0_4, wr4, List.Forall, StableHlo.nullary_writes, StableHlo.unary_writes, StableHlo.binary_writes,
    StableHlo.reshape_writes, Finset.singleton_subset_iff, List.mem_toFinset, List.map_cons, List.map_nil, List.mem_cons,
    true_or, or_true, and_self]
theorem writes5 : (hostOps0_5 (F := Ideal)).Forall fun op => op.writes ⊆ (wr5.map (Proc.devRef (τ := τ) .tc)).toFinset := by
  simp only [hostOps0_5, wr5, List.Forall, StableHlo.nullary_writes, StableHlo.unary_writes, StableHlo.binary_writes,
    StableHlo.reshape_writes, Finset.singleton_subset_iff, List.mem_toFinset, List.map_cons, List.map_nil, List.mem_cons,
    true_or, or_true, and_self]

section Stretches

variable (W : Valuation τ sig (Elt Ideal))

/-- A stretch leaves a buffer it does not write as it found it. -/
theorem keep0 (r : Ref sig .tc) (hr : r ∉ wr0) :
    StableHlo.after (hostOps0 (F := Ideal)) W (Proc.devRef .tc r) = W (Proc.devRef .tc r) :=
  StableHlo.after_of_writes_sub _ _ writes0 hr
theorem keep1 (r : Ref sig .tc) (hr : r ∉ wr1) :
    StableHlo.after (hostOps0_1 (F := Ideal)) W (Proc.devRef .tc r) = W (Proc.devRef .tc r) :=
  StableHlo.after_of_writes_sub _ _ writes1 hr
theorem keep2 (r : Ref sig .tc) (hr : r ∉ wr2) :
    StableHlo.after (hostOps0_2 (F := Ideal)) W (Proc.devRef .tc r) = W (Proc.devRef .tc r) :=
  StableHlo.after_of_writes_sub _ _ writes2 hr
theorem keep3 (r : Ref sig .tc) (hr : r ∉ wr3) :
    StableHlo.after (hostOps0_3 (F := Ideal)) W (Proc.devRef .tc r) = W (Proc.devRef .tc r) :=
  StableHlo.after_of_writes_sub _ _ writes3 hr
theorem keep4 (r : Ref sig .tc) (hr : r ∉ wr4) :
    StableHlo.after (hostOps0_4 (F := Ideal)) W (Proc.devRef .tc r) = W (Proc.devRef .tc r) :=
  StableHlo.after_of_writes_sub _ _ writes4 hr
theorem keep5 (r : Ref sig .tc) (hr : r ∉ wr5) :
    StableHlo.after (hostOps0_5 (F := Ideal)) W (Proc.devRef .tc r) = W (Proc.devRef .tc r) :=
  StableHlo.after_of_writes_sub _ _ writes5 hr

/-! ## What each stretch computes -/

/-- The first stretch: the strip of the image, times 255, floored. -/
theorem s0_v3 :
    (StableHlo.after (hostOps0 (F := Ideal)) W (Proc.devRef .tc main_v3) : FVec Ideal S32x3x192x640 .f32)
      = Host.floor (mulf
          (extractStridedSlice S32x3x192x640 ![0, 0, 448, 0] (W (Proc.devRef .tc main_arg3)) slices_S32x3x640x640_S32x3x192x640_0_0_448_0)
          (broadcastInDim S32x3x192x640 ![] bcast_S_S32x3x192x640 (constant (F := Ideal) S_ .f32 0x437F0000#32))) := by
  unfold hostOps0
  after_results
/-- The first stretch also sets the clip's lower bound 0 … -/
theorem s0_cst0 :
    (StableHlo.after (hostOps0 (F := Ideal)) W (Proc.devRef .tc main_cst_0) : FVec Ideal S_ .f32)
      = constant (F := Ideal) S_ .f32 0x00000000#32 := by
  unfold hostOps0
  after_results
/-- … and its upper bound 255. -/
theorem s0_cst1 :
    (StableHlo.after (hostOps0 (F := Ideal)) W (Proc.devRef .tc main_cst_1) : FVec Ideal S_ .f32)
      = constant (F := Ideal) S_ .f32 0x437F0000#32 := by
  unfold hostOps0
  after_results

/-- The second stretch: the clip to [lower, upper]. -/
theorem s1_v4 :
    @Eq (FVec Ideal S32x3x192x640 .f32) (StableHlo.after (hostOps0_1 (F := Ideal)) W (Proc.devRef .tc main_v4))
      (minimumf (broadcastInDim S32x3x192x640 ![] bcast_S_S32x3x192x640 (W (Proc.devRef .tc main_cst_1)))
        (maximumf (broadcastInDim S32x3x192x640 ![] bcast_S_S32x3x192x640 (W (Proc.devRef .tc main_cst_0)))
          (W (Proc.devRef .tc main_v3)))) := by
  unfold hostOps0_1
  after_results
  try rfl

/-- The third stretch: the weighted sum of the three channels. -/
theorem s2_v18 :
    (StableHlo.after (hostOps0_2 (F := Ideal)) W (Proc.devRef .tc main_v18) : FVec Ideal S32x192x640 .f32)
      = addf
          (addf
            (mulf (broadcastInDim S32x192x640 ![] bcast_S_S32x192x640 (constant (F := Ideal) S_ .f32 0x3DE978D5#32))
              (shapeCast S32x192x640 (extractStridedSlice S32x1x192x640 ![0, 0, 0, 0] (W (Proc.devRef .tc main_v4)) slices_S32x3x192x640_S32x1x192x640_0_0_0_0) shapeCasts_S32x1x192x640_S32x192x640))
            (mulf (broadcastInDim S32x192x640 ![] bcast_S_S32x192x640 (constant (F := Ideal) S_ .f32 0x3F1645A2#32))
              (shapeCast S32x192x640 (extractStridedSlice S32x1x192x640 ![0, 1, 0, 0] (W (Proc.devRef .tc main_v4)) slices_S32x3x192x640_S32x1x192x640_0_1_0_0) shapeCasts_S32x1x192x640_S32x192x640)))
          (mulf (broadcastInDim S32x192x640 ![] bcast_S_S32x192x640 (constant (F := Ideal) S_ .f32 0x3E991687#32))
            (shapeCast S32x192x640 (extractStridedSlice S32x1x192x640 ![0, 2, 0, 0] (W (Proc.devRef .tc main_v4)) slices_S32x3x192x640_S32x1x192x640_0_2_0_0) shapeCasts_S32x1x192x640_S32x192x640)) := by
  unfold hostOps0_2
  after_results
  rfl

/-- The fourth stretch: round to even. -/
theorem s3_v19 :
    @Eq (FVec Ideal S32x192x640 .f32) (StableHlo.after (hostOps0_3 (F := Ideal)) W (Proc.devRef .tc main_v19))
      (Host.roundeven (W (Proc.devRef .tc main_v18))) := by
  unfold hostOps0_3
  after_results
  try rfl

/-- The fifth stretch: the brightness test, gray above 204. -/
theorem s4_v21 :
    @Eq (IVec S32x192x640 1) (StableHlo.after (hostOps0_4 (F := Ideal)) W (Proc.devRef .tc main_v21))
      (cmpf .ogt (W (Proc.devRef .tc main_v19))
        (broadcastInDim S32x192x640 ![] bcast_S_S32x192x640 (constant (F := Ideal) S_ .f32 0x434C0000#32))) := by
  unfold hostOps0_4
  after_results

/-- The sixth stretch: the reflect-pad by one on the two image axes. -/
theorem s5_v22 :
    (StableHlo.after (hostOps0_5 (F := Ideal)) W (Proc.devRef .tc main_v22) : FVec Ideal S32x194x642 .f32)
      = Cert.Detector.padK (W (Proc.devRef .tc main_v19)) := by
  unfold hostOps0_5
  after_results
  unfold Cert.Detector.padK Cert.Detector.padLeftK Cert.Detector.padRowsK Cert.Detector.padTopK
  rfl

/-! ## The seventh stretch, over what it reads -/

/-- |up + down + left + right − 4·centre|, of a padded strip `p` and the strip `g` itself. -/
def lapOf (p : FVec Ideal S32x194x642 .f32) (g : FVec Ideal S32x192x640 .f32) : FVec Ideal S32x192x640 .f32 :=
  Host.absf
    (subf
      (addf
        (addf
          (addf (extractStridedSlice S32x192x640 ![0, 0, 1] p slices_S32x194x642_S32x192x640_0_0_1)
            (extractStridedSlice S32x192x640 ![0, 2, 1] p slices_S32x194x642_S32x192x640_0_2_1))
          (extractStridedSlice S32x192x640 ![0, 1, 0] p slices_S32x194x642_S32x192x640_0_1_0))
        (extractStridedSlice S32x192x640 ![0, 1, 2] p slices_S32x194x642_S32x192x640_0_1_2))
      (mulf (broadcastInDim S32x192x640 ![] bcast_S_S32x192x640 (constant (F := Ideal) S_ .f32 0x40800000#32)) g))

/-- The raw mask from the brightness bit `b` and a Laplacian `l`: bright and sharp (Laplacian above 76.5), as a float. -/
def rawOf (b : IVec S32x192x640 1) (l : FVec Ideal S32x192x640 .f32) : FVec Ideal S32x192x640 .f32 :=
  uitofp .f32
    (andi b (cmpf .ogt l (broadcastInDim S32x192x640 ![] bcast_S_S32x192x640 (constant (F := Ideal) S_ .f32 0x42990000#32))))

/-- The seventh stretch: the Laplacian of the padded strip, its threshold, the and with the brightness bit, the
    conversion, then maximum, minimum, minimum, maximum over 3×3 windows. -/
theorem s6_v45 :
    @Eq (FVec Ideal S32x192x640 .f32) (StableHlo.after (hostOps0_6 (F := Ideal)) W (Proc.devRef .tc main_v45))
      (Cert.Detector.dilK (Cert.Detector.eroK (Cert.Detector.eroK (Cert.Detector.dilK
        (rawOf (W (Proc.devRef .tc main_v21)) (lapOf (W (Proc.devRef .tc main_v22)) (W (Proc.devRef .tc main_v19)))))))) := by
  unfold hostOps0_6
  after_results_simp
  unfold Cert.Detector.dilK Cert.Detector.eroK rawOf lapOf
  try rfl

/-- The seventh stretch also drops the unit axis of the first argument … -/
theorem s6_v46 :
    (StableHlo.after (hostOps0_6 (F := Ideal)) W (Proc.devRef .tc main_v46) : S32x640x640.Idx → EReal)
      = shapeCast S32x640x640 (W (Proc.devRef .tc main_arg0)) shapeCasts_S32x1x640x640_S32x640x640 := by
  unfold hostOps0_6
  after_results
  try rfl
/-- … of the second … -/
theorem s6_v47 :
    (StableHlo.after (hostOps0_6 (F := Ideal)) W (Proc.devRef .tc main_v47) : S32x640x640.Idx → EReal)
      = shapeCast S32x640x640 (W (Proc.devRef .tc main_arg1)) shapeCasts_S32x1x640x640_S32x640x640 := by
  unfold hostOps0_6
  after_results
  try rfl
/-- … and of the third. -/
theorem s6_v48 :
    (StableHlo.after (hostOps0_6 (F := Ideal)) W (Proc.devRef .tc main_v48) : S32x640x640.Idx → EReal)
      = shapeCast S32x640x640 (W (Proc.devRef .tc main_arg2)) shapeCasts_S32x1x640x640_S32x640x640 := by
  unfold hostOps0_6
  after_results
  try rfl

/-! ## The stretches composed -/

/-- After the first two stretches: the strip scaled, floored and clipped. -/
theorem upto1_v4 :
    @Eq (FVec Ideal S32x3x192x640 .f32)
      (StableHlo.after (hostOps0_1 (F := Ideal)) (StableHlo.after (hostOps0 (F := Ideal)) W) (Proc.devRef .tc main_v4))
      (Cert.Detector.u8K (extractStridedSlice S32x3x192x640 ![0, 0, 448, 0] (W (Proc.devRef .tc main_arg3)) slices_S32x3x640x640_S32x3x192x640_0_0_448_0)) := by
  rw [s1_v4, s0_cst1, s0_cst0, s0_v3]
  unfold Cert.Detector.u8K
  try rfl

/-- After the first four stretches: the rounded gray strip. -/
theorem upto3_v19 :
    @Eq (FVec Ideal S32x192x640 .f32)
      (StableHlo.after (hostOps0_3 (F := Ideal)) (StableHlo.after (hostOps0_2 (F := Ideal))
        (StableHlo.after (hostOps0_1 (F := Ideal)) (StableHlo.after (hostOps0 (F := Ideal)) W))) (Proc.devRef .tc main_v19))
      (Cert.Detector.grayK (W (Proc.devRef .tc main_arg3))) := by
  rw [s3_v19, s2_v18, upto1_v4]
  unfold Cert.Detector.grayK Cert.Detector.mixK
  try rfl

/-- The contents after the first six stretches. -/
abbrev upto5 : Valuation τ sig (Elt Ideal) :=
  StableHlo.after (hostOps0_5 (F := Ideal)) (StableHlo.after (hostOps0_4 (F := Ideal))
    (StableHlo.after (hostOps0_3 (F := Ideal)) (StableHlo.after (hostOps0_2 (F := Ideal))
      (StableHlo.after (hostOps0_1 (F := Ideal)) (StableHlo.after (hostOps0 (F := Ideal)) W)))))

/-- After the first six stretches the gray strip is still where the fourth left it … -/
theorem upto5_v19 :
    @Eq (FVec Ideal S32x192x640 .f32) (upto5 W (Proc.devRef .tc main_v19)) (Cert.Detector.grayK (W (Proc.devRef .tc main_arg3))) := by
  unfold upto5
  rw [keep5 _ main_v19 (by decide), keep4 _ main_v19 (by decide), upto3_v19]
/-- … the brightness bit is the gray strip's … -/
theorem upto5_v21 :
    @Eq (IVec S32x192x640 1) (upto5 W (Proc.devRef .tc main_v21))
      (cmpf .ogt (Cert.Detector.grayK (W (Proc.devRef .tc main_arg3)))
        (broadcastInDim S32x192x640 ![] bcast_S_S32x192x640 (constant (F := Ideal) S_ .f32 0x434C0000#32))) := by
  unfold upto5
  rw [keep5 _ main_v21 (by decide), s4_v21, upto3_v19]
/-- … and the padded strip is the gray strip padded. -/
theorem upto5_v22 :
    @Eq (FVec Ideal S32x194x642 .f32) (upto5 W (Proc.devRef .tc main_v22))
      (Cert.Detector.padK (Cert.Detector.grayK (W (Proc.devRef .tc main_arg3)))) := by
  unfold upto5
  rw [s5_v22, keep4 _ main_v19 (by decide), upto3_v19]
/-- The first six stretches write none of the three other arguments. -/
theorem upto5_arg0 : upto5 W (Proc.devRef .tc main_arg0) = W (Proc.devRef .tc main_arg0) := by
  unfold upto5
  rw [keep5 _ main_arg0 (by decide), keep4 _ main_arg0 (by decide), keep3 _ main_arg0 (by decide),
    keep2 _ main_arg0 (by decide), keep1 _ main_arg0 (by decide), keep0 _ main_arg0 (by decide)]
theorem upto5_arg1 : upto5 W (Proc.devRef .tc main_arg1) = W (Proc.devRef .tc main_arg1) := by
  unfold upto5
  rw [keep5 _ main_arg1 (by decide), keep4 _ main_arg1 (by decide), keep3 _ main_arg1 (by decide),
    keep2 _ main_arg1 (by decide), keep1 _ main_arg1 (by decide), keep0 _ main_arg1 (by decide)]
theorem upto5_arg2 : upto5 W (Proc.devRef .tc main_arg2) = W (Proc.devRef .tc main_arg2) := by
  unfold upto5
  rw [keep5 _ main_arg2 (by decide), keep4 _ main_arg2 (by decide), keep3 _ main_arg2 (by decide),
    keep2 _ main_arg2 (by decide), keep1 _ main_arg2 (by decide), keep0 _ main_arg2 (by decide)]

/-- After all seven stretches the mask buffer holds the detector of the image argument. -/
theorem all_v45 :
    @Eq (FVec Ideal S32x192x640 .f32) (StableHlo.after (hostOps0_6 (F := Ideal)) (upto5 W) (Proc.devRef .tc main_v45))
      (Cert.Detector.subK (W (Proc.devRef .tc main_arg3))) := by
  rw [s6_v45, upto5_v21, upto5_v22, upto5_v19]
  unfold Cert.Detector.subK Cert.Detector.morphK Cert.Detector.rawK Cert.Detector.lapK rawOf lapOf
  try rfl
/-- And the three reshaped arguments are the launch's. -/
theorem all_v46 :
    (StableHlo.after (hostOps0_6 (F := Ideal)) (upto5 W) (Proc.devRef .tc main_v46) : S32x640x640.Idx → EReal)
      = shapeCast S32x640x640 (W (Proc.devRef .tc main_arg0)) shapeCasts_S32x1x640x640_S32x640x640 := by
  rw [s6_v46, upto5_arg0]
theorem all_v47 :
    (StableHlo.after (hostOps0_6 (F := Ideal)) (upto5 W) (Proc.devRef .tc main_v47) : S32x640x640.Idx → EReal)
      = shapeCast S32x640x640 (W (Proc.devRef .tc main_arg1)) shapeCasts_S32x1x640x640_S32x640x640 := by
  rw [s6_v47, upto5_arg1]
theorem all_v48 :
    (StableHlo.after (hostOps0_6 (F := Ideal)) (upto5 W) (Proc.devRef .tc main_v48) : S32x640x640.Idx → EReal)
      = shapeCast S32x640x640 (W (Proc.devRef .tc main_arg2)) shapeCasts_S32x1x640x640_S32x640x640 := by
  rw [s6_v48, upto5_arg2]

end Stretches

/-! ## What the kernel finds -/

variable (m : (ℓ : Loc nD τ sig) → Buf (Elt Ideal) ℓ)

/-- The contents the kernel finds, as the seven stretches run one after the other from the launch contents. -/
theorem V0_split (c : Dev nD) :
    V0 m c = StableHlo.after (hostOps0_6 (F := Ideal)) (upto5 (fun b => m (c, b))) := by
  unfold V0 upto5
  simp only [List.flatten_cons, List.flatten_nil, List.append_nil, Cert.AfterAppend.after_append]

/-- The mask buffer holds the detector of the image argument. -/
theorem V45 (c : Dev nD) :
    (V m c main_v45 : S32x192x640.Idx → EReal) = Cert.Detector.subK (m ((c : Thread nD τ).loc main_arg3)) :=
  (congrFun (V0_split m c) (Proc.devRef .tc main_v45)).trans (all_v45 (fun b => m (c, b)))

/-- The three other buffers the kernel reads hold the arguments with the unit axis dropped. -/
theorem V46 (c : Dev nD) :
    (V m c main_v46 : S32x640x640.Idx → EReal)
      = shapeCast S32x640x640 (m ((c : Thread nD τ).loc main_arg0)) shapeCasts_S32x1x640x640_S32x640x640 :=
  (congrFun (V0_split m c) (Proc.devRef .tc main_v46)).trans (all_v46 (fun b => m (c, b)))
theorem V47 (c : Dev nD) :
    (V m c main_v47 : S32x640x640.Idx → EReal)
      = shapeCast S32x640x640 (m ((c : Thread nD τ).loc main_arg1)) shapeCasts_S32x1x640x640_S32x640x640 :=
  (congrFun (V0_split m c) (Proc.devRef .tc main_v47)).trans (all_v47 (fun b => m (c, b)))
theorem V48 (c : Dev nD) :
    (V m c main_v48 : S32x640x640.Idx → EReal)
      = shapeCast S32x640x640 (m ((c : Thread nD τ).loc main_arg2)) shapeCasts_S32x1x640x640_S32x640x640 :=
  (congrFun (V0_split m c) (Proc.devRef .tc main_v48)).trans (all_v48 (fun b => m (c, b)))

end Cert.KernelIdeal.KHostRead

end
-- ==== Proof.LibSliceOps.lean ====
import Idealize.ShloMosaic.Lib.Pipeline.Value
import Idealize.ShloMosaic.Lib.ValueIdx

/-!
# Slices and unit-axis reshapes read at an index given by its coordinates

General facts about two re-indexing operations on arrays of rank 3 and 4, each over arbitrary extents:

* a unit-stride slice read at the index with coordinates `(a, b, c[, d])` is the operand at the
  coordinates shifted by the offsets (`slice3_ix`, `slice4_ix`);
* the reshape `[n0, 1, n2, n3] → [n0, n2, n3]` read at `(a, b, c)` is the operand at `(a, 0, b, c)`
  (`shapeCast_drop1_ix`);
* their composition, "channel `k` of a 4-axis array": slicing `[0:n0, k:k+1, 0:n2, 0:n3]` and dropping
  the unit axis reads the operand at `(a, k, b, c)` (`channel_ix`).

Nothing here depends on the element type.
-/

namespace Idealize.ShloMosaic.SliceOps

open Idealize.ShloMosaic Idealize.ShloMosaic.ValueIdx

variable {α : Type}

/-- A rank-3 slice at offsets `(o0, o1, o2)` read at `(a, b, c)` is the operand at `(o0 + a, o1 + b, o2 + c)`. -/
theorem slice3_ix {n0 n1 n2 m0 m1 m2 : Nat} (o0 o1 o2 : Nat) (x : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2)
    (h0 : o0 + a.val < n0) (h1 : o1 + b.val < n1) (h2 : o2 + c.val < n2) :
    extractStridedSlice ⟨3, ![m0, m1, m2]⟩ ![o0, o1, o2] x h (ix3 a b c)
      = x (ix3 ⟨o0 + a.val, h0⟩ ⟨o1 + b.val, h1⟩ ⟨o2 + c.val, h2⟩) :=
  extractStridedSlice_apply _ x h _ _ fun e => match e with
    | ⟨0, _⟩ => rfl | ⟨1, _⟩ => rfl | ⟨2, _⟩ => rfl

/-- A rank-4 slice at offsets `(o0, o1, o2, o3)` read at `(a, b, c, d)` is the operand at the shifted coordinates. -/
theorem slice4_ix {n0 n1 n2 n3 m0 m1 m2 m3 : Nat} (o0 o1 o2 o3 : Nat) (x : (⟨4, ![n0, n1, n2, n3]⟩ : Shape).Idx → α)
    (h : (⟨4, ![n0, n1, n2, n3]⟩ : Shape).Slices ![o0, o1, o2, o3] ⟨4, ![m0, m1, m2, m3]⟩)
    (a : Fin m0) (b : Fin m1) (c : Fin m2) (d : Fin m3)
    (h0 : o0 + a.val < n0) (h1 : o1 + b.val < n1) (h2 : o2 + c.val < n2) (h3 : o3 + d.val < n3) :
    extractStridedSlice ⟨4, ![m0, m1, m2, m3]⟩ ![o0, o1, o2, o3] x h (ix4 a b c d)
      = x (ix4 ⟨o0 + a.val, h0⟩ ⟨o1 + b.val, h1⟩ ⟨o2 + c.val, h2⟩ ⟨o3 + d.val, h3⟩) :=
  extractStridedSlice_apply _ x h _ _ fun e => match e with
    | ⟨0, _⟩ => rfl | ⟨1, _⟩ => rfl | ⟨2, _⟩ => rfl | ⟨3, _⟩ => rfl

/-- Dropping the unit second axis: `[n0, 1, n2, n3] → [n0, n2, n3]` read at `(a, b, c)` is the operand at `(a, 0, b, c)`. -/
theorem shapeCast_drop1_ix {n0 n2 n3 : Nat} (x : (⟨4, ![n0, 1, n2, n3]⟩ : Shape).Idx → α)
    (h : (⟨4, ![n0, 1, n2, n3]⟩ : Shape).ShapeCasts ⟨3, ![n0, n2, n3]⟩) (a : Fin n0) (b : Fin n2) (c : Fin n3) :
    shapeCast ⟨3, ![n0, n2, n3]⟩ x h (ix3 a b c) = x (ix4 a ⟨0, Nat.one_pos⟩ b c) := by
  refine shapeCast_apply x h _ _ ?_
  rw [Shape.rowMajor_val_four, Shape.rowMajor_val_three]
  show ((a.val * 1 + 0) * n2 + b.val) * n3 + c.val = (a.val * n2 + b.val) * n3 + c.val
  rw [Nat.mul_one, Nat.add_zero]

/-- Channel `k` of a 4-axis array: the slice `[0:n0, k:k+1, 0:n2, 0:n3]` with its unit axis dropped, read at
    `(a, b, c)`, is the operand at `(a, k, b, c)`. -/
theorem channel_ix {n0 n1 n2 n3 : Nat} (k : Nat) (hk : k < n1) (x : (⟨4, ![n0, n1, n2, n3]⟩ : Shape).Idx → α)
    (hs : (⟨4, ![n0, n1, n2, n3]⟩ : Shape).Slices ![0, k, 0, 0] ⟨4, ![n0, 1, n2, n3]⟩)
    (hc : (⟨4, ![n0, 1, n2, n3]⟩ : Shape).ShapeCasts ⟨3, ![n0, n2, n3]⟩) (a : Fin n0) (b : Fin n2) (c : Fin n3) :
    shapeCast ⟨3, ![n0, n2, n3]⟩ (extractStridedSlice ⟨4, ![n0, 1, n2, n3]⟩ ![0, k, 0, 0] x hs) hc (ix3 a b c)
      = x (ix4 a ⟨k, hk⟩ b c) := by
  rw [shapeCast_drop1_ix,
    slice4_ix 0 k 0 0 x hs a ⟨0, Nat.one_pos⟩ b c (by have := a.isLt; omega) (by show k + 0 < n1; omega)
      (by have := b.isLt; omega) (by have := c.isLt; omega)]
  congr 1
  funext e
  match e with
  | ⟨0, _⟩ => exact Fin.ext (Nat.zero_add _)
  | ⟨1, _⟩ => exact Fin.ext (Nat.add_zero _)
  | ⟨2, _⟩ => exact Fin.ext (Nat.zero_add _)
  | ⟨3, _⟩ => exact Fin.ext (Nat.zero_add _)

end Idealize.ShloMosaic.SliceOps
-- ==== Proof.KArgs.lean ====
/-
  The kernel's four host sums in terms of the program's arguments.

  The region finds pred, gt and mask with their unit channel axis dropped ([32, 1, 640, 640] viewed as [32, 640, 640]:
  entry (n, q, k) is the argument's entry (n, 0, q, k)) and the bottom-strip subtitle mask computed from the image by
  the host operations before the region.
-/
import proofs.«148992_j53300544143793_2_alg».proof.Proof.KTotals
import proofs.«148992_j53300544143793_2_alg».proof.Proof.KHostRead
import proofs.«148992_j53300544143793_2_alg».proof.Proof.LibSliceOps

set_option maxRecDepth 16384

noncomputable section

open scoped BigOperators
open Idealize.ShloMosaic Idealize.ShloMosaic.TcCoe Idealize.SL.Sem Idealize.ShloMosaic.ValueIdx Idealize.ShloMosaic.SliceOps

namespace Cert.KernelIdeal.KValue

open Cert.KernelIdeal Cert.KernelIdeal.Gen Cert.KernelIdeal.KPay Cert.KernelIdeal.KHostRead

variable (m : (ℓ : Loc nD τ sig) → Buf (Elt Ideal) ℓ)

/-- The one index of a unit axis. -/
abbrev u0 : Fin 1 := ⟨0, Nat.one_pos⟩

/-- The program's arguments on core `c`: pred, gt, mask ([32, 1, 640, 640]) and the image ([32, 3, 640, 640]), as arrays of
    extended reals. -/
abbrev aP (c : Dev nD) : S32x1x640x640.Idx → EReal := m ((c : Thread nD τ).loc main_arg0)
abbrev aG (c : Dev nD) : S32x1x640x640.Idx → EReal := m ((c : Thread nD τ).loc main_arg1)
abbrev aM (c : Dev nD) : S32x1x640x640.Idx → EReal := m ((c : Thread nD τ).loc main_arg2)
abbrev aI (c : Dev nD) : S32x3x640x640.Idx → EReal := m ((c : Thread nD τ).loc main_arg3)

/-- The sum of loss·mask, over the arguments. -/
theorem ktotal4 (c : Dev nD) (j : S_.Idx) :
    Host.reduceAdd (F := Ideal) (G4 m c) (constant (F := Ideal) S_ .f32 0x00000000#32) reducesTo_S2x1x1_S_d0_1_2 h_S_ j
      = Ideal.ofBits .f32 0x00000000#32 + ∑ n : Fin 32, ∑ q : Fin 640, ∑ k : Fin 640,
          bce1 (aP m c (ix4 n u0 q k)) (aG m c (ix4 n u0 q k)) * aM m c (ix4 n u0 q k) := by
  rw [total4]
  unfold F4
  rw [V46, V47, V48]
  simp only [shapeCast_drop1_ix]

/-- The sum of mask, over the arguments. -/
theorem ktotal5 (c : Dev nD) (j : S_.Idx) :
    Host.reduceAdd (F := Ideal) (G5 m c) (constant (F := Ideal) S_ .f32 0x00000000#32) reducesTo_S2x1x1_S_d0_1_2 h_S_ j
      = Ideal.ofBits .f32 0x00000000#32 + ∑ n : Fin 32, ∑ q : Fin 640, ∑ k : Fin 640, aM m c (ix4 n u0 q k) := by
  rw [total5]
  unfold F5
  rw [V48]
  simp only [shapeCast_drop1_ix]

/-- The sum of loss·(mask·sub) over the bottom strip, over the arguments. -/
theorem ktotal6 (c : Dev nD) (j : S_.Idx) :
    Host.reduceAdd (F := Ideal) (G6 m c) (constant (F := Ideal) S_ .f32 0x00000000#32) reducesTo_S2x1x1_S_d0_1_2 h_S_ j
      = Ideal.ofBits .f32 0x00000000#32 + ∑ n : Fin 32, ∑ q : Fin 192, ∑ k : Fin 640,
          bce1 (aP m c (ix4 n u0 (low q) k)) (aG m c (ix4 n u0 (low q) k))
            * (aM m c (ix4 n u0 (low q) k) * Cert.Detector.subK (aI m c) (ix3 n q k)) := by
  rw [total6]
  unfold F6
  rw [V46, V47, V48, V45]
  simp only [shapeCast_drop1_ix]

/-- The sum of mask·sub over the bottom strip, over the arguments. -/
theorem ktotal7 (c : Dev nD) (j : S_.Idx) :
    Host.reduceAdd (F := Ideal) (G7 m c) (constant (F := Ideal) S_ .f32 0x00000000#32) reducesTo_S2x1x1_S_d0_1_2 h_S_ j
      = Ideal.ofBits .f32 0x00000000#32 + ∑ n : Fin 32, ∑ q : Fin 192, ∑ k : Fin 640,
          aM m c (ix4 n u0 (low q) k) * Cert.Detector.subK (aI m c) (ix3 n q k) := by
  rw [total7]
  unfold F7
  rw [V48, V45]
  simp only [shapeCast_drop1_ix]

end Cert.KernelIdeal.KValue

end
-- ==== Proof.RefRun.lean ====
/-
  The reference program's @main as one straight line of host operations, and its run.

  @main calls four outlined functions (the clip, the round to nearest even, the reflect pad — which itself calls two
  flips, twice each — and the final select). A call executes the callee's body on the operands, so each call is listed
  here as the callee's operations over the buffers of that call. The line is cut at every call into nine consecutive
  pieces; @main is their concatenation, and what a buffer holds after the whole line is computed piece by piece.
-/
import proofs.«148992_j53300544143793_2_alg».proof.Proof.Gen.ReferenceIdeal
import Idealize.ShloMosaic.Lib.StableHlo.Run
import Idealize.ShloMosaic.Lib.Pipeline.Regions
import proofs.«148992_j53300544143793_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The nine pieces -/

/-- The scale by 255, the floor, and the two clip bounds: @main's first six operations. -/
abbrev opsA0 : List (HloOp τ sig (Elt F)) :=
  [ StableHlo.nullary main_cst (constant S_ .f32 0x437F0000#32),
    StableHlo.unary main_cst main_v0 (broadcastInDim S32x3x640x640 ![] bcast_S_S32x3x640x640 : (⟨S_, .f32⟩ : BufTy).Contents (Elt F) → (⟨S32x3x640x640, .f32⟩ : BufTy).Contents (Elt F)),
    StableHlo.binary main_arg3 main_v0 main_v1 (mulf : (⟨S32x3x640x640, .f32⟩ : BufTy).Contents (Elt F) → (⟨S32x3x640x640, .f32⟩ : BufTy).Contents (Elt F) → (⟨S32x3x640x640, .f32⟩ : BufTy).Contents (Elt F)),
    StableHlo.unary main_v1 main_v2 (Host.floor : (⟨S32x3x640x640, .f32⟩ : BufTy).Contents (Elt F) → (⟨S32x3x640x640, .f32⟩ : BufTy).Contents (Elt F)),
    StableHlo.nullary main_cst_0 (constant S_ .f32 0x00000000#32),
    StableHlo.nullary main_cst_1 (constant S_ .f32 0x437F0000#32) ]
/-- Every operation of the piece touches TensorCore references only. -/
theorem opsA0_sub : (opsA0 : List (HloOp τ sig (Elt F))).Forall fun op => op.bufs ⊆ tcRefs τ sig :=
  ⟨nullary_bufs_sub .., unary_bufs_sub .., binary_bufs_sub .., unary_bufs_sub .., nullary_bufs_sub .., nullary_bufs_sub ..⟩
/-- Every operation of the piece determines its results. -/
theorem opsA0_fresh : ∀ op ∈ (opsA0 : List (HloOp τ sig (Elt F))), op.fresh = ∅ := by
  intro _ h; (repeat (cases h with | head => rfl | tail _ h => ?_)); exact nomatch h

/-- The clip to [0, 255]: the six operations of the clip function's body, over the buffers of its one call. -/
abbrev opsA1 : List (HloOp τ sig (Elt F)) :=
  [ StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S32x3x640x640, .f32⟩) (broadcastInDim S32x3x640x640 ![] bcast_S_S32x3x640x640),
    StableHlo.TRef.binary (.of main_call0_v1 : StableHlo.TRef sig ⟨S32x3x640x640, .f32⟩) (.of main_v2 : StableHlo.TRef sig ⟨S32x3x640x640, .f32⟩) (.of main_call0_v2 : StableHlo.TRef sig ⟨S32x3x640x640, .f32⟩) maximumf,
    StableHlo.TRef.unary (.of main_cst_1 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S32x3x640x640, .f32⟩) (broadcastInDim S32x3x640x640 ![] bcast_S_S32x3x640x640),
    StableHlo.TRef.binary (.of main_call0_v4 : StableHlo.TRef sig ⟨S32x3x640x640, .f32⟩) (.of main_call0_v2 : StableHlo.TRef sig ⟨S32x3x640x640, .f32⟩) (.of main_v3 : StableHlo.TRef sig ⟨S32x3x640x640, .f32⟩) minimumf ]
/-- Every operation of the piece touches TensorCore references only. -/
theorem opsA1_sub : (opsA1 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- Every operation of the piece determines its results. -/
theorem opsA1_fresh : ∀ op ∈ (opsA1 : List (HloOp τ sig (Elt F))), op.fresh = ∅ := by
  intro _ h; (repeat (cases h with | head => rfl | tail _ h => ?_)); exact nomatch h

/-- The three channel slices and the weighted gray sum: seventeen operations. -/
abbrev opsA2 : List (HloOp τ sig (Elt F)) :=
  [ StableHlo.unary main_v3 main_v4 ((extractStridedSlice S32x1x640x640 ![0, 0, 0, 0] · slices_S32x3x640x640_S32x1x640x640_0_0_0_0) : (⟨S32x3x640x640, .f32⟩ : BufTy).Contents (Elt F) → (⟨S32x1x640x640, .f32⟩ : BufTy).Contents (Elt F)),
    StableHlo.reshape main_v4 main_v5 rfl shapeCasts_S32x1x640x640_S32x640x640,
    StableHlo.unary main_v3 main_v6 ((extractStridedSlice S32x1x640x640 ![0, 1, 0, 0] · slices_S32x3x640x640_S32x1x640x640_0_1_0_0) : (⟨S32x3x640x640, .f32⟩ : BufTy).Contents (Elt F) → (⟨S32x1x640x640, .f32⟩ : BufTy).Contents (Elt F)),
    StableHlo.reshape main_v6 main_v7 rfl shapeCasts_S32x1x640x640_S32x640x640,
    StableHlo.unary main_v3 main_v8 ((extractStridedSlice S32x1x640x640 ![0, 2, 0, 0] · slices_S32x3x640x640_S32x1x640x640_0_2_0_0) : (⟨S32x3x640x640, .f32⟩ : BufTy).Contents (Elt F) → (⟨S32x1x640x640, .f32⟩ : BufTy).Contents (Elt F)),
    StableHlo.reshape main_v8 main_v9 rfl shapeCasts_S32x1x640x640_S32x640x640,
    StableHlo.nullary main_cst_2 (constant S_ .f32 0x3DE978D5#32),
    StableHlo.unary main_cst_2 main_v10 (broadcastInDim S32x640x640 ![] bcast_S_S32x640x640 : (⟨S_, .f32⟩ : BufTy).Contents (Elt F) → (⟨S32x640x640, .f32⟩ : BufTy).Contents (Elt F)),
    StableHlo.binary main_v10 main_v5 main_v11 (mulf : (⟨S32x640x640, .f32⟩ : BufTy).Contents (Elt F) → (⟨S32x640x640, .f32⟩ : BufTy).Contents (Elt F) → (⟨S32x640x640, .f32⟩ : BufTy).Contents (Elt F)),
    StableHlo.nullary main_cst_3 (constant S_ .f32 0x3F1645A2#32),
    StableHlo.unary main_cst_3 main_v12 (broadcastInDim S32x640x640 ![] bcast_S_S32x640x640 : (⟨S_, .f32⟩ : BufTy).Contents (Elt F) → (⟨S32x640x640, .f32⟩ : BufTy).Contents (Elt F)),
    StableHlo.binary main_v12 main_v7 main_v13 (mulf : (⟨S32x640x640, .f32⟩ : BufTy).Contents (Elt F) → (⟨S32x640x640, .f32⟩ : BufTy).Contents (Elt F) → (⟨S32x640x640, .f32⟩ : BufTy).Contents (Elt F)),
    StableHlo.binary main_v11 main_v13 main_v14 (addf : (⟨S32x640x640, .f32⟩ : BufTy).Contents (Elt F) → (⟨S32x640x640, .f32⟩ : BufTy).Contents (Elt F) → (⟨S32x640x640, .f32⟩ : BufTy).Contents (Elt F)),
    StableHlo.nullary main_cst_4 (constant S_ .f32 0x3E991687#32),
    StableHlo.unary main_cst_4 main_v15 (broadcastInDim S32x640x640 ![] bcast_S_S32x640x640 : (⟨S_, .f32⟩ : BufTy).Contents (Elt F) → (⟨S32x640x640, .f32⟩ : BufTy).Contents (Elt F)),
    StableHlo.binary main_v15 main_v9 main_v16 (mulf : (⟨S32x640x640, .f32⟩ : BufTy).Contents (Elt F) → (⟨S32x640x640, .f32⟩ : BufTy).Contents (Elt F) → (⟨S32x640x640, .f32⟩ : BufTy).Contents (Elt F)),
    StableHlo.binary main_v14 main_v16 main_v17 (addf : (⟨S32x640x640, .f32⟩ : BufTy).Contents (Elt F) → (⟨S32x640x640, .f32⟩ : BufTy).Contents (Elt F) → (⟨S32x640x640, .f32⟩ : BufTy).Contents (Elt F)) ]
/-- Every operation of the piece touches TensorCore references only. -/
theorem opsA2_sub : (opsA2 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩
/-- Every operation of the piece determines its results. -/
theorem opsA2_fresh : ∀ op ∈ (opsA2 : List (HloOp τ sig (Elt F))), op.fresh = ∅ := by
  intro _ h; (repeat (cases h with | head => rfl | tail _ h => ?_)); exact nomatch h

/-- The round to nearest even: the one operation of the rounding function's body. -/
abbrev opsA3 : List (HloOp τ sig (Elt F)) :=
  [ StableHlo.TRef.unary (.of main_v17 : StableHlo.TRef sig ⟨S32x640x640, .f32⟩) (.of main_v18 : StableHlo.TRef sig ⟨S32x640x640, .f32⟩) Host.roundeven ]
/-- Every operation of the piece touches TensorCore references only. -/
theorem opsA3_sub : (opsA3 : List (HloOp τ sig (Elt F))).Forall fun op => op.bufs ⊆ tcRefs τ sig :=
  unary_bufs_sub ..
/-- Every operation of the piece determines its results. -/
theorem opsA3_fresh : ∀ op ∈ (opsA3 : List (HloOp τ sig (Elt F))), op.fresh = ∅ := by
  intro _ h; (repeat (cases h with | head => rfl | tail _ h => ?_)); exact nomatch h

/-- The slice to rows 448 … 639, the brightness threshold, and the pad amount: five operations. -/
abbrev opsA4 : List (HloOp τ sig (Elt F)) :=
  [ StableHlo.unary main_v18 main_v19 ((extractStridedSlice S32x192x640 ![0, 448, 0] · slices_S32x640x640_S32x192x640_0_448_0) : (⟨S32x640x640, .f32⟩ : BufTy).Contents (Elt F) → (⟨S32x192x640, .f32⟩ : BufTy).Contents (Elt F)),
    StableHlo.nullary main_cst_5 (constant S_ .f32 0x434C0000#32),
    StableHlo.unary main_cst_5 main_v20 (broadcastInDim S32x192x640 ![] bcast_S_S32x192x640 : (⟨S_, .f32⟩ : BufTy).Contents (Elt F) → (⟨S32x192x640, .f32⟩ : BufTy).Contents (Elt F)),
    StableHlo.binary main_v19 main_v20 main_v21 (cmpf .ogt : (⟨S32x192x640, .f32⟩ : BufTy).Contents (Elt F) → (⟨S32x192x640, .f32⟩ : BufTy).Contents (Elt F) → (⟨S32x192x640, .i1⟩ : BufTy).Contents (Elt F)),
    StableHlo.nullary main_c (constantI S_ 32 0#32) ]
/-- Every operation of the piece touches TensorCore references only. -/
theorem opsA4_sub : (opsA4 : List (HloOp τ sig (Elt F))).Forall fun op => op.bufs ⊆ tcRefs τ sig :=
  ⟨unary_bufs_sub .., nullary_bufs_sub .., unary_bufs_sub .., binary_bufs_sub .., nullary_bufs_sub ..⟩
/-- Every operation of the piece determines its results. -/
theorem opsA4_fresh : ∀ op ∈ (opsA4 : List (HloOp τ sig (Elt F))), op.fresh = ∅ := by
  intro _ h; (repeat (cases h with | head => rfl | tail _ h => ?_)); exact nomatch h

/-- The reflect pad by one on the two trailing axes: the sixteen operations of the pad function's body, its four flips inlined, over the buffers of its one call. -/
abbrev opsA5 : List (HloOp τ sig (Elt F)) :=
  [ StableHlo.TRef.unary (.of main_v19 : StableHlo.TRef sig ⟨S32x192x640, .f32⟩) (.of main_call2_v0 : StableHlo.TRef sig ⟨S32x1x640, .f32⟩) (extractStridedSlice S32x1x640 ![0, 0, 0] · slices_S32x192x640_S32x1x640_0_0_0),
    StableHlo.TRef.unary (.of main_v19 : StableHlo.TRef sig ⟨S32x192x640, .f32⟩) (.of main_call2_v1 : StableHlo.TRef sig ⟨S32x1x640, .f32⟩) (extractStridedSlice S32x1x640 ![0, 1, 0] · slices_S32x192x640_S32x1x640_0_1_0),
    StableHlo.TRef.unary (.of main_call2_v1 : StableHlo.TRef sig ⟨S32x1x640, .f32⟩) (.of main_call2_v2 : StableHlo.TRef sig ⟨S32x1x640, .f32⟩) (Host.reverse [1]),
    StableHlo.TRef.binary main_call2_call0.v0 (.of main_v19 : StableHlo.TRef sig ⟨S32x192x640, .f32⟩) (.of main_call2_v3 : StableHlo.TRef sig ⟨S32x193x640, .f32⟩) (fun a b => concatenate S32x193x640 1 [⟨S32x1x640, a⟩, ⟨S32x192x640, b⟩] concatenates_S32x1x640_S32x192x640_S32x193x640_d1),
    StableHlo.TRef.unary (.of main_call2_v3 : StableHlo.TRef sig ⟨S32x193x640, .f32⟩) (.of main_call2_v4 : StableHlo.TRef sig ⟨S32x1x640, .f32⟩) (extractStridedSlice S32x1x640 ![0, 192, 0] · slices_S32x193x640_S32x1x640_0_192_0),
    StableHlo.TRef.unary (.of main_call2_v3 : StableHlo.TRef sig ⟨S32x193x640, .f32⟩) (.of main_call2_v5 : StableHlo.TRef sig ⟨S32x1x640, .f32⟩) (extractStridedSlice S32x1x640 ![0, 191, 0] · slices_S32x193x640_S32x1x640_0_191_0),
    StableHlo.TRef.unary (.of main_call2_v5 : StableHlo.TRef sig ⟨S32x1x640, .f32⟩) (.of main_call2_v6 : StableHlo.TRef sig ⟨S32x1x640, .f32⟩) (Host.reverse [1]),
    StableHlo.TRef.binary (.of main_call2_v3 : StableHlo.TRef sig ⟨S32x193x640, .f32⟩) main_call2_call1.v0 (.of main_call2_v7 : StableHlo.TRef sig ⟨S32x194x640, .f32⟩) (fun a b => concatenate S32x194x640 1 [⟨S32x193x640, a⟩, ⟨S32x1x640, b⟩] concatenates_S32x193x640_S32x1x640_S32x194x640_d1),
    StableHlo.TRef.unary (.of main_call2_v7 : StableHlo.TRef sig ⟨S32x194x640, .f32⟩) (.of main_call2_v8 : StableHlo.TRef sig ⟨S32x194x1, .f32⟩) (extractStridedSlice S32x194x1 ![0, 0, 0] · slices_S32x194x640_S32x194x1_0_0_0),
    StableHlo.TRef.unary (.of main_call2_v7 : StableHlo.TRef sig ⟨S32x194x640, .f32⟩) (.of main_call2_v9 : StableHlo.TRef sig ⟨S32x194x1, .f32⟩) (extractStridedSlice S32x194x1 ![0, 0, 1] · slices_S32x194x640_S32x194x1_0_0_1),
    StableHlo.TRef.unary (.of main_call2_v9 : StableHlo.TRef sig ⟨S32x194x1, .f32⟩) (.of main_call2_v10 : StableHlo.TRef sig ⟨S32x194x1, .f32⟩) (Host.reverse [2]),
    StableHlo.TRef.binary main_call2_call2.v0 (.of main_call2_v7 : StableHlo.TRef sig ⟨S32x194x640, .f32⟩) (.of main_call2_v11 : StableHlo.TRef sig ⟨S32x194x641, .f32⟩) (fun a b => concatenate S32x194x641 2 [⟨S32x194x1, a⟩, ⟨S32x194x640, b⟩] concatenates_S32x194x1_S32x194x640_S32x194x641_d2),
    StableHlo.TRef.unary (.of main_call2_v11 : StableHlo.TRef sig ⟨S32x194x641, .f32⟩) (.of main_call2_v12 : StableHlo.TRef sig ⟨S32x194x1, .f32⟩) (extractStridedSlice S32x194x1 ![0, 0, 640] · slices_S32x194x641_S32x194x1_0_0_640),
    StableHlo.TRef.unary (.of main_call2_v11 : StableHlo.TRef sig ⟨S32x194x641, .f32⟩) (.of main_call2_v13 : StableHlo.TRef sig ⟨S32x194x1, .f32⟩) (extractStridedSlice S32x194x1 ![0, 0, 639] · slices_S32x194x641_S32x194x1_0_0_639),
    StableHlo.TRef.unary (.of main_call2_v13 : StableHlo.TRef sig ⟨S32x194x1, .f32⟩) (.of main_call2_v14 : StableHlo.TRef sig ⟨S32x194x1, .f32⟩) (Host.reverse [2]),
    StableHlo.TRef.binary (.of main_call2_v11 : StableHlo.TRef sig ⟨S32x194x641, .f32⟩) main_call2_call3.v0 (.of main_v22 : StableHlo.TRef sig ⟨S32x194x642, .f32⟩) (fun a b => concatenate S32x194x642 2 [⟨S32x194x641, a⟩, ⟨S32x194x1, b⟩] concatenates_S32x194x641_S32x194x1_S32x194x642_d2) ]
/-- Every operation of the piece touches TensorCore references only. -/
theorem opsA5_sub : (opsA5 : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩
/-- Every operation of the piece determines its results. -/
theorem opsA5_fresh : ∀ op ∈ (opsA5 : List (HloOp τ sig (Elt F))), op.fresh = ∅ := by
  intro _ h; (repeat (cases h with | head => rfl | tail _ h => ?_)); exact nomatch h

/-- The four-neighbour Laplacian, its threshold, the conjunction, the conversion and the four 3x3 window reductions: twenty-nine operations. -/
abbrev opsA6 : List (HloOp τ sig (Elt F)) :=
  [ StableHlo.unary main_v22 main_v23 ((extractStridedSlice S32x192x640 ![0, 0, 1] · slices_S32x194x642_S32x192x640_0_0_1) : (⟨S32x194x642, .f32⟩ : BufTy).Contents (Elt F) → (⟨S32x192x640, .f32⟩ : BufTy).Contents (Elt F)),
    StableHlo.unary main_v22 main_v24 ((extractStridedSlice S32x192x640 ![0, 2, 1] · slices_S32x194x642_S32x192x640_0_2_1) : (⟨S32x194x642, .f32⟩ : BufTy).Contents (Elt F) → (⟨S32x192x640, .f32⟩ : BufTy).Contents (Elt F)),
    StableHlo.binary main_v23 main_v24 main_v25 (addf : (⟨S32x192x640, .f32⟩ : BufTy).Contents (Elt F) → (⟨S32x192x640, .f32⟩ : BufTy).Contents (Elt F) → (⟨S32x192x640, .f32⟩ : BufTy).Contents (Elt F)),
    StableHlo.unary main_v22 main_v26 ((extractStridedSlice S32x192x640 ![0, 1, 0] · slices_S32x194x642_S32x192x640_0_1_0) : (⟨S32x194x642, .f32⟩ : BufTy).Contents (Elt F) → (⟨S32x192x640, .f32⟩ : BufTy).Contents (Elt F)),
    StableHlo.binary main_v25 main_v26 main_v27 (addf : (⟨S32x192x640, .f32⟩ : BufTy).Contents (Elt F) → (⟨S32x192x640, .f32⟩ : BufTy).Contents (Elt F) → (⟨S32x192x640, .f32⟩ : BufTy).Contents (Elt F)),
    StableHlo.unary main_v22 main_v28 ((extractStridedSlice S32x192x640 ![0, 1, 2] · slices_S32x194x642_S32x192x640_0_1_2) : (⟨S32x194x642, .f32⟩ : BufTy).Contents (Elt F) → (⟨S32x192x640, .f32⟩ : BufTy).Contents (Elt F)),
    StableHlo.binary main_v27 main_v28 main_v29 (addf : (⟨S32x192x640, .f32⟩ : BufTy).Contents (Elt F) → (⟨S32x192x640, .f32⟩ : BufTy).Contents (Elt F) → (⟨S32x192x640, .f32⟩ : BufTy).Contents (Elt F)),
    StableHlo.nullary main_cst_6 (constant S_ .f32 0x40800000#32),
    StableHlo.unary main_cst_6 main_v30 (broadcastInDim S32x192x640 ![] bcast_S_S32x192x640 : (⟨S_, .f32⟩ : BufTy).Contents (Elt F) → (⟨S32x192x640, .f32⟩ : BufTy).Contents (Elt F)),
    StableHlo.binary main_v30 main_v19 main_v31 (mulf : (⟨S32x192x640, .f32⟩ : BufTy).Contents (Elt F) → (⟨S32x192x640, .f32⟩ : BufTy).Contents (Elt F) → (⟨S32x192x640, .f32⟩ : BufTy).Contents (Elt F)),
    StableHlo.binary main_v29 main_v31 main_v32 (subf : (⟨S32x192x640, .f32⟩ : BufTy).Contents (Elt F) → (⟨S32x192x640, .f32⟩ : BufTy).Contents (Elt F) → (⟨S32x192x640, .f32⟩ : BufTy).Contents (Elt F)),
    StableHlo.unary main_v32 main_v33 (Host.absf : (⟨S32x192x640, .f32⟩ : BufTy).Contents (Elt F) → (⟨S32x192x640, .f32⟩ : BufTy).Contents (Elt F)),
    StableHlo.nullary main_cst_7 (constant S_ .f32 0x42990000#32),
    StableHlo.unary main_cst_7 main_v34 (broadcastInDim S32x192x640 ![] bcast_S_S32x192x640 : (⟨S_, .f32⟩ : BufTy).Contents (Elt F) → (⟨S32x192x640, .f32⟩ : BufTy).Contents (Elt F)),
    StableHlo.binary main_v33 main_v34 main_v35 (cmpf .ogt : (⟨S32x192x640, .f32⟩ : BufTy).Contents (Elt F) → (⟨S32x192x640, .f32⟩ : BufTy).Contents (Elt F) → (⟨S32x192x640, .i1⟩ : BufTy).Contents (Elt F)),
    StableHlo.binary main_v21 main_v35 main_v36 (andi : (⟨S32x192x640, .i1⟩ : BufTy).Contents (Elt F) → (⟨S32x192x640, .i1⟩ : BufTy).Contents (Elt F) → (⟨S32x192x640, .i1⟩ : BufTy).Contents (Elt F)),
    StableHlo.unary main_v36 main_v37 (uitofp .f32 : (⟨S32x192x640, .i1⟩ : BufTy).Contents (Elt F) → (⟨S32x192x640, .f32⟩ : BufTy).Contents (Elt F)),
    StableHlo.nullary main_cst_8 (constant S_ .f32 0xFF800000#32),
    StableHlo.unary main_cst_8 main_v38 (broadcastInDim S_ ![] bcast_S_S_ : (⟨S_, .f32⟩ : BufTy).Contents (Elt F) → (⟨S_, .f32⟩ : BufTy).Contents (Elt F)),
    StableHlo.binary main_v37 main_v38 main_v39 ((fun x v => Host.reduceWindow FloatOps.maximumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_9 (constant S_ .f32 0x7F800000#32),
    StableHlo.unary main_cst_9 main_v40 (broadcastInDim S_ ![] bcast_S_S_ : (⟨S_, .f32⟩ : BufTy).Contents (Elt F) → (⟨S_, .f32⟩ : BufTy).Contents (Elt F)),
    StableHlo.binary main_v39 main_v40 main_v41 ((fun x v => Host.reduceWindow FloatOps.minimumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_10 (constant S_ .f32 0x7F800000#32),
    StableHlo.unary main_cst_10 main_v42 (broadcastInDim S_ ![] bcast_S_S_ : (⟨S_, .f32⟩ : BufTy).Contents (Elt F) → (⟨S_, .f32⟩ : BufTy).Contents (Elt F)),
    StableHlo.binary main_v41 main_v42 main_v43 ((fun x v => Host.reduceWindow FloatOps.minimumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)),
    StableHlo.nullary main_cst_11 (constant S_ .f32 0xFF800000#32),
    StableHlo.unary main_cst_11 main_v44 (broadcastInDim S_ ![] bcast_S_S_ : (⟨S_, .f32⟩ : BufTy).Contents (Elt F) → (⟨S_, .f32⟩ : BufTy).Contents (Elt F)),
    StableHlo.binary main_v43 main_v44 main_v45 ((fun x v => Host.reduceWindow FloatOps.maximumf ![1, 3, 3] ![1, 1, 1] ![0, 1, 1] ![0, 1, 1] x v reduceWindows_S32x192x640_S32x192x640_w1s1p0_0_w3s1p1_1_w3s1p1_1 h_S_) : (⟨S32x192x640, .f32⟩ : BufTy).Contents (Elt F) → (⟨S_, .f32⟩ : BufTy).Contents (Elt F) → (⟨S32x192x640, .f32⟩ : BufTy).Contents (Elt F)) ]
/-- Every operation of the piece touches TensorCore references only. -/
theorem opsA6_sub : (opsA6 : List (HloOp τ sig (Elt F))).Forall fun op => op.bufs ⊆ tcRefs τ sig :=
  ⟨unary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
/-- Every operation of the piece determines its results. -/
theorem opsA6_fresh : ∀ op ∈ (opsA6 : List (HloOp τ sig (Elt F))), op.fresh = ∅ := by
  intro _ h; (repeat (cases h with | head => rfl | tail _ h => ?_)); exact nomatch h

/-- The scatter of the strip mask into a zero image, the loss terms, the four sums, and the two quotients: thirty-seven operations. -/
abbrev opsB0 : List (HloOp τ sig (Elt F)) :=
  [ StableHlo.nullary main_cst_12 (constant S_ .f32 0x00000000#32),
    StableHlo.unary main_cst_12 main_v46 (broadcastInDim S32x640x640 ![] bcast_S_S32x640x640 : (⟨S_, .f32⟩ : BufTy).Contents (Elt F) → (⟨S32x640x640, .f32⟩ : BufTy).Contents (Elt F)),
    StableHlo.nullary main_c_13 (constantI S_ 32 448#32),
    StableHlo.unary main_c_13 main_v47 (broadcastInDim S1 ![] bcast_S_S1 : (⟨S_, .i32⟩ : BufTy).Contents (Elt F) → (⟨S1, .i32⟩ : BufTy).Contents (Elt F)),
    StableHlo.ternary main_v46 main_v47 main_v45 main_v48 ((fun x i u => Host.scatter scatter_S32x640x640_S1_S32x192x640_012_n_1_0 (fun _ b => b) x i u) : (⟨S32x640x640, .f32⟩ : BufTy).Contents (Elt F) → (⟨S1, .i32⟩ : BufTy).Contents (Elt F) → (⟨S32x192x640, .f32⟩ : BufTy).Contents (Elt F) → (⟨S32x640x640, .f32⟩ : BufTy).Contents (Elt F)),
    StableHlo.unary main_v48 main_v49 (broadcastInDim S32x1x640x640 ![0, 2, 3] bcast_S32x640x640_S32x1x640x640_0_2_3 : (⟨S32x640x640, .f32⟩ : BufTy).Contents (Elt F) → (⟨S32x1x640x640, .f32⟩ : BufTy).Contents (Elt F)),
    StableHlo.nullary main_cst_14 (constant S_ .f32 0x00000000#32),
    StableHlo.unary main_cst_14 main_v50 (broadcastInDim S32x1x640x640 ![] bcast_S_S32x1x640x640 : (⟨S_, .f32⟩ : BufTy).Contents (Elt F) → (⟨S32x1x640x640, .f32⟩ : BufTy).Contents (Elt F)),
    StableHlo.binary main_arg0 main_v50 main_v51 (maximumf : (⟨S32x1x640x640, .f32⟩ : BufTy).Contents (Elt F) → (⟨S32x1x640x640, .f32⟩ : BufTy).Contents (Elt F) → (⟨S32x1x640x640, .f32⟩ : BufTy).Contents (Elt F)),
    StableHlo.binary main_arg0 main_arg1 main_v52 (mulf : (⟨S32x1x640x640, .f32⟩ : BufTy).Contents (Elt F) → (⟨S32x1x640x640, .f32⟩ : BufTy).Contents (Elt F) → (⟨S32x1x640x640, .f32⟩ : BufTy).Contents (Elt F)),
    StableHlo.binary main_v51 main_v52 main_v53 (subf : (⟨S32x1x640x640, .f32⟩ : BufTy).Contents (Elt F) → (⟨S32x1x640x640, .f32⟩ : BufTy).Contents (Elt F) → (⟨S32x1x640x640, .f32⟩ : BufTy).Contents (Elt F)),
    StableHlo.unary main_arg0 main_v54 (Host.absf : (⟨S32x1x640x640, .f32⟩ : BufTy).Contents (Elt F) → (⟨S32x1x640x640, .f32⟩ : BufTy).Contents (Elt F)),
    StableHlo.unary main_v54 main_v55 (Host.negf : (⟨S32x1x640x640, .f32⟩ : BufTy).Contents (Elt F) → (⟨S32x1x640x640, .f32⟩ : BufTy).Contents (Elt F)),
    StableHlo.unary main_v55 main_v56 (Host.exp : (⟨S32x1x640x640, .f32⟩ : BufTy).Contents (Elt F) → (⟨S32x1x640x640, .f32⟩ : BufTy).Contents (Elt F)),
    StableHlo.unary main_v56 main_v57 (Host.log1p : (⟨S32x1x640x640, .f32⟩ : BufTy).Contents (Elt F) → (⟨S32x1x640x640, .f32⟩ : BufTy).Contents (Elt F)),
    StableHlo.binary main_v53 main_v57 main_v58 (addf : (⟨S32x1x640x640, .f32⟩ : BufTy).Contents (Elt F) → (⟨S32x1x640x640, .f32⟩ : BufTy).Contents (Elt F) → (⟨S32x1x640x640, .f32⟩ : BufTy).Contents (Elt F)),
    StableHlo.binary main_v58 main_arg2 main_v59 (mulf : (⟨S32x1x640x640, .f32⟩ : BufTy).Contents (Elt F) → (⟨S32x1x640x640, .f32⟩ : BufTy).Contents (Elt F) → (⟨S32x1x640x640, .f32⟩ : BufTy).Contents (Elt F)),
    StableHlo.nullary main_cst_15 (constant S_ .f32 0x00000000#32),
    StableHlo.binary main_v59 main_cst_15 main_v60 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_arg2 main_cst_16 main_v61 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.nullary main_cst_17 (constant S_ .f32 0x358637BD#32),
    StableHlo.binary main_v61 main_cst_17 main_v62 (maximumf : (⟨S_, .f32⟩ : BufTy).Contents (Elt F) → (⟨S_, .f32⟩ : BufTy).Contents (Elt F) → (⟨S_, .f32⟩ : BufTy).Contents (Elt F)),
    StableHlo.binary main_v60 main_v62 main_v63 (Host.divf : (⟨S_, .f32⟩ : BufTy).Contents (Elt F) → (⟨S_, .f32⟩ : BufTy).Contents (Elt F) → (⟨S_, .f32⟩ : BufTy).Contents (Elt F)),
    StableHlo.binary main_arg2 main_v49 main_v64 (mulf : (⟨S32x1x640x640, .f32⟩ : BufTy).Contents (Elt F) → (⟨S32x1x640x640, .f32⟩ : BufTy).Contents (Elt F) → (⟨S32x1x640x640, .f32⟩ : BufTy).Contents (Elt F)),
    StableHlo.nullary main_cst_18 (constant S_ .f32 0x00000000#32),
    StableHlo.binary main_v64 main_cst_18 main_v65 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.binary main_v58 main_v64 main_v66 (mulf : (⟨S32x1x640x640, .f32⟩ : BufTy).Contents (Elt F) → (⟨S32x1x640x640, .f32⟩ : BufTy).Contents (Elt F) → (⟨S32x1x640x640, .f32⟩ : BufTy).Contents (Elt F)),
    StableHlo.nullary main_cst_19 (constant S_ .f32 0x00000000#32),
    StableHlo.binary main_v66 main_cst_19 main_v67 ((fun x v => Host.reduceAdd x v reducesTo_S32x1x640x640_S_d0_1_2_3 h_S_) : (⟨S32x1x640x640, .f32⟩ : BufTy).Contents (Elt F) → (⟨S_, .f32⟩ : BufTy).Contents (Elt F) → (⟨S_, .f32⟩ : BufTy).Contents (Elt F)),
    StableHlo.nullary main_cst_20 (constant S_ .f32 0x358637BD#32),
    StableHlo.binary main_v65 main_cst_20 main_v68 (maximumf : (⟨S_, .f32⟩ : BufTy).Contents (Elt F) → (⟨S_, .f32⟩ : BufTy).Contents (Elt F) → (⟨S_, .f32⟩ : BufTy).Contents (Elt F)),
    StableHlo.binary main_v67 main_v68 main_v69 (Host.divf : (⟨S_, .f32⟩ : BufTy).Contents (Elt F) → (⟨S_, .f32⟩ : BufTy).Contents (Elt F) → (⟨S_, .f32⟩ : BufTy).Contents (Elt F)),
    StableHlo.nullary main_cst_21 (constant S_ .f32 0x00000000#32),
    StableHlo.binary main_v65 main_cst_21 main_v70 (cmpf .ogt : (⟨S_, .f32⟩ : BufTy).Contents (Elt F) → (⟨S_, .f32⟩ : BufTy).Contents (Elt F) → (⟨S_, .i1⟩ : BufTy).Contents (Elt F)),
    StableHlo.nullary main_cst_22 (constant S_ .f32 0x3F800000#32),
    StableHlo.binary main_cst_22 main_v69 main_v71 (mulf : (⟨S_, .f32⟩ : BufTy).Contents (Elt F) → (⟨S_, .f32⟩ : BufTy).Contents (Elt F) → (⟨S_, .f32⟩ : BufTy).Contents (Elt F)) ]
/-- Every operation of the piece touches TensorCore references only. -/
theorem opsB0_sub : (opsB0 : List (HloOp τ sig (Elt F))).Forall fun op => op.bufs ⊆ tcRefs τ sig :=
  ⟨nullary_bufs_sub .., unary_bufs_sub .., nullary_bufs_sub .., unary_bufs_sub .., ternary_bufs_sub .., unary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub ..⟩
/-- Every operation of the piece determines its results. -/
theorem opsB0_fresh : ∀ op ∈ (opsB0 : List (HloOp τ sig (Elt F))), op.fresh = ∅ := by
  intro _ h; (repeat (cases h with | head => rfl | tail _ h => ?_)); exact nomatch h

/-- The final select: the one operation of the select function's body. -/
abbrev opsB1 : List (HloOp τ sig (Elt F)) :=
  [ StableHlo.TRef.ternary (.of main_v70 : StableHlo.TRef sig ⟨S_, .i1⟩) (.of main_v71 : StableHlo.TRef sig ⟨S_, .f32⟩) (.of main_v63 : StableHlo.TRef sig ⟨S_, .f32⟩) (.of main_v72 : StableHlo.TRef sig ⟨S_, .f32⟩) select ]
/-- Every operation of the piece touches TensorCore references only. -/
theorem opsB1_sub : (opsB1 : List (HloOp τ sig (Elt F))).Forall fun op => op.bufs ⊆ tcRefs τ sig :=
  ternary_bufs_sub ..
/-- Every operation of the piece determines its results. -/
theorem opsB1_fresh : ∀ op ∈ (opsB1 : List (HloOp τ sig (Elt F))), op.fresh = ∅ := by
  intro _ h; (repeat (cases h with | head => rfl | tail _ h => ?_)); exact nomatch h

/-! ## The whole line -/

/-- @main's 118 operations in order: the nine pieces concatenated. -/
abbrev ops : List (HloOp τ sig (Elt F)) :=
  opsA0 ++ (opsA1 ++ (opsA2 ++ (opsA3 ++ (opsA4 ++ (opsA5 ++ (opsA6 ++ (opsB0 ++ (opsB1))))))))

/-- The first window of @main is its first seven pieces run in order, the last in tail position. -/
theorem main_part0_chain (c : Dev nD) : main_part0 (F := F) c = (Pipeline.chainK
  [ seq opsA0, seq opsA1, seq opsA2, seq opsA3, seq opsA4, seq opsA5 ]
  (seq opsA6) : Prog (TpuEff nD τ sig (Elt F) (Pipeline.Sig Λ₀ (Fin 0) fun p => (pcfgs (F := F) p).Adm) .tc) PUnit) := by
  chain_rfl

/-- The second window of @main is its last two pieces run in order. -/
theorem main_part1_chain (c : Dev nD) : main_part1 (F := F) c = (Pipeline.chain
  [ seq opsB0, seq opsB1 ] : Prog (TpuEff nD τ sig (Elt F) (Pipeline.Sig Λ₀ (Fin 0) fun p => (pcfgs (F := F) p).Adm) .tc) PUnit) := by
  chain_rfl

/-- @main is that straight line: its two windows are the pieces in order, and pieces run one after the other are
    their concatenation run as one. -/
theorem main_eq (c : Dev nD) : main (F := F) c = seq ops := by
  show (main_part0 (F := F) c >>= fun _ => main_part1 (F := F) c) = _
  rw [main_part1_chain, main_part0_chain, Pipeline.chainK_bind_chain]
  show (Pipeline.chain [ seq opsA0, seq opsA1, seq opsA2, seq opsA3, seq opsA4, seq opsA5, seq opsA6, seq opsB0, seq opsB1 ]
      : Prog (TpuEff nD τ sig (Elt F) (Pipeline.Sig Λ₀ (Fin 0) fun p => (pcfgs (F := F) p).Adm) .tc) PUnit)
    = seq (opsA0 ++ (opsA1 ++ (opsA2 ++ (opsA3 ++ (opsA4 ++ (opsA5 ++ (opsA6 ++ (opsB0 ++ (opsB1)))))))))
  simp only [seq_append, Pipeline.chain_cons, Pipeline.chain_nil, bind_pure_unit]

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem mem_append_fresh {l₁ l₂ : List (HloOp τ sig (Elt F))} (h₁ : ∀ op ∈ l₁, op.fresh = ∅) (h₂ : ∀ op ∈ l₂, op.fresh = ∅) :
    ∀ op ∈ l₁ ++ l₂, op.fresh = ∅ :=
  fun x hx => (List.mem_append.1 hx).elim (h₁ x) (h₂ x)

theorem ops_sub : (ops : List (HloOp τ sig (Elt F))).Forall fun op => op.bufs ⊆ tcRefs τ sig :=
  forall_append opsA0_sub (forall_append opsA1_sub (forall_append opsA2_sub (forall_append opsA3_sub (forall_append opsA4_sub (forall_append opsA5_sub (forall_append opsA6_sub (forall_append opsB0_sub (opsB1_sub))))))))

theorem ops_fresh : ∀ op ∈ (ops : List (HloOp τ sig (Elt F))), op.fresh = ∅ :=
  mem_append_fresh opsA0_fresh (mem_append_fresh opsA1_fresh (mem_append_fresh opsA2_fresh (mem_append_fresh opsA3_fresh (mem_append_fresh opsA4_fresh (mem_append_fresh opsA5_fresh (mem_append_fresh opsA6_fresh (mem_append_fresh opsB0_fresh (opsB1_fresh))))))))

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefOutDefs.lean ====
/-
  The reference program's result as one term of the three loss arguments and of the subtitle strip mask: the
  per-element loss, the strip mask written into a zero image at row 448, the four masked sums, and the final
  choice between the two quotients. Each definition is the composition of the program's own operations, with the
  shape relations they take read from the program's stated facts.
-/
import proofs.«148992_j53300544143793_2_alg».proof.ReferenceIdeal
import Idealize.ShloMosaic.PureOps.Ideal

noncomputable section

namespace Cert.ReferenceIdeal.RefRun

open Cert.ReferenceIdeal Idealize.ShloMosaic

variable [Facts₀]
open Facts₀

/-- The per-element loss: max(p, 0) − p·g + log1p(exp(−|p|)). -/
def refBce (p g : FVec Ideal S32x1x640x640 .f32) : FVec Ideal S32x1x640x640 .f32 :=
  addf
    (subf (maximumf p (broadcastInDim S32x1x640x640 ![] bcast_S_S32x1x640x640 (constant (F := Ideal) S_ .f32 0x00000000#32))) (mulf p g))
    (Host.log1p (Host.exp (Host.negf (Host.absf p))))

/-- The strip mask written at row 448 of an all-zero [32, 640, 640] image, with the unit channel axis put back. -/
def refFull (sub : FVec Ideal S32x192x640 .f32) : FVec Ideal S32x1x640x640 .f32 :=
  broadcastInDim S32x1x640x640 ![0, 2, 3] bcast_S32x640x640_S32x1x640x640_0_2_3
    (Host.scatter scatter_S32x640x640_S1_S32x192x640_012_n_1_0 (fun _ b => b)
      (broadcastInDim S32x640x640 ![] bcast_S_S32x640x640 (constant (F := Ideal) S_ .f32 0x00000000#32))
      (broadcastInDim S1 ![] bcast_S_S1 (constantI S_ 32 448#32))
      sub)

/-- The mask restricted to the subtitle region: mask · full-size strip mask. -/
def refW (mk : FVec Ideal S32x1x640x640 .f32) (sub : FVec Ideal S32x192x640 .f32) : FVec Ideal S32x1x640x640 .f32 :=
  mulf mk (refFull sub)

/-- Σ loss · mask. -/
def refSumBM (p g mk : FVec Ideal S32x1x640x640 .f32) : FVec Ideal S_ .f32 :=
  Host.reduceAdd (F := Ideal) (mulf (refBce p g) mk) (constant (F := Ideal) S_ .f32 0x00000000#32) reducesTo_S32x1x640x640_S_d0_1_2_3 h_S_

/-- Σ mask. -/
def refSumM (mk : FVec Ideal S32x1x640x640 .f32) : FVec Ideal S_ .f32 :=
  Host.reduceAdd (F := Ideal) mk (constant (F := Ideal) S_ .f32 0x00000000#32) reducesTo_S32x1x640x640_S_d0_1_2_3 h_S_

/-- Σ mask · strip mask. -/
def refSumC (mk : FVec Ideal S32x1x640x640 .f32) (sub : FVec Ideal S32x192x640 .f32) : FVec Ideal S_ .f32 :=
  Host.reduceAdd (F := Ideal) (refW mk sub) (constant (F := Ideal) S_ .f32 0x00000000#32) reducesTo_S32x1x640x640_S_d0_1_2_3 h_S_

/-- Σ loss · mask · strip mask. -/
def refSumBC (p g mk : FVec Ideal S32x1x640x640 .f32) (sub : FVec Ideal S32x192x640 .f32) : FVec Ideal S_ .f32 :=
  Host.reduceAdd (F := Ideal) (mulf (refBce p g) (refW mk sub)) (constant (F := Ideal) S_ .f32 0x00000000#32) reducesTo_S32x1x640x640_S_d0_1_2_3 h_S_

/-- The reference's result: where the subtitle region has positive mask weight, 1 · (Σ loss·mask·strip / max(Σ mask·strip, 1e-6)),
    elsewhere Σ loss·mask / max(Σ mask, 1e-6). -/
def refOut (p g mk : FVec Ideal S32x1x640x640 .f32) (sub : FVec Ideal S32x192x640 .f32) : FVec Ideal S_ .f32 :=
  select (cmpf .ogt (refSumC mk sub) (constant (F := Ideal) S_ .f32 0x00000000#32))
    (mulf (constant (F := Ideal) S_ .f32 0x3F800000#32)
      (Host.divf (refSumBC p g mk sub) (maximumf (refSumC mk sub) (constant (F := Ideal) S_ .f32 0x358637BD#32))))
    (Host.divf (refSumBM p g mk) (maximumf (refSumM mk) (constant (F := Ideal) S_ .f32 0x358637BD#32)))

end Cert.ReferenceIdeal.RefRun

end
-- ==== Proof.RefRead.lean ====
/-
  The reference program's result read back: what its result buffer holds after @main's straight line of host
  operations, as one term `refOut` of the three loss arguments and of the detector's strip mask of the image, and the
  run stated with that term.

  The line is read in two stretches. The first (the detector) ends at the strip-mask buffer, which then holds the
  detector's function of the image; the second (the loss) computes the result from the three arguments and that buffer.
  Neither stretch writes an argument.
-/
import proofs.«148992_j53300544143793_2_alg».proof.Proof.RefRun
import proofs.«148992_j53300544143793_2_alg».proof.Proof.RefOutDefs
import proofs.«148992_j53300544143793_2_alg».proof.Proof.DetectorDefs
import Idealize.ShloMosaic.PureOps.Ideal

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

/-! ## The line in two stretches -/

section
variable {F : FTy → Type} [FloatOps F]

/-- The detector's stretch: the first seven pieces, ending at the strip mask. -/
abbrev opsA : List (HloOp τ sig (Elt F)) :=
  opsA0 ++ (opsA1 ++ (opsA2 ++ (opsA3 ++ (opsA4 ++ (opsA5 ++ (opsA6))))))

/-- The loss's stretch: the last two pieces, from the strip mask to the result. -/
abbrev opsB : List (HloOp τ sig (Elt F)) :=
  opsB0 ++ opsB1

/-- The contents after the whole line are the contents after the loss's stretch run from the contents after the
    detector's. -/
theorem after_ops (V : Valuation τ sig (Elt F)) :
    after (ops (F := F)) V = after (opsB (F := F)) (after (opsA (F := F)) V) := by
  simp only [Cert.AfterAppend.after_append]

set_option maxRecDepth 8192 in
/-- No operation of the detector's stretch writes the first argument. -/
theorem opsA_arg0 (V : Valuation τ sig (Elt F)) : after (opsA (F := F)) V (main_arg0 : DevRef τ sig) = V (main_arg0 : DevRef τ sig) := by
  simp only [Cert.AfterAppend.after_append]
  after_results_simp

set_option maxRecDepth 8192 in
/-- No operation of the detector's stretch writes the second argument. -/
theorem opsA_arg1 (V : Valuation τ sig (Elt F)) : after (opsA (F := F)) V (main_arg1 : DevRef τ sig) = V (main_arg1 : DevRef τ sig) := by
  simp only [Cert.AfterAppend.after_append]
  after_results_simp

set_option maxRecDepth 8192 in
/-- No operation of the detector's stretch writes the third argument. -/
theorem opsA_arg2 (V : Valuation τ sig (Elt F)) : after (opsA (F := F)) V (main_arg2 : DevRef τ sig) = V (main_arg2 : DevRef τ sig) := by
  simp only [Cert.AfterAppend.after_append]
  after_results_simp

set_option maxRecDepth 8192 in
/-- No operation of the detector's stretch writes the image. -/
theorem opsA_arg3 (V : Valuation τ sig (Elt F)) : after (opsA (F := F)) V (main_arg3 : DevRef τ sig) = V (main_arg3 : DevRef τ sig) := by
  simp only [Cert.AfterAppend.after_append]
  after_results_simp

set_option maxRecDepth 8192 in
/-- No operation of the loss's stretch writes the first argument. -/
theorem opsB_arg0 (W : Valuation τ sig (Elt F)) : after (opsB (F := F)) W (main_arg0 : DevRef τ sig) = W (main_arg0 : DevRef τ sig) := by
  simp only [Cert.AfterAppend.after_append]
  after_results_simp

set_option maxRecDepth 8192 in
/-- No operation of the loss's stretch writes the second argument. -/
theorem opsB_arg1 (W : Valuation τ sig (Elt F)) : after (opsB (F := F)) W (main_arg1 : DevRef τ sig) = W (main_arg1 : DevRef τ sig) := by
  simp only [Cert.AfterAppend.after_append]
  after_results_simp

set_option maxRecDepth 8192 in
/-- No operation of the loss's stretch writes the third argument. -/
theorem opsB_arg2 (W : Valuation τ sig (Elt F)) : after (opsB (F := F)) W (main_arg2 : DevRef τ sig) = W (main_arg2 : DevRef τ sig) := by
  simp only [Cert.AfterAppend.after_append]
  after_results_simp

set_option maxRecDepth 8192 in
/-- No operation of the loss's stretch writes the image. -/
theorem opsB_arg3 (W : Valuation τ sig (Elt F)) : after (opsB (F := F)) W (main_arg3 : DevRef τ sig) = W (main_arg3 : DevRef τ sig) := by
  simp only [Cert.AfterAppend.after_append]
  after_results_simp

/-- The whole line leaves the first argument as it was. -/
theorem arg0_eq (V : Valuation τ sig (Elt F)) : after (ops (F := F)) V (main_arg0 : DevRef τ sig) = V (main_arg0 : DevRef τ sig) := by
  rw [after_ops, opsB_arg0, opsA_arg0]
/-- The whole line leaves the second argument as it was. -/
theorem arg1_eq (V : Valuation τ sig (Elt F)) : after (ops (F := F)) V (main_arg1 : DevRef τ sig) = V (main_arg1 : DevRef τ sig) := by
  rw [after_ops, opsB_arg1, opsA_arg1]
/-- The whole line leaves the third argument as it was. -/
theorem arg2_eq (V : Valuation τ sig (Elt F)) : after (ops (F := F)) V (main_arg2 : DevRef τ sig) = V (main_arg2 : DevRef τ sig) := by
  rw [after_ops, opsB_arg2, opsA_arg2]
/-- The whole line leaves the image as it was. -/
theorem arg3_eq (V : Valuation τ sig (Elt F)) : after (ops (F := F)) V (main_arg3 : DevRef τ sig) = V (main_arg3 : DevRef τ sig) := by
  rw [after_ops, opsB_arg3, opsA_arg3]

end

/-! ## The result read back -/

-- The window reductions, the flips and the concatenations are kept folded: the equation never looks inside them.
attribute [local irreducible] Host.reduceWindow Host.reverse concatenate in
set_option maxRecDepth 8192 in
set_option maxHeartbeats 1600000 in
/-- After the detector's stretch the strip-mask buffer holds the detector's function of the image: each operation's
    result rewritten to its function of its operands' contents, down to the image, gives the detector's definition
    unfolded. -/
theorem readA (V : Valuation τ sig (Elt Ideal)) :
    after (opsA (F := Ideal)) V (main_v45 : DevRef τ sig) = Cert.Detector.subR (V (main_arg3 : DevRef τ sig)) := by
  simp only [Cert.AfterAppend.after_append]
  after_results_simp
  rfl

-- The four sums and the scatter are kept folded likewise.
attribute [local irreducible] Host.reduceAdd Host.scatter in
set_option maxRecDepth 8192 in
set_option maxHeartbeats 1600000 in
/-- After the loss's stretch the result buffer holds `refOut` of the three arguments and of the strip-mask buffer. -/
theorem readB (W : Valuation τ sig (Elt Ideal)) :
    after (opsB (F := Ideal)) W (main_v72 : DevRef τ sig)
      = refOut (W (main_arg0 : DevRef τ sig)) (W (main_arg1 : DevRef τ sig)) (W (main_arg2 : DevRef τ sig)) (W (main_v45 : DevRef τ sig)) := by
  simp only [Cert.AfterAppend.after_append]
  after_results_simp
  rfl

/-- After the whole line the result buffer holds `refOut` of the three arguments and of the detector's strip mask of
    the image. -/
theorem result_eq (V : Valuation τ sig (Elt Ideal)) :
    after (ops (F := Ideal)) V (main_v72 : DevRef τ sig)
      = refOut (V (main_arg0 : DevRef τ sig)) (V (main_arg1 : DevRef τ sig)) (V (main_arg2 : DevRef τ sig)) (Cert.Detector.subR (V (main_arg3 : DevRef τ sig))) := by
  rw [after_ops, readB, readA, opsA_arg0, opsA_arg1, opsA_arg2]

/-! ## The run -/

/-- On every device, at the ideal instance, from any memory with zero counters: every weakly fair execution of @main
    terminates with the result buffer at `refOut` of the arguments' launch contents and of the detector's strip mask
    of the image, the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72)
          = refOut (m ((c.tc : Thread nD τ).loc main_arg0)) (m ((c.tc : Thread nD τ).loc main_arg1)) (m ((c.tc : Thread nD τ).loc main_arg2)) (Cert.Detector.subR (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v72).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefRead

end
-- ==== Proof.LibScatterSet.lean ====
import Idealize.ShloMosaic.PureOps

/-!
# An overwriting scatter read at an index

`Host.scatter d (fun _ b => b) x idx upd` is a left fold over all update positions in row-major order:
the step at position `j` overwrites the operand's element at the index `d.resultIdx? j idx` (when there is
one) by `upd j`.  Read at one operand index `i`:

* if some update position `j` lands on `i` and it is the only one that does, the result at `i` is `upd j`
  (`scatter_set_of_mem`): the step at `j` writes it, earlier values are overwritten, and no later step
  touches `i`;
* if no update position lands on `i`, the result at `i` is the operand's `x i` (`scatter_set_of_not_mem`).

Both are proved for the fold over an arbitrary list of positions, by induction on the list with the
starting array general, and then read at the list of all positions.  Any shapes, any dimension numbers,
any element type.
-/

namespace Cert.ScatterSet

open Idealize.ShloMosaic

variable {s si u : Shape} {α : Type} {w : Nat}

/-- One step of the fold: the update at row-major position `n` overwrites the element it lands on. -/
def step (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

/-- The overwriting scatter is the fold of `step` over all positions. -/
theorem scatter_eq_foldl (d : ScatterDims s si u) (x : s.Idx → α) (idx : IVec si w) (upd : u.Idx → α) :
    Host.scatter d (fun _ b => b) x idx upd = (List.finRange u.numel).foldl (step d idx upd) x := rfl

/-- A step whose position lands on `i` leaves `upd` at that position there. -/
theorem step_of_eq (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  exact if_pos rfl

/-- A step whose position does not land on `i` leaves the element at `i` alone. -/
theorem step_of_ne (d : ScatterDims s si u) (idx : IVec si w) (upd : u.Idx → α) (r : s.Idx → α) (n : Fin u.numel) (i : s.Idx)
    (h : d.resultIdx? (u.rowMajor.symm n) idx ≠ some i) : step d idx upd r n i = r i := by
  unfold step
  cases hr : d.resultIdx? (u.rowMajor.symm n) idx with
  | none => rfl
  | some i0 =>
    have hne : i ≠ i0 := fun e => h (by rw [hr, e])
    exact if_neg hne

/-- Folding over positions none of which lands on `i` leaves the element at `i` alone. -/
theorem foldl_of_not_mem (d : ScatterDims s si u) (idx : IVec si w) (upd : u.Idx → α) (i : s.Idx) :
    ∀ (L : List (Fin u.numel)) (x : s.Idx → α), (∀ n ∈ L, d.resultIdx? (u.rowMajor.symm n) idx ≠ some i) →
      L.foldl (step d idx upd) x i = x i
  | [], _, _ => rfl
  | n :: L, x, h => by
    rw [List.foldl_cons, foldl_of_not_mem d idx upd i L _ fun m hm => h m (List.mem_cons_of_mem _ hm)]
    exact step_of_ne d idx upd x n i (h n List.mem_cons_self)

/-- Folding over positions of which `n` lands on `i`, and only `n` does, leaves `upd` at `n` there. -/
theorem foldl_of_mem (d : ScatterDims s si u) (idx : IVec si w) (upd : u.Idx → α) (i : s.Idx) (n : Fin u.numel)
    (hn : d.resultIdx? (u.rowMajor.symm n) idx = some i) :
    ∀ (L : List (Fin u.numel)) (x : s.Idx → α), n ∈ L →
      (∀ m ∈ L, d.resultIdx? (u.rowMajor.symm m) idx = some i → m = n) →
      L.foldl (step d idx upd) x i = upd (u.rowMajor.symm n)
  | [], _, hmem, _ => absurd hmem List.not_mem_nil
  | m :: L, x, hmem, huniq => by
    rw [List.foldl_cons]
    by_cases hL : n ∈ L
    · exact foldl_of_mem d idx upd i n hn L _ hL fun m' hm' => huniq m' (List.mem_cons_of_mem _ hm')
    · have hm : m = n := by
        rcases List.mem_cons.mp hmem with e | e
        · exact e.symm
        · exact absurd e hL
      subst hm
      rw [foldl_of_not_mem d idx upd i L _ fun m' hm' hland =>
        hL (huniq m' (List.mem_cons_of_mem _ hm') hland ▸ hm')]
      exact step_of_eq d idx upd x m i hn

/-- The overwriting scatter at an index exactly one update position lands on: that update. -/
theorem scatter_set_of_mem (d : ScatterDims s si u) (x : s.Idx → α) (idx : IVec si w) (upd : u.Idx → α) (j : u.Idx) (i : s.Idx)
    (h : d.resultIdx? j idx = some i) (huniq : ∀ j', d.resultIdx? j' idx = some i → j' = j) :
    Host.scatter d (fun _ b => b) x idx upd i = upd j := by
  rw [scatter_eq_foldl]
  have hj : u.rowMajor.symm (u.rowMajor j) = j := u.rowMajor.symm_apply_apply j
  have := foldl_of_mem d idx upd i (u.rowMajor j) (by rw [hj]; exact h) (List.finRange u.numel) x (List.mem_finRange _)
    fun m _ hm => by
      have := huniq _ hm
      rw [← this]; exact (u.rowMajor.apply_symm_apply m).symm
  rw [this, hj]

/-- The overwriting scatter at an index no update position lands on: the operand. -/
theorem scatter_set_of_not_mem (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_of_not_mem d idx upd i _ x fun n _ => h _

end Cert.ScatterSet
-- ==== Proof.ScatterRead.lean ====
import proofs.«148992_j53300544143793_2_alg».proof.ReferenceIdeal
import proofs.«148992_j53300544143793_2_alg».proof.Proof.LibScatterSet
import Idealize.ShloMosaic.Lib.ValueIdx

/-!
# The mask written into the full-height array, read at an index

The second program writes the `[32,192,640]` mask into a `[32,640,640]` array with an overwriting
scatter whose one start index is 448 on the row axis.  Update position `(n, q, k)` lands on `(n, 448 + q, k)`,
always inside the array, and different positions land on different indices.  So the result holds the
update on rows 448..639 (`full_low`) and the operand on rows 0..447 (`full_top`).

The lemmas take any index array whose one element is `448`; `idx448` says the array the program builds is one.
-/

namespace Cert.ScatterRead

open Idealize.ShloMosaic Idealize.ShloMosaic.ValueIdx Cert.ReferenceIdeal

variable [Cert.ReferenceIdeal.Facts₀]

/-- The dimension numbers of the scatter that writes the `[32,192,640]` mask into a `[32,640,640]` array:
    the three update axes are window axes, the one start index goes to operand axis 1. -/
abbrev D : ScatterDims S32x640x640 S1 S32x192x640 := scatter_S32x640x640_S1_S32x192x640_012_n_1_0

/-- Every operand axis takes the update's own coordinate as window coordinate. -/
theorem window_eq (j : S32x192x640.Idx) (a : Fin 3) : D.window j a = (j a).val := by
  match a with
  | ⟨0, _⟩ => rfl
  | ⟨1, _⟩ => rfl
  | ⟨2, _⟩ => rfl

/-- The start index is read at the one element of the index array. -/
theorem siIdx_eq (j : S32x192x640.Idx) (c : Fin D.scatterDimsToOperandDims.length) : D.siIdx j c = ix1 (0 : Fin 1) := by
  funext b
  match b with
  | ⟨0, _⟩ =>
    have hc : c.val = 0 := by
      have := c.isLt
      simp [D, scatter_S32x640x640_S1_S32x192x640_012_n_1_0] at this
      omega
    exact Fin.ext hc

/-- The window starts at row 448 on axis 1 and at 0 on the other two axes. -/
theorem start_eq (j : S32x192x640.Idx) (idx : IVec S1 32) (h : idx (ix1 (0 : Fin 1)) = 448#32) (a : Fin 3) :
    D.start j idx a = if a.val = 1 then 448 else 0 := by
  match a with
  | ⟨0, _⟩ => rfl
  | ⟨1, _⟩ =>
    show (idx (D.siIdx j _)).toInt = 448
    rw [siIdx_eq, h]; rfl
  | ⟨2, _⟩ => rfl

/-- Update position `(n, q, k)` lands on operand index `(n, 448 + q, k)`, which is inside the operand. -/
theorem resultIdx_eq (idx : IVec S1 32) (h : idx (ix1 (0 : Fin 1)) = 448#32) (n : Fin 32) (q : Fin 192) (k : Fin 640) :
    D.resultIdx? (ix3 n q k) idx = some (ix3 n (⟨448 + q.val, by have := q.isLt; omega⟩ : Fin 640) k) := by
  have hn := n.isLt; have hq := q.isLt; have hk := k.isLt
  unfold ScatterDims.resultIdx?
  rw [dif_pos (by
    intro a
    rw [start_eq _ idx h, window_eq]
    match a with
    | ⟨0, _⟩ => show (0:Int) ≤ 0 + (n.val : Int) ∧ (0:Int) + (n.val : Int) < (32 : Nat); omega
    | ⟨1, _⟩ => show (0:Int) ≤ 448 + (q.val : Int) ∧ (448:Int) + (q.val : Int) < (640 : Nat); omega
    | ⟨2, _⟩ => show (0:Int) ≤ 0 + (k.val : Int) ∧ (0:Int) + (k.val : Int) < (640 : Nat); omega)]
  congr 1
  funext a
  apply Fin.ext
  show (D.start (ix3 n q k) idx a + (D.window (ix3 n q k) a : Int)).toNat = _
  rw [start_eq _ idx h, window_eq]
  match a with
  | ⟨0, _⟩ => show ((0:Int) + (n.val : Int)).toNat = n.val; omega
  | ⟨1, _⟩ => show ((448:Int) + (q.val : Int)).toNat = 448 + q.val; omega
  | ⟨2, _⟩ => show ((0:Int) + (k.val : Int)).toNat = k.val; omega

/-- Rows 448..639 of the result hold the update. -/
theorem full_low {α : Type} (x : S32x640x640.Idx → α) (idx : IVec S1 32) (h : idx (ix1 (0 : Fin 1)) = 448#32)
    (upd : S32x192x640.Idx → α) (n : Fin 32) (q : Fin 192) (k : Fin 640) :
    Host.scatter D (fun _ b => b) x idx upd (ix3 n (⟨448 + q.val, by have := q.isLt; omega⟩ : Fin 640) k) = upd (ix3 n q k) := by
  refine Cert.ScatterSet.scatter_set_of_mem D x idx upd (ix3 n q k) _ (resultIdx_eq idx h n q k) ?_
  intro j' hj'
  obtain ⟨n', q', k', rfl⟩ : ∃ (n' : Fin 32) (q' : Fin 192) (k' : Fin 640), j' = ix3 n' q' k' := ⟨j' 0, j' 1, j' 2, eq_ix3 j'⟩
  rw [resultIdx_eq idx h n' q' k'] at hj'
  have e := Option.some.inj hj'
  have e0 := congrArg Fin.val (congrFun e (0 : Fin 3))
  have e1 := congrArg Fin.val (congrFun e (1 : Fin 3))
  have e2 := congrArg Fin.val (congrFun e (2 : Fin 3))
  have e0' : n'.val = n.val := e0
  have e1' : 448 + q'.val = 448 + q.val := e1
  have e2' : k'.val = k.val := e2
  rw [Fin.ext e0', (Fin.ext (by omega) : q' = q), Fin.ext e2']

/-- Rows 0..447 of the result hold the operand. -/
theorem full_top {α : Type} (x : S32x640x640.Idx → α) (idx : IVec S1 32) (h : idx (ix1 (0 : Fin 1)) = 448#32)
    (upd : S32x192x640.Idx → α) (n : Fin 32) (q : Fin 640) (hq : q.val < 448) (k : Fin 640) :
    Host.scatter D (fun _ b => b) x idx upd (ix3 n q k) = x (ix3 n q k) := by
  refine Cert.ScatterSet.scatter_set_of_not_mem D x idx upd _ ?_
  intro j' hj'
  obtain ⟨n', q', k', rfl⟩ : ∃ (n' : Fin 32) (q' : Fin 192) (k' : Fin 640), j' = ix3 n' q' k' := ⟨j' 0, j' 1, j' 2, eq_ix3 j'⟩
  rw [resultIdx_eq idx h n' q' k'] at hj'
  have e := Option.some.inj hj'
  have e1 := congrArg Fin.val (congrFun e (1 : Fin 3))
  have e1' : 448 + q'.val = q.val := e1
  omega

/-- The index array the program builds (the constant 448 broadcast to one element) has 448 as its element. -/
theorem idx448 : (broadcastInDim S1 ![] Facts₀.bcast_S_S1 (constantI S_ 32 448#32) : IVec S1 32) (ix1 (0 : Fin 1)) = 448#32 := rfl

end Cert.ScatterRead
-- ==== Proof.RefTotals.lean ====
import proofs.«148992_j53300544143793_2_alg».proof.Proof.RefOutDefs
import proofs.«148992_j53300544143793_2_alg».proof.Proof.ScatterRead
import proofs.«148992_j53300544143793_2_alg».proof.Proof.Totals
import proofs.«148992_j53300544143793_2_alg».proof.Proof.KPay
import Idealize.ShloMosaic.Lib.Pipeline.Value

/-!
# The second program's four masked sums, as sums over images, rows and columns

Each of the four host sums runs over all axes of a `[32,1,640,640]` array from the initial value zero, so at its
one index it is that zero plus the plain sum of the entries, image by image, row by row, column by column
(the unit channel axis contributes its one term).

* The loss array at a pixel is the per-pixel loss `max(p,0) − p·g + log1p(exp(0 − |p|))` of the prediction and
  the target there: the program writes `−|p|` where the formula has `0 − |p|`, the same extended real.
* The strip mask written into a zero image at row 448 is, at row `448 + q`, the strip mask at row `q`, and zero
  on rows 0..447.  A product with zero is zero for every extended real, so the two sums weighted by it run over
  the 192 rows of the strip only.
-/

noncomputable section

open scoped BigOperators

namespace Cert.ReferenceIdeal.RefTotals

open Cert.ReferenceIdeal Cert.ReferenceIdeal.RefRun Cert.KernelIdeal.KPay Idealize.ShloMosaic Idealize.ShloMosaic.ValueIdx

variable [Facts₀]

local notation "u0" => (Fin.mk 0 Nat.one_pos : Fin 1)
local notation "Z0" => Ideal.ofBits FTy.f32 0x00000000#32

/-! ## The arrays at an index -/

/-- The loss array at a pixel is the per-pixel loss of the prediction and the target there. -/
theorem refBce_apply (p g : FVec Ideal S32x1x640x640 .f32) (i : S32x1x640x640.Idx) :
    refBce p g i = bce1 (p i) (g i) := by
  show max (p i) Z0 - p i * g i + Ideal.log1p (Ideal.exp (-(max (p i) (-(p i)))))
    = max (p i) Z0 - p i * g i + Ideal.log1p (Ideal.exp (Z0 - max (p i) (-(p i))))
  rw [Ideal.ofBits_zero_f32, zero_sub]

/-- The full-height strip mask at `(n, ·, r, k)` is the scattered array at `(n, r, k)`. -/
theorem refFull_apply (sub : FVec Ideal S32x192x640 .f32) (n : Fin 32) (r : Fin 640) (k : Fin 640) :
    refFull sub (ix4 n u0 r k)
      = Host.scatter Cert.ScatterRead.D (fun _ b => b)
          (broadcastInDim S32x640x640 ![] Facts₀.bcast_S_S32x640x640 (constant (F := Ideal) S_ .f32 0x00000000#32))
          (broadcastInDim S1 ![] Facts₀.bcast_S_S1 (constantI S_ 32 448#32)) sub (ix3 n r k) := by
  unfold refFull
  exact broadcastInDim_apply _ _ _ _ (ix3 n r k) fun a => match a with
    | ⟨0, _⟩ => rfl
    | ⟨1, _⟩ => rfl
    | ⟨2, _⟩ => rfl

/-- On a strip row `448 + q` the full-height strip mask is the strip mask at row `q`. -/
theorem refFull_low (sub : FVec Ideal S32x192x640 .f32) (n : Fin 32) (q : Fin 192) (k : Fin 640) :
    refFull sub (ix4 n u0 (low q) k) = sub (ix3 n q k) := by
  rw [refFull_apply]
  exact Cert.ScatterRead.full_low _ _ Cert.ScatterRead.idx448 sub n q k

/-- On rows 0..447 the full-height strip mask is zero. -/
theorem refFull_top (sub : FVec Ideal S32x192x640 .f32) (n : Fin 32) (r : Fin 640) (hr : r.val < 448) (k : Fin 640) :
    refFull sub (ix4 n u0 r k) = 0 := by
  rw [refFull_apply, Cert.ScatterRead.full_top _ _ Cert.ScatterRead.idx448 sub n r hr k]
  exact Ideal.ofBits_zero_f32

/-! ## A sum over all axes of a `[32,1,640,640]` array -/

/-- From the initial value zero: zero plus the sum over images, rows and columns. -/
theorem total_apply (x : FVec Ideal S32x1x640x640 .f32) (j : S_.Idx) :
    Host.reduceAdd (F := Ideal) x (constant (F := Ideal) S_ .f32 0x00000000#32) Facts₀.reducesTo_S32x1x640x640_S_d0_1_2_3 Facts₀.h_S_ j
      = Z0 + ∑ n : Fin 32, ∑ q : Fin 640, ∑ k : Fin 640, x (ix4 n u0 q k) := by
  show Ideal.hostReduceAdd Facts₀.reducesTo_S32x1x640x640_S_d0_1_2_3 x Z0 j = _
  rw [Cert.Totals.reduceAll_apply, Cert.Totals.sum_idx4]
  refine congrArg (Z0 + ·) (Finset.sum_congr rfl fun n _ => ?_)
  rw [Fin.sum_univ_one]
  rfl

/-- A sum over the rows whose terms carry the full-height strip mask as a factor runs over the strip's rows. -/
theorem strip_rows (sub : FVec Ideal S32x192x640 .f32) (n : Fin 32) (c : Fin 640 → Fin 640 → EReal) :
    ∑ r : Fin 640, ∑ k : Fin 640, c r k * refFull sub (ix4 n u0 r k)
      = ∑ q : Fin 192, ∑ k : Fin 640, c (low q) k * sub (ix3 n q k) := by
  rw [Cert.Totals.strip_total (fun r => ∑ k : Fin 640, c r k * refFull sub (ix4 n u0 r k)) fun r hr =>
    Finset.sum_eq_zero fun k _ => by rw [refFull_top sub n r hr k, mul_zero]]
  refine Finset.sum_congr rfl fun q _ => Finset.sum_congr rfl fun k _ => ?_
  show c (low q) k * refFull sub (ix4 n u0 (low q) k) = _
  rw [refFull_low]

/-! ## The four sums -/

/-- Σ loss · mask. -/
theorem sumBM_apply (p g mk : FVec Ideal S32x1x640x640 .f32) (j : S_.Idx) :
    refSumBM p g mk j = Z0 + ∑ n : Fin 32, ∑ q : Fin 640, ∑ k : Fin 640,
      bce1 (p (ix4 n u0 q k)) (g (ix4 n u0 q k)) * mk (ix4 n u0 q k) := by
  unfold refSumBM
  rw [total_apply]
  refine congrArg (Z0 + ·) (Finset.sum_congr rfl fun n _ => Finset.sum_congr rfl fun q _ => Finset.sum_congr rfl fun k _ => ?_)
  show refBce p g (ix4 n u0 q k) * mk (ix4 n u0 q k) = _
  rw [refBce_apply]

/-- Σ mask. -/
theorem sumM_apply (mk : FVec Ideal S32x1x640x640 .f32) (j : S_.Idx) :
    refSumM mk j = Z0 + ∑ n : Fin 32, ∑ q : Fin 640, ∑ k : Fin 640, mk (ix4 n u0 q k) := by
  unfold refSumM
  exact total_apply mk j

/-- Σ mask · strip mask, over the strip's rows. -/
theorem sumC_apply (mk : FVec Ideal S32x1x640x640 .f32) (sub : FVec Ideal S32x192x640 .f32) (j : S_.Idx) :
    refSumC mk sub j = Z0 + ∑ n : Fin 32, ∑ q : Fin 192, ∑ k : Fin 640, mk (ix4 n u0 (low q) k) * sub (ix3 n q k) := by
  unfold refSumC
  rw [total_apply]
  refine congrArg (Z0 + ·) (Finset.sum_congr rfl fun n _ => ?_)
  exact strip_rows sub n fun r k => mk (ix4 n u0 r k)

/-- Σ loss · mask · strip mask, over the strip's rows. -/
theorem sumBC_apply (p g mk : FVec Ideal S32x1x640x640 .f32) (sub : FVec Ideal S32x192x640 .f32) (j : S_.Idx) :
    refSumBC p g mk sub j = Z0 + ∑ n : Fin 32, ∑ q : Fin 192, ∑ k : Fin 640,
      bce1 (p (ix4 n u0 (low q) k)) (g (ix4 n u0 (low q) k)) * (mk (ix4 n u0 (low q) k) * sub (ix3 n q k)) := by
  unfold refSumBC
  rw [total_apply]
  refine congrArg (Z0 + ·) (Finset.sum_congr rfl fun n _ => ?_)
  have e : ∀ (r k : Fin 640), mulf (refBce p g) (refW mk sub) (ix4 n u0 r k)
      = (bce1 (p (ix4 n u0 r k)) (g (ix4 n u0 r k)) * mk (ix4 n u0 r k)) * refFull sub (ix4 n u0 r k) := fun r k => by
    show refBce p g (ix4 n u0 r k) * (mk (ix4 n u0 r k) * refFull sub (ix4 n u0 r k)) = _
    rw [refBce_apply, mul_assoc]
  rw [Finset.sum_congr rfl fun r _ => Finset.sum_congr rfl fun k _ => e r k,
    strip_rows sub n fun r k => bce1 (p (ix4 n u0 r k)) (g (ix4 n u0 r k)) * mk (ix4 n u0 r k)]
  exact Finset.sum_congr rfl fun q _ => Finset.sum_congr rfl fun k _ => mul_assoc _ _ _

end Cert.ReferenceIdeal.RefTotals

end
-- ==== Proof.Detector.lean ====
import proofs.«148992_j53300544143793_2_alg».proof.Proof.DetectorDefs
import proofs.«148992_j53300544143793_2_alg».proof.Proof.LibSliceOps

/-!
# The two detectors are equal

`sub_eq : subK img = subR img`, in two stages.

* From the gray strip on (`morph_eq`) the two chains are the same operations on the same shapes; the
  shape relations they cite are propositions, so the two terms are the same term.
* Up to the gray strip (`gray_eq`): a slice commutes with every pointwise operation.  At strip index
  `(n, r, c)` both sides are
  `roundeven(0.114·u(n,0,448+r,c) + 0.587·u(n,1,448+r,c) + 0.299·u(n,2,448+r,c))` with
  `u = min(255, max(0, ⌊255·img⌋))`: on one side the strip of the image is taken first and the samples
  are read from it, on the other the gray image is computed everywhere and read at row `448 + r`.
-/

namespace Cert.Detector

open Idealize.ShloMosaic Idealize.ShloMosaic.ValueIdx Idealize.ShloMosaic.SliceOps

/-! ## From the gray strip on, the two chains are the same operations -/

theorem padTop_eq (g : FVec Ideal Cert.KernelIdeal.S32x192x640 .f32) : padTopK g = padTopR g := rfl
theorem padRows_eq (g : FVec Ideal Cert.KernelIdeal.S32x192x640 .f32) : padRowsK g = padRowsR g := rfl
theorem padLeft_eq (g : FVec Ideal Cert.KernelIdeal.S32x192x640 .f32) : padLeftK g = padLeftR g := rfl
theorem pad_eq (g : FVec Ideal Cert.KernelIdeal.S32x192x640 .f32) : padK g = padR g := rfl
theorem lap_eq (g : FVec Ideal Cert.KernelIdeal.S32x192x640 .f32) : lapK g = lapR g := rfl
theorem raw_eq (g : FVec Ideal Cert.KernelIdeal.S32x192x640 .f32) : rawK g = rawR g := rfl
theorem dil_eq (x : FVec Ideal Cert.KernelIdeal.S32x192x640 .f32) : dilK x = dilR x := rfl
theorem ero_eq (x : FVec Ideal Cert.KernelIdeal.S32x192x640 .f32) : eroK x = eroR x := rfl

attribute [local irreducible] Host.reduceWindow Host.reverse concatenate in
theorem morph_eq (g : FVec Ideal Cert.KernelIdeal.S32x192x640 .f32) : morphK g = morphR g := by
  unfold morphK morphR
  rw [raw_eq, dil_eq, ero_eq, ero_eq, dil_eq]

/-! ## The gray strip, pixel by pixel -/

/-- One sample scaled to [0, 255]: min(255, max(0, ⌊255·v⌋)). -/
noncomputable def px (v : Ideal .f32) : Ideal .f32 :=
  FloatOps.minimumf (FloatOps.ofBits .f32 0x437F0000#32)
    (FloatOps.maximumf (FloatOps.ofBits .f32 0x00000000#32)
      (FloatOps.hostUnary .floor (FloatOps.mulf v (FloatOps.ofBits .f32 0x437F0000#32))))

/-- The gray value of three scaled samples: the weighted sum, rounded to even. -/
noncomputable def mix (p0 p1 p2 : Ideal .f32) : Ideal .f32 :=
  FloatOps.hostUnary .roundeven
    (FloatOps.addf
      (FloatOps.addf (FloatOps.mulf (FloatOps.ofBits .f32 0x3DE978D5#32) p0) (FloatOps.mulf (FloatOps.ofBits .f32 0x3F1645A2#32) p1))
      (FloatOps.mulf (FloatOps.ofBits .f32 0x3E991687#32) p2))

/-- Row `r` of the strip is row `448 + r` of the image. -/
def row (r : Fin 192) : Fin 640 := ⟨448 + r.val, by have := r.isLt; omega⟩

theorem u8K_apply (x : FVec Ideal Cert.KernelIdeal.S32x3x192x640 .f32) (i : Cert.KernelIdeal.S32x3x192x640.Idx) :
    u8K x i = px (x i) := rfl

theorem u8R_apply (x : FVec Ideal Cert.ReferenceIdeal.S32x3x640x640 .f32) (i : Cert.ReferenceIdeal.S32x3x640x640.Idx) :
    u8R x i = px (x i) := rfl

theorem mixK_apply (u : FVec Ideal Cert.KernelIdeal.S32x3x192x640 .f32) (n : Fin 32) (r : Fin 192) (c : Fin 640) :
    mixK u (ix3 n r c) = mix (u (ix4 n ⟨0, by omega⟩ r c)) (u (ix4 n ⟨1, by omega⟩ r c)) (u (ix4 n ⟨2, by omega⟩ r c)) := by
  rw [← channel_ix 0 (by omega) u KF.slices_S32x3x192x640_S32x1x192x640_0_0_0_0 KF.shapeCasts_S32x1x192x640_S32x192x640 n r c,
    ← channel_ix 1 (by omega) u KF.slices_S32x3x192x640_S32x1x192x640_0_1_0_0 KF.shapeCasts_S32x1x192x640_S32x192x640 n r c,
    ← channel_ix 2 (by omega) u KF.slices_S32x3x192x640_S32x1x192x640_0_2_0_0 KF.shapeCasts_S32x1x192x640_S32x192x640 n r c]
  rfl

theorem mixR_apply (u : FVec Ideal Cert.ReferenceIdeal.S32x3x640x640 .f32) (n : Fin 32) (r : Fin 640) (c : Fin 640) :
    mixR u (ix3 n r c) = mix (u (ix4 n ⟨0, by omega⟩ r c)) (u (ix4 n ⟨1, by omega⟩ r c)) (u (ix4 n ⟨2, by omega⟩ r c)) := by
  rw [← channel_ix 0 (by omega) u RF.slices_S32x3x640x640_S32x1x640x640_0_0_0_0 RF.shapeCasts_S32x1x640x640_S32x640x640 n r c,
    ← channel_ix 1 (by omega) u RF.slices_S32x3x640x640_S32x1x640x640_0_1_0_0 RF.shapeCasts_S32x1x640x640_S32x640x640 n r c,
    ← channel_ix 2 (by omega) u RF.slices_S32x3x640x640_S32x1x640x640_0_2_0_0 RF.shapeCasts_S32x1x640x640_S32x640x640 n r c]
  rfl

/-- The strip of the image read at `(n, k, r, c)` is the image at `(n, k, 448 + r, c)`. -/
theorem strip4_apply (img : FVec Ideal Cert.KernelIdeal.S32x3x640x640 .f32) (n : Fin 32) (k : Fin 3) (r : Fin 192) (c : Fin 640) :
    extractStridedSlice Cert.KernelIdeal.S32x3x192x640 ![0, 0, 448, 0] img KF.slices_S32x3x640x640_S32x3x192x640_0_0_448_0 (ix4 n k r c)
      = img (ix4 n k (row r) c) := by
  rw [slice4_ix 0 0 448 0 img KF.slices_S32x3x640x640_S32x3x192x640_0_0_448_0 n k r c
    (by have := n.isLt; omega) (by have := k.isLt; omega) (by have := r.isLt; omega) (by have := c.isLt; omega)]
  congr 1
  funext e
  match e with
  | ⟨0, _⟩ => exact Fin.ext (Nat.zero_add _)
  | ⟨1, _⟩ => exact Fin.ext (Nat.zero_add _)
  | ⟨2, _⟩ => rfl
  | ⟨3, _⟩ => exact Fin.ext (Nat.zero_add _)

/-- The strip of a 3-axis image read at `(n, r, c)` is the image at `(n, 448 + r, c)`. -/
theorem strip3_apply (y : FVec Ideal Cert.ReferenceIdeal.S32x640x640 .f32) (n : Fin 32) (r : Fin 192) (c : Fin 640) :
    extractStridedSlice Cert.ReferenceIdeal.S32x192x640 ![0, 448, 0] y RF.slices_S32x640x640_S32x192x640_0_448_0 (ix3 n r c)
      = y (ix3 n (row r) c) := by
  rw [slice3_ix 0 448 0 y RF.slices_S32x640x640_S32x192x640_0_448_0 n r c
    (by have := n.isLt; omega) (by have := r.isLt; omega) (by have := c.isLt; omega)]
  congr 1
  funext e
  match e with
  | ⟨0, _⟩ => exact Fin.ext (Nat.zero_add _)
  | ⟨1, _⟩ => rfl
  | ⟨2, _⟩ => exact Fin.ext (Nat.zero_add _)

/-- Cutting the strip out of the image first, or out of the gray image afterwards, gives the same gray strip:
    at `(n, r, c)` both are the gray value of the three samples of the image at row `448 + r`. -/
theorem gray_eq (img : FVec Ideal Cert.KernelIdeal.S32x3x640x640 .f32) : grayK img = grayR img := by
  funext j
  obtain ⟨n, r, c, rfl⟩ : ∃ (n : Fin 32) (r : Fin 192) (c : Fin 640), j = ix3 n r c := ⟨j 0, j 1, j 2, eq_ix3 j⟩
  unfold grayK grayR
  rw [mixK_apply, strip3_apply, mixR_apply]
  simp only [u8K_apply, u8R_apply, strip4_apply]

theorem sub_eq (img : FVec Ideal Cert.KernelIdeal.S32x3x640x640 .f32) : subK img = subR img := by
  unfold subK subR
  rw [gray_eq, morph_eq]

end Cert.Detector
-- ==== Proof.Bridge.lean ====
/-
  The two programs' results are one function of four equal sums.

  Both programs end with the same last step — if the sum of mask·sub is positive, 1.0 times the sum of loss·mask·sub over
  max(that sum, 1e-6), else the sum of loss·mask over max(sum of mask, 1e-6) — applied to four sums. The kernel's four
  sums (two groups of eight steps of two images, the strip sums over the bottom 192 rows only) and the reference's
  (one host sum each over all [32, 1, 640, 640] entries, the strip mask padded with zeros above row 448) are the same
  extended reals: sums regroup freely, and the reference's extra terms are products with zero. The subtitle mask is the
  same on both sides: slicing the image to its bottom rows commutes with the pointwise operations before the gray image.
-/
import proofs.«148992_j53300544143793_2_alg».proof.Defs
import proofs.«148992_j53300544143793_2_alg».proof.Proof.KRun
import proofs.«148992_j53300544143793_2_alg».proof.Proof.KArgs
import proofs.«148992_j53300544143793_2_alg».proof.Proof.RefRead
import proofs.«148992_j53300544143793_2_alg».proof.Proof.RefTotals
import proofs.«148992_j53300544143793_2_alg».proof.Proof.Detector
import proofs.«148992_j53300544143793_2_alg».proof.Proof.Gen.Pre_finite_inputs

set_option maxRecDepth 16384

noncomputable section

open scoped BigOperators
open Idealize.ShloMosaic Idealize.ShloMosaic.TcCoe Idealize.SL.Sem Idealize.ShloMosaic.ValueIdx

namespace Cert.Bridge

/-- The last step both programs share, as a function of the four sums (loss·mask, mask, loss·mask·sub, mask·sub). -/
def lossOf (sBM sM sBC sC : FVec Ideal (⟨0, ![]⟩ : Shape) .f32) : FVec Ideal (⟨0, ![]⟩ : Shape) .f32 :=
  select (cmpf .ogt sC (constant (F := Ideal) (⟨0, ![]⟩ : Shape) .f32 0x00000000#32))
    (mulf (constant (F := Ideal) (⟨0, ![]⟩ : Shape) .f32 0x3F800000#32) (Host.divf sBC (maximumf sC (constant (F := Ideal) (⟨0, ![]⟩ : Shape) .f32 0x358637BD#32))))
    (Host.divf sBM (maximumf sM (constant (F := Ideal) (⟨0, ![]⟩ : Shape) .f32 0x358637BD#32)))

/-- The kernel program's tail is that step of its four host sums. -/
theorem tailK_eq (o0 o1 o2 o3 : FVec Ideal Cert.KernelIdeal.S2x1x1 .f32) :
    Cert.KernelIdeal.KValue.tailK o0 o1 o2 o3
      = lossOf (Host.reduceAdd (F := Ideal) o0 (constant (F := Ideal) Cert.KernelIdeal.S_ .f32 0x00000000#32) Cert.KernelIdeal.Facts₀.reducesTo_S2x1x1_S_d0_1_2 Cert.KernelIdeal.Facts₀.h_S_)
          (Host.reduceAdd (F := Ideal) o1 (constant (F := Ideal) Cert.KernelIdeal.S_ .f32 0x00000000#32) Cert.KernelIdeal.Facts₀.reducesTo_S2x1x1_S_d0_1_2 Cert.KernelIdeal.Facts₀.h_S_)
          (Host.reduceAdd (F := Ideal) o2 (constant (F := Ideal) Cert.KernelIdeal.S_ .f32 0x00000000#32) Cert.KernelIdeal.Facts₀.reducesTo_S2x1x1_S_d0_1_2 Cert.KernelIdeal.Facts₀.h_S_)
          (Host.reduceAdd (F := Ideal) o3 (constant (F := Ideal) Cert.KernelIdeal.S_ .f32 0x00000000#32) Cert.KernelIdeal.Facts₀.reducesTo_S2x1x1_S_d0_1_2 Cert.KernelIdeal.Facts₀.h_S_) := rfl

/-- The reference's result is that step of its four host sums. -/
theorem refOut_eq (p g mk : FVec Ideal Cert.ReferenceIdeal.S32x1x640x640 .f32) (sub : FVec Ideal Cert.ReferenceIdeal.S32x192x640 .f32) :
    Cert.ReferenceIdeal.RefRun.refOut p g mk sub
      = lossOf (Cert.ReferenceIdeal.RefRun.refSumBM p g mk) (Cert.ReferenceIdeal.RefRun.refSumM mk) (Cert.ReferenceIdeal.RefRun.refSumBC p g mk sub) (Cert.ReferenceIdeal.RefRun.refSumC mk sub) := rfl

variable (m : (ℓ : Loc Cert.KernelIdeal.nD Cert.KernelIdeal.τ Cert.KernelIdeal.sig) → Buf (Elt Ideal) ℓ)

/-- The kernel program's result is the reference's function of the same arguments. -/
theorem out_eq (c : Dev Cert.KernelIdeal.nD) :
    Cert.KernelIdeal.KValue.tailK (Cert.KernelIdeal.KValue.G4 m c) (Cert.KernelIdeal.KValue.G5 m c) (Cert.KernelIdeal.KValue.G6 m c) (Cert.KernelIdeal.KValue.G7 m c)
      = Cert.ReferenceIdeal.RefRun.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Detector.subR (m ((c.tc : Thread Cert.KernelIdeal.nD Cert.KernelIdeal.τ).loc Cert.KernelIdeal.main_arg3))) := by
  rw [tailK_eq, refOut_eq]
  have e4 : (Host.reduceAdd (F := Ideal) (Cert.KernelIdeal.KValue.G4 m c) (constant (F := Ideal) Cert.KernelIdeal.S_ .f32 0x00000000#32) Cert.KernelIdeal.Facts₀.reducesTo_S2x1x1_S_d0_1_2 Cert.KernelIdeal.Facts₀.h_S_) = Cert.ReferenceIdeal.RefRun.refSumBM (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    funext fun j => (Cert.KernelIdeal.KValue.ktotal4 m c j).trans (Cert.ReferenceIdeal.RefTotals.sumBM_apply _ _ _ j).symm
  have e5 : (Host.reduceAdd (F := Ideal) (Cert.KernelIdeal.KValue.G5 m c) (constant (F := Ideal) Cert.KernelIdeal.S_ .f32 0x00000000#32) Cert.KernelIdeal.Facts₀.reducesTo_S2x1x1_S_d0_1_2 Cert.KernelIdeal.Facts₀.h_S_) = Cert.ReferenceIdeal.RefRun.refSumM (m ((c.tc : Thread Cert.KernelIdeal.nD Cert.KernelIdeal.τ).loc Cert.KernelIdeal.main_arg2)) :=
    funext fun j => (Cert.KernelIdeal.KValue.ktotal5 m c j).trans (Cert.ReferenceIdeal.RefTotals.sumM_apply _ j).symm
  have e6 : (Host.reduceAdd (F := Ideal) (Cert.KernelIdeal.KValue.G6 m c) (constant (F := Ideal) Cert.KernelIdeal.S_ .f32 0x00000000#32) Cert.KernelIdeal.Facts₀.reducesTo_S2x1x1_S_d0_1_2 Cert.KernelIdeal.Facts₀.h_S_) = Cert.ReferenceIdeal.RefRun.refSumBC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Detector.subR (m ((c.tc : Thread Cert.KernelIdeal.nD Cert.KernelIdeal.τ).loc Cert.KernelIdeal.main_arg3))) :=
    funext fun j => (Cert.KernelIdeal.KValue.ktotal6 m c j).trans (by rw [Cert.Detector.sub_eq]; exact (Cert.ReferenceIdeal.RefTotals.sumBC_apply _ _ _ _ j).symm)
  have e7 : (Host.reduceAdd (F := Ideal) (Cert.KernelIdeal.KValue.G7 m c) (constant (F := Ideal) Cert.KernelIdeal.S_ .f32 0x00000000#32) Cert.KernelIdeal.Facts₀.reducesTo_S2x1x1_S_d0_1_2 Cert.KernelIdeal.Facts₀.h_S_) = Cert.ReferenceIdeal.RefRun.refSumC (m ((c.tc : Thread Cert.KernelIdeal.nD Cert.KernelIdeal.τ).loc Cert.KernelIdeal.main_arg2)) (Cert.Detector.subR (m ((c.tc : Thread Cert.KernelIdeal.nD Cert.KernelIdeal.τ).loc Cert.KernelIdeal.main_arg3))) :=
    funext fun j => (Cert.KernelIdeal.KValue.ktotal7 m c j).trans (by rw [Cert.Detector.sub_eq]; exact (Cert.ReferenceIdeal.RefTotals.sumC_apply _ _ j).symm)
  rw [e4, e5, e6, e7]

/-- At the ideal instance the kernel program and the reference, run from memories that agree on the arguments, end
    with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.tailK (Cert.KernelIdeal.KValue.G4 m c) (Cert.KernelIdeal.KValue.G5 m c) (Cert.KernelIdeal.KValue.G6 m c) (Cert.KernelIdeal.KValue.G7 m c),
    Cert.KernelIdeal.KValue.run m ρ, ?_⟩
  refine (θ_run Cert.ReferenceIdeal.defs _ _).mono (fun _ h c => ⟨(h c).1.trans ?_, (h c).2⟩) (Cert.ReferenceIdeal.RefRead.run m' ρ')
  rw [(hagree c).1, (hagree c).2.1, (hagree c).2.2.1, (hagree c).2.2.2]
  exact (out_eq m c).symm

end Cert.Bridge

end
-- ==== Proof.lean ====
/- The proof of `Cert.Claim`: the five conjuncts.

   The three frames: the kernel program at the word level and at the ideal instance run to completion with their
   arguments unchanged (the generated frames of the sixteen-point grid); the reference is a straight line of host
   operations and its run keeps its arguments. The ideal pass rewrote nothing, so `preserves` is `True`. The value
   claim: at the ideal instance both programs return the same extended real — a shared last step applied to four sums
   that agree (Proof/Bridge.lean). -/
import proofs.«148992_j53300544143793_2_alg».proof.Defs
import proofs.«148992_j53300544143793_2_alg».proof.Proof.Gen.Kernel
import proofs.«148992_j53300544143793_2_alg».proof.Proof.Gen.Kernel.Skeleton
import proofs.«148992_j53300544143793_2_alg».proof.Proof.Gen.Kernel.Launch
import proofs.«148992_j53300544143793_2_alg».proof.Proof.Gen.Kernel.Points
import proofs.«148992_j53300544143793_2_alg».proof.Proof.Gen.Kernel.Frame
import proofs.«148992_j53300544143793_2_alg».proof.Proof.Gen.KernelIdeal
import proofs.«148992_j53300544143793_2_alg».proof.Proof.Gen.KernelIdeal.Skeleton
import proofs.«148992_j53300544143793_2_alg».proof.Proof.Gen.KernelIdeal.Launch
import proofs.«148992_j53300544143793_2_alg».proof.Proof.Gen.KernelIdeal.Points
import proofs.«148992_j53300544143793_2_alg».proof.Proof.Gen.KernelIdeal.Frame
import proofs.«148992_j53300544143793_2_alg».proof.Proof.Gen.ReferenceIdeal
import proofs.«148992_j53300544143793_2_alg».proof.Proof.Gen.Pre_finite_inputs
import proofs.«148992_j53300544143793_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRead.run m ρ),
  trivial,
  Cert.Bridge.algebraic⟩

end Cert.Proof

end
